-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 21
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_15 : BitVec 32 := 0#32
  let v37 : BitVec 1 := Scalar.cmpi .ne v36 c0_i32_15
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_15 : BitVec 32 := 0#32
  let v37 : BitVec 1 := Scalar.cmpi .ne v36 c0_i32_15
  v37

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S256x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x256, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S1x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S256x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_15 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_v58 : Ref sig .tc := ⟨.hbm, 78, rfl⟩
abbrev main_cst_17 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_18 : Ref sig .tc := ⟨.hbm, 83, rfl⟩
abbrev main_v62 : Ref sig .tc := ⟨.hbm, 84, rfl⟩
abbrev main_cst_19 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KB0.Setup.lean ====
/-
  Call 0 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.Kernel.Launch
import proofs.«139631_j39135742001578_2_alg».proof.Proof.Gen.Kernel.Skeleton
import proofs.«139631_j39135742001578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid0.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg0.N, isFirst (grid0.coords t) ↔ t.val % 8 = 0 :=
  (by decide +kernel : ∀ t : Fin grid0.N, isFirst (grid0.coords t) ↔ t.val % 8 = 0)

/-- "This is the last point of its row of the grid" (j = 7), as the body computes it. -/
abbrev isLast (i : grid0.Coords) : Prop := k0_cond2 i = 1#1
/-- It holds exactly at the points 8·i + 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Off a row's last point the output window is idle and is not written back. -/
theorem idle_2 : ∀ t : Fin cfg0.N, ¬isLast (grid0.coords t) → cfg0.idle 2 (grid0.coords t) = true := by decide +kernel
theorem noFlush_2 : ∀ t : Fin cfg0.N, ¬isLast (grid0.coords t) → (cfg0.win 2).flush t = false := by decide +kernel
/-- At a row's last point it is live. -/
theorem live_2 : ∀ t : Fin cfg0.N, isLast (grid0.coords t) → cfg0.idle 2 (grid0.coords t) = false := by decide +kernel

/-! ## The memrefs the body is called with -/

abbrev mX (t : Fin cfg0.N) : Memref sig .tc .vmem S1024x256 .f32 := win0_0.stage (cfg0.slots t 0)
abbrev hX (t : Fin cfg0.N) : (mX t).IsWhole := hstage0_0 ((cfg0.slots t 0).cast nbuf0_0)
abbrev mY (t : Fin cfg0.N) : Memref sig .tc .vmem S1024x256 .f32 := win0_1.stage (cfg0.slots t 1)
abbrev hY (t : Fin cfg0.N) : (mY t).IsWhole := hstage0_1 ((cfg0.slots t 1).cast nbuf0_1)
abbrev mO (t : Fin cfg0.N) : Memref sig .tc .vmem S1024x1 .f32 := win0_2.stage (cfg0.slots t 2)
abbrev hO (t : Fin cfg0.N) : (mO t).IsWhole := hstage0_2 ((cfg0.slots t 2).cast nbuf0_2)
/-- The accumulator column: a scratch buffer of the call's own. -/
abbrev mAcc : Memref sig .tc .vmem S1024x1 .f32 := Memref.whole cc0_scratch0
/-- A view through which a column's contents are stated. -/
abbrev vAcc : View sig .tc .vmem S1024x1 .f32 := (mAcc).view
abbrev vOut : View sig .tc .vmem S1024x1 .f32 := (Memref.whole cc0_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc0_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Reg0

end
-- ==== Proof.KB0.RunFirst.lean ====
/-
  The body of call 0 run once, symbolically, at the first point of a row of the grid (the accumulator is reset, then added to; the output's buffer is not touched).
  What it leaves in each buffer it stores into is recorded as the list of its stores (last first), found by the run itself.
-/
import proofs.«139631_j39135742001578_2_alg».proof.Proof.KB0.Setup

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨[], ?_, fun yo E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg0

end
-- ==== Proof.KB0.RunMid.lean ====
/-
  The body of call 0 run once, symbolically, at an inner point of a row of the grid (the accumulator is added to; the output's buffer is not touched).
  What it leaves in each buffer it stores into is recorded as the list of its stores (last first), found by the run itself.
-/
import proofs.«139631_j39135742001578_2_alg».proof.Proof.KB0.RunFirst

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨[], ?_, fun yo E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg0

end
-- ==== Proof.KB0.RunLast.lean ====
/-
  The body of call 0 run once, symbolically, at the last point of a row of the grid (the accumulator is added to, then copied into the output's buffer).
  What it leaves in each buffer it stores into is recorded as the list of its stores (last first), found by the run itself.
-/
import proofs.«139631_j39135742001578_2_alg».proof.Proof.KB0.RunMid

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨?_, ?_, fun E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.Kernel.Reg0

end
-- ==== Proof.KB0.Points.lean ====
/-
  Call 0 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KB0.RunLast

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg0.N) (h0 : isFirst (grid0.coords t)) (h1 : ¬isLast (grid0.coords t)) (x0 y0 : Vec F S1024x256 .f32) (y : S1024x1.Idx) :
    ∃ pc ∈ (runFirst c (grid0.coords t) (mX t) (hX t) (mY t) (hY t) (mO t) (hO t) mAcc (Memref.isWhole_whole _) h0 h1 x0 y0).2.1, y ∈ pc.1.set :=
  View.cover_of_tiledL (runFirst c (grid0.coords t) (mX t) (hX t) (mY t) (hY t) (mO t) (hO t) mAcc (Memref.isWhole_whole _) h0 h1 x0 y0).2.1 S1024x1.size (by sl_kernel_rfl) y
theorem coverMid (c : Dev nD) (t : Fin cfg0.N) (h0 : ¬isFirst (grid0.coords t)) (h1 : ¬isLast (grid0.coords t)) (x0 y0 : Vec F S1024x256 .f32) (s : Vec F S1024x1 .f32) (y : S1024x1.Idx) :
    ∃ pc ∈ (runMid c (grid0.coords t) (mX t) (hX t) (mY t) (hY t) (mO t) (hO t) mAcc (Memref.isWhole_whole _) h0 h1 x0 y0 s).2.1, y ∈ pc.1.set :=
  View.cover_of_tiledL (runMid c (grid0.coords t) (mX t) (hX t) (mY t) (hY t) (mO t) (hO t) mAcc (Memref.isWhole_whole _) h0 h1 x0 y0 s).2.1 S1024x1.size (by sl_kernel_rfl) y
theorem coverLast (c : Dev nD) (t : Fin cfg0.N) (h0 : ¬isFirst (grid0.coords t)) (h1 : isLast (grid0.coords t)) (x0 y0 : Vec F S1024x256 .f32) (s : Vec F S1024x1 .f32) (y : S1024x1.Idx) :
    ∃ pc ∈ (runLast c (grid0.coords t) (mX t) (hX t) (mY t) (hY t) (mO t) (hO t) mAcc (Memref.isWhole_whole _) h0 h1 x0 y0 s).2.1, y ∈ pc.1.set :=
  View.cover_of_tiledL (runLast c (grid0.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg0.N) (h0 : ¬isFirst (grid0.coords t)) (h1 : isLast (grid0.coords t)) (x0 y0 : Vec F S1024x256 .f32) (s : Vec F S1024x1 .f32) (y : S1024x1.Idx) :
    ∃ pc ∈ (runLast c (grid0.coords t) (mX t) (hX t) (mY t) (hY t) (mO t) (hO t) mAcc (Memref.isWhole_whole _) h0 h1 x0 y0 s).1, y ∈ pc.1.set :=
  View.cover_of_tiledL (runLast c (grid0.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg0.N) (h0 : isFirst (grid0.coords t)) (h1 : ¬isLast (grid0.coords t)) (x0 y0 : Vec F S1024x256 .f32) : Vec F S1024x1 .f32 :=
  vAcc.read (Elt F) (vAcc.writes (Elt F) vAcc.junk (runFirst c (grid0.coords t) (mX t) (hX t) (mY t) (hY t) (mO t) (hO t) mAcc (Memref.isWhole_whole _) h0 h1 x0 y0).2.1)
/-- The accumulator after an inner point, from what the point before left. -/
def accMid (c : Dev nD) (t : Fin cfg0.N) (h0 : ¬isFirst (grid0.coords t)) (h1 : ¬isLast (grid0.coords t)) (x0 y0 : Vec F S1024x256 .f32) (s : Vec F S1024x1 .f32) : Vec F S1024x1 .f32 :=
  vAcc.read (Elt F) (vAcc.writes (Elt F) vAcc.junk (runMid c (grid0.coords t) (mX t) (hX t) (mY t) (hY t) (mO t) (hO t) mAcc (Memref.isWhole_whole _) h0 h1 x0 y0 s).2.1)
/-- The accumulator after a row's last point, from what the point before left. -/
def accLast (c : Dev nD) (t : Fin cfg0.N) (h0 : ¬isFirst (grid0.coords t)) (h1 : isLast (grid0.coords t)) (x0 y0 : Vec F S1024x256 .f32) (s : Vec F S1024x1 .f32) : Vec F S1024x1 .f32 :=
  vAcc.read (Elt F) (vAcc.writes (Elt F) vAcc.junk (runLast c (grid0.coords t) (mX t) (hX t) (mY t) (hY t) (mO t) (hO t) mAcc (Memref.isWhole_whole _) h0 h1 x0 y0 s).2.1)
/-- The output's buffer after a row's last point. -/
def outLast (c : Dev nD) (t : Fin cfg0.N) (h0 : ¬isFirst (grid0.coords t)) (h1 : isLast (grid0.coords t)) (x0 y0 : Vec F S1024x256 .f32) (s : Vec F S1024x1 .f32) : Vec F S1024x1 .f32 :=
  vOut.read (Elt F) (vOut.writes (Elt F) vOut.junk (runLast c (grid0.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg0.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg0.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg0.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg0.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg0.N → sProp 𝕄
  | 0, _ => Pipeline.ΦA spec0 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg0.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg0.W) : (dat V qs c).A w = V c (Pipeline.arrRef spec0 w) := by
  dsimp only [dat]
theorem Phi_castSucc (c : Dev nD) (t : Fin cfg0.N) :
    (dat V qs c).Φ t.castSucc = PhiS V c t.val (Nat.le_of_lt t.isLt) := by
  dsimp only [dat]; simp only [Fin.coe_castSucc]
theorem after_0 (c : Dev nD) (t : Fin cfg0.N) : (dat V qs c).after 0 t = iblk V c 0 t := by dsimp only [dat]
theorem after_1 (c : Dev nD) (t : Fin cfg0.N) : (dat V qs c).after 1 t = iblk V c 1 t := by dsimp only [dat]
theorem after_2 (c : Dev nD) (t : Fin cfg0.N) : (dat V qs c).after 2 t = (holdsAt V c t.val t.isLt).2 := by dsimp only [dat]
theorem before_0 (c : Dev nD) (t : Fin cfg0.N) (d) : (dat V qs c).before 0 t d = iblk V c 0 t :=
  before_0_of V (dat V qs c) (A_eq V qs c 0) (after_0 V qs c) t d
theorem before_1 (c : Dev nD) (t : Fin cfg0.N) (d) : (dat V qs c).before 1 t d = iblk V c 1 t :=
  before_1_of V (dat V qs c) (A_eq V qs c 1) (after_1 V qs c) t d

/-! ## The body's obligation -/

def bodyPre (c : Dev nD) (t : Fin cfg0.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg0.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg0.N) :
    bodyPre V qs c t ⊢ wp frame (wpE (defs₀ (F := F)) Variants.none c none) Set.univ (bodyAt0 t) (fun _ => bodyPost V qs c t) := by
  unfold bodyPre bodyPost bodyAt0
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg0.N = 64 from N_0)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid0.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid0.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid0.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid0.coords t) := fun h => h0 ((isFirst_iff t).mp h)
    have hz : t.val ≠ 0 := fun h => h0 (by rw [h])
    by_cases h1 : t.val % 8 = 7
    · have hl : isLast (grid0.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid0.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid0.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid0.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W0, bigSep_W0]
  exact sound_body V qs c t

/-- What the call is handed is the invariant before the first point. -/
theorem hin (c : Dev nD) : Pipeline.ΦA spec0 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg0.N) ⊢ Pipeline.ΦA spec0 c := by
  rw [show (dat V qs c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hoth⟩, Hg⟩
  isplitl [HS Hoth]
  · isplitl [HS]
    · iexists _; iexact HS
    iexact Hoth
  iexact Hg

end Cert.Kernel.Reg0

end
-- ==== Proof.KB1.Setup.lean ====
/-
  Call 1 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.Kernel.Launch
import proofs.«139631_j39135742001578_2_alg».proof.Proof.Gen.Kernel.Skeleton
import proofs.«139631_j39135742001578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid1.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg1.N, isFirst (grid1.coords t) ↔ t.val % 8 = 0 :=
  (by decide +kernel : ∀ t : Fin grid1.N, isFirst (grid1.coords t) ↔ t.val % 8 = 0)

/-- "This is the last point of its row of the grid" (j = 7), as the body computes it. -/
abbrev isLast (i : grid1.Coords) : Prop := k1_cond2 i = 1#1
/-- It holds exactly at the points 8·i + 7. -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Off a row's last point the output window is idle and is not written back. -/
theorem idle_2 : ∀ t : Fin cfg1.N, ¬isLast (grid1.coords t) → cfg1.idle 2 (grid1.coords t) = true := by decide +kernel
theorem noFlush_2 : ∀ t : Fin cfg1.N, ¬isLast (grid1.coords t) → (cfg1.win 2).flush t = false := by decide +kernel
/-- At a row's last point it is live. -/
theorem live_2 : ∀ t : Fin cfg1.N, isLast (grid1.coords t) → cfg1.idle 2 (grid1.coords t) = false := by decide +kernel

/-! ## The memrefs the body is called with -/

abbrev mX (t : Fin cfg1.N) : Memref sig .tc .vmem S1024x256 .f32 := win1_0.stage (cfg1.slots t 0)
abbrev hX (t : Fin cfg1.N) : (mX t).IsWhole := hstage1_0 ((cfg1.slots t 0).cast nbuf1_0)
abbrev mY (t : Fin cfg1.N) : Memref sig .tc .vmem S1024x256 .f32 := win1_1.stage (cfg1.slots t 1)
abbrev hY (t : Fin cfg1.N) : (mY t).IsWhole := hstage1_1 ((cfg1.slots t 1).cast nbuf1_1)
abbrev mO (t : Fin cfg1.N) : Memref sig .tc .vmem S1024x1 .f32 := win1_2.stage (cfg1.slots t 2)
abbrev hO (t : Fin cfg1.N) : (mO t).IsWhole := hstage1_2 ((cfg1.slots t 2).cast nbuf1_2)
/-- The accumulator column: a scratch buffer of the call's own. -/
abbrev mAcc : Memref sig .tc .vmem S1024x1 .f32 := Memref.whole cc1_scratch0
/-- A view through which a column's contents are stated. -/
abbrev vAcc : View sig .tc .vmem S1024x1 .f32 := (mAcc).view
abbrev vOut : View sig .tc .vmem S1024x1 .f32 := (Memref.whole cc1_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc1_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Reg1

end
-- ==== Proof.KB1.RunFirst.lean ====
/-
  The body of call 1 run once, symbolically, at the first point of a row of the grid (the accumulator is reset, then added to; the output's buffer is not touched).
  What it leaves in each buffer it stores into is recorded as the list of its stores (last first), found by the run itself.
-/
import proofs.«139631_j39135742001578_2_alg».proof.Proof.KB1.Setup

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨[], ?_, fun yo E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg1

end
-- ==== Proof.KB1.RunMid.lean ====
/-
  The body of call 1 run once, symbolically, at an inner point of a row of the grid (the accumulator is added to; the output's buffer is not touched).
  What it leaves in each buffer it stores into is recorded as the list of its stores (last first), found by the run itself.
-/
import proofs.«139631_j39135742001578_2_alg».proof.Proof.KB1.RunFirst

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨[], ?_, fun yo E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg1

end
-- ==== Proof.KB1.RunLast.lean ====
/-
  The body of call 1 run once, symbolically, at the last point of a row of the grid (the accumulator is added to, then copied into the output's buffer).
  What it leaves in each buffer it stores into is recorded as the list of its stores (last first), found by the run itself.
-/
import proofs.«139631_j39135742001578_2_alg».proof.Proof.KB1.RunMid

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨?_, ?_, fun E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.Kernel.Reg1

end
-- ==== Proof.KB1.Points.lean ====
/-
  Call 1 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KB1.RunLast

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg1.N) (h0 : isFirst (grid1.coords t)) (h1 : ¬isLast (grid1.coords t)) (x0 y0 : Vec F S1024x256 .f32) (y : S1024x1.Idx) :
    ∃ pc ∈ (runFirst c (grid1.coords t) (mX t) (hX t) (mY t) (hY t) (mO t) (hO t) mAcc (Memref.isWhole_whole _) h0 h1 x0 y0).2.1, y ∈ pc.1.set :=
  View.cover_of_tiledL (runFirst c (grid1.coords t) (mX t) (hX t) (mY t) (hY t) (mO t) (hO t) mAcc (Memref.isWhole_whole _) h0 h1 x0 y0).2.1 S1024x1.size (by sl_kernel_rfl) y
theorem coverMid (c : Dev nD) (t : Fin cfg1.N) (h0 : ¬isFirst (grid1.coords t)) (h1 : ¬isLast (grid1.coords t)) (x0 y0 : Vec F S1024x256 .f32) (s : Vec F S1024x1 .f32) (y : S1024x1.Idx) :
    ∃ pc ∈ (runMid c (grid1.coords t) (mX t) (hX t) (mY t) (hY t) (mO t) (hO t) mAcc (Memref.isWhole_whole _) h0 h1 x0 y0 s).2.1, y ∈ pc.1.set :=
  View.cover_of_tiledL (runMid c (grid1.coords t) (mX t) (hX t) (mY t) (hY t) (mO t) (hO t) mAcc (Memref.isWhole_whole _) h0 h1 x0 y0 s).2.1 S1024x1.size (by sl_kernel_rfl) y
theorem coverLast (c : Dev nD) (t : Fin cfg1.N) (h0 : ¬isFirst (grid1.coords t)) (h1 : isLast (grid1.coords t)) (x0 y0 : Vec F S1024x256 .f32) (s : Vec F S1024x1 .f32) (y : S1024x1.Idx) :
    ∃ pc ∈ (runLast c (grid1.coords t) (mX t) (hX t) (mY t) (hY t) (mO t) (hO t) mAcc (Memref.isWhole_whole _) h0 h1 x0 y0 s).2.1, y ∈ pc.1.set :=
  View.cover_of_tiledL (runLast c (grid1.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg1.N) (h0 : ¬isFirst (grid1.coords t)) (h1 : isLast (grid1.coords t)) (x0 y0 : Vec F S1024x256 .f32) (s : Vec F S1024x1 .f32) (y : S1024x1.Idx) :
    ∃ pc ∈ (runLast c (grid1.coords t) (mX t) (hX t) (mY t) (hY t) (mO t) (hO t) mAcc (Memref.isWhole_whole _) h0 h1 x0 y0 s).1, y ∈ pc.1.set :=
  View.cover_of_tiledL (runLast c (grid1.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg1.N) (h0 : isFirst (grid1.coords t)) (h1 : ¬isLast (grid1.coords t)) (x0 y0 : Vec F S1024x256 .f32) : Vec F S1024x1 .f32 :=
  vAcc.read (Elt F) (vAcc.writes (Elt F) vAcc.junk (runFirst c (grid1.coords t) (mX t) (hX t) (mY t) (hY t) (mO t) (hO t) mAcc (Memref.isWhole_whole _) h0 h1 x0 y0).2.1)
/-- The accumulator after an inner point, from what the point before left. -/
def accMid (c : Dev nD) (t : Fin cfg1.N) (h0 : ¬isFirst (grid1.coords t)) (h1 : ¬isLast (grid1.coords t)) (x0 y0 : Vec F S1024x256 .f32) (s : Vec F S1024x1 .f32) : Vec F S1024x1 .f32 :=
  vAcc.read (Elt F) (vAcc.writes (Elt F) vAcc.junk (runMid c (grid1.coords t) (mX t) (hX t) (mY t) (hY t) (mO t) (hO t) mAcc (Memref.isWhole_whole _) h0 h1 x0 y0 s).2.1)
/-- The accumulator after a row's last point, from what the point before left. -/
def accLast (c : Dev nD) (t : Fin cfg1.N) (h0 : ¬isFirst (grid1.coords t)) (h1 : isLast (grid1.coords t)) (x0 y0 : Vec F S1024x256 .f32) (s : Vec F S1024x1 .f32) : Vec F S1024x1 .f32 :=
  vAcc.read (Elt F) (vAcc.writes (Elt F) vAcc.junk (runLast c (grid1.coords t) (mX t) (hX t) (mY t) (hY t) (mO t) (hO t) mAcc (Memref.isWhole_whole _) h0 h1 x0 y0 s).2.1)
/-- The output's buffer after a row's last point. -/
def outLast (c : Dev nD) (t : Fin cfg1.N) (h0 : ¬isFirst (grid1.coords t)) (h1 : isLast (grid1.coords t)) (x0 y0 : Vec F S1024x256 .f32) (s : Vec F S1024x1 .f32) : Vec F S1024x1 .f32 :=
  vOut.read (Elt F) (vOut.writes (Elt F) vOut.junk (runLast c (grid1.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg1.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg1.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg1.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg1.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg1.N → sProp 𝕄
  | 0, _ => Pipeline.ΦA spec1 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg1.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg1.W) : (dat V qs c).A w = V c (Pipeline.arrRef spec1 w) := by
  dsimp only [dat]
theorem Phi_castSucc (c : Dev nD) (t : Fin cfg1.N) :
    (dat V qs c).Φ t.castSucc = PhiS V c t.val (Nat.le_of_lt t.isLt) := by
  dsimp only [dat]; simp only [Fin.coe_castSucc]
theorem after_0 (c : Dev nD) (t : Fin cfg1.N) : (dat V qs c).after 0 t = iblk V c 0 t := by dsimp only [dat]
theorem after_1 (c : Dev nD) (t : Fin cfg1.N) : (dat V qs c).after 1 t = iblk V c 1 t := by dsimp only [dat]
theorem after_2 (c : Dev nD) (t : Fin cfg1.N) : (dat V qs c).after 2 t = (holdsAt V c t.val t.isLt).2 := by dsimp only [dat]
theorem before_0 (c : Dev nD) (t : Fin cfg1.N) (d) : (dat V qs c).before 0 t d = iblk V c 0 t :=
  before_0_of V (dat V qs c) (A_eq V qs c 0) (after_0 V qs c) t d
theorem before_1 (c : Dev nD) (t : Fin cfg1.N) (d) : (dat V qs c).before 1 t d = iblk V c 1 t :=
  before_1_of V (dat V qs c) (A_eq V qs c 1) (after_1 V qs c) t d

/-! ## The body's obligation -/

def bodyPre (c : Dev nD) (t : Fin cfg1.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg1.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg1.N) :
    bodyPre V qs c t ⊢ wp frame (wpE (defs₀ (F := F)) Variants.none c none) Set.univ (bodyAt1 t) (fun _ => bodyPost V qs c t) := by
  unfold bodyPre bodyPost bodyAt1
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg1.N = 64 from N_1)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid1.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid1.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid1.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid1.coords t) := fun h => h0 ((isFirst_iff t).mp h)
    have hz : t.val ≠ 0 := fun h => h0 (by rw [h])
    by_cases h1 : t.val % 8 = 7
    · have hl : isLast (grid1.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid1.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid1.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid1.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W1, bigSep_W1]
  exact sound_body V qs c t

/-- What the call is handed is the invariant before the first point. -/
theorem hin (c : Dev nD) : Pipeline.ΦA spec1 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg1.N) ⊢ Pipeline.ΦA spec1 c := by
  rw [show (dat V qs c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HS, Hoth⟩, Hg⟩
  isplitl [HS Hoth]
  · isplitl [HS]
    · iexists _; iexact HS
    iexact Hoth
  iexact Hg

end Cert.Kernel.Reg1

end
-- ==== Proof.KB2.Setup.lean ====
/-
  Call 2 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.Kernel.Launch
import proofs.«139631_j39135742001578_2_alg».proof.Proof.Gen.Kernel.Skeleton
import proofs.«139631_j39135742001578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid2.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg2.N, isFirst (grid2.coords t) ↔ t.val % 8 = 0 :=
  (by decide +kernel : ∀ t : Fin grid2.N, isFirst (grid2.coords t) ↔ t.val % 8 = 0)

/-- "This is the last point of its row of the grid" (j = 7), as the body computes it. -/
abbrev isLast (i : grid2.Coords) : Prop := k2_cond2 i = 1#1
/-- It holds exactly at the points 8·i + 7. -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
/-- Off a row's last point the output window is idle and is not written back. -/
theorem idle_2 : ∀ t : Fin cfg2.N, ¬isLast (grid2.coords t) → cfg2.idle 2 (grid2.coords t) = true := by decide +kernel
theorem noFlush_2 : ∀ t : Fin cfg2.N, ¬isLast (grid2.coords t) → (cfg2.win 2).flush t = false := by decide +kernel
/-- At a row's last point it is live. -/
theorem live_2 : ∀ t : Fin cfg2.N, isLast (grid2.coords t) → cfg2.idle 2 (grid2.coords t) = false := by decide +kernel

/-! ## The memrefs the body is called with -/

abbrev mX (t : Fin cfg2.N) : Memref sig .tc .vmem S1024x256 .f32 := win2_0.stage (cfg2.slots t 0)
abbrev hX (t : Fin cfg2.N) : (mX t).IsWhole := hstage2_0 ((cfg2.slots t 0).cast nbuf2_0)
abbrev mY (t : Fin cfg2.N) : Memref sig .tc .vmem S1024x256 .f32 := win2_1.stage (cfg2.slots t 1)
abbrev hY (t : Fin cfg2.N) : (mY t).IsWhole := hstage2_1 ((cfg2.slots t 1).cast nbuf2_1)
abbrev mO (t : Fin cfg2.N) : Memref sig .tc .vmem S1024x1 .f32 := win2_2.stage (cfg2.slots t 2)
abbrev hO (t : Fin cfg2.N) : (mO t).IsWhole := hstage2_2 ((cfg2.slots t 2).cast nbuf2_2)
/-- The accumulator column: a scratch buffer of the call's own. -/
abbrev mAcc : Memref sig .tc .vmem S1024x1 .f32 := Memref.whole cc2_scratch0
/-- A view through which a column's contents are stated. -/
abbrev vAcc : View sig .tc .vmem S1024x1 .f32 := (mAcc).view
abbrev vOut : View sig .tc .vmem S1024x1 .f32 := (Memref.whole cc2_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec2 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc2_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Reg2

end
-- ==== Proof.KB2.RunFirst.lean ====
/-
  The body of call 2 run once, symbolically, at the first point of a row of the grid (the accumulator is reset, then added to; the output's buffer is not touched).
  What it leaves in each buffer it stores into is recorded as the list of its stores (last first), found by the run itself.
-/
import proofs.«139631_j39135742001578_2_alg».proof.Proof.KB2.Setup

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨[], ?_, fun yo E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg2

end
-- ==== Proof.KB2.RunMid.lean ====
/-
  The body of call 2 run once, symbolically, at an inner point of a row of the grid (the accumulator is added to; the output's buffer is not touched).
  What it leaves in each buffer it stores into is recorded as the list of its stores (last first), found by the run itself.
-/
import proofs.«139631_j39135742001578_2_alg».proof.Proof.KB2.RunFirst

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨[], ?_, fun yo E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.Kernel.Reg2

end
-- ==== Proof.KB2.RunLast.lean ====
/-
  The body of call 2 run once, symbolically, at the last point of a row of the grid (the accumulator is added to, then copied into the output's buffer).
  What it leaves in each buffer it stores into is recorded as the list of its stores (last first), found by the run itself.
-/
import proofs.«139631_j39135742001578_2_alg».proof.Proof.KB2.RunMid

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨?_, ?_, fun E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.Kernel.Reg2

end
-- ==== Proof.KB2.Points.lean ====
/-
  Call 2 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KB2.RunLast

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg2.N) (h0 : isFirst (grid2.coords t)) (h1 : ¬isLast (grid2.coords t)) (x0 y0 : Vec F S1024x256 .f32) (y : S1024x1.Idx) :
    ∃ pc ∈ (runFirst c (grid2.coords t) (mX t) (hX t) (mY t) (hY t) (mO t) (hO t) mAcc (Memref.isWhole_whole _) h0 h1 x0 y0).2.1, y ∈ pc.1.set :=
  View.cover_of_tiledL (runFirst c (grid2.coords t) (mX t) (hX t) (mY t) (hY t) (mO t) (hO t) mAcc (Memref.isWhole_whole _) h0 h1 x0 y0).2.1 S1024x1.size (by sl_kernel_rfl) y
theorem coverMid (c : Dev nD) (t : Fin cfg2.N) (h0 : ¬isFirst (grid2.coords t)) (h1 : ¬isLast (grid2.coords t)) (x0 y0 : Vec F S1024x256 .f32) (s : Vec F S1024x1 .f32) (y : S1024x1.Idx) :
    ∃ pc ∈ (runMid c (grid2.coords t) (mX t) (hX t) (mY t) (hY t) (mO t) (hO t) mAcc (Memref.isWhole_whole _) h0 h1 x0 y0 s).2.1, y ∈ pc.1.set :=
  View.cover_of_tiledL (runMid c (grid2.coords t) (mX t) (hX t) (mY t) (hY t) (mO t) (hO t) mAcc (Memref.isWhole_whole _) h0 h1 x0 y0 s).2.1 S1024x1.size (by sl_kernel_rfl) y
theorem coverLast (c : Dev nD) (t : Fin cfg2.N) (h0 : ¬isFirst (grid2.coords t)) (h1 : isLast (grid2.coords t)) (x0 y0 : Vec F S1024x256 .f32) (s : Vec F S1024x1 .f32) (y : S1024x1.Idx) :
    ∃ pc ∈ (runLast c (grid2.coords t) (mX t) (hX t) (mY t) (hY t) (mO t) (hO t) mAcc (Memref.isWhole_whole _) h0 h1 x0 y0 s).2.1, y ∈ pc.1.set :=
  View.cover_of_tiledL (runLast c (grid2.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg2.N) (h0 : ¬isFirst (grid2.coords t)) (h1 : isLast (grid2.coords t)) (x0 y0 : Vec F S1024x256 .f32) (s : Vec F S1024x1 .f32) (y : S1024x1.Idx) :
    ∃ pc ∈ (runLast c (grid2.coords t) (mX t) (hX t) (mY t) (hY t) (mO t) (hO t) mAcc (Memref.isWhole_whole _) h0 h1 x0 y0 s).1, y ∈ pc.1.set :=
  View.cover_of_tiledL (runLast c (grid2.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg2.N) (h0 : isFirst (grid2.coords t)) (h1 : ¬isLast (grid2.coords t)) (x0 y0 : Vec F S1024x256 .f32) : Vec F S1024x1 .f32 :=
  vAcc.read (Elt F) (vAcc.writes (Elt F) vAcc.junk (runFirst c (grid2.coords t) (mX t) (hX t) (mY t) (hY t) (mO t) (hO t) mAcc (Memref.isWhole_whole _) h0 h1 x0 y0).2.1)
/-- The accumulator after an inner point, from what the point before left. -/
def accMid (c : Dev nD) (t : Fin cfg2.N) (h0 : ¬isFirst (grid2.coords t)) (h1 : ¬isLast (grid2.coords t)) (x0 y0 : Vec F S1024x256 .f32) (s : Vec F S1024x1 .f32) : Vec F S1024x1 .f32 :=
  vAcc.read (Elt F) (vAcc.writes (Elt F) vAcc.junk (runMid c (grid2.coords t) (mX t) (hX t) (mY t) (hY t) (mO t) (hO t) mAcc (Memref.isWhole_whole _) h0 h1 x0 y0 s).2.1)
/-- The accumulator after a row's last point, from what the point before left. -/
def accLast (c : Dev nD) (t : Fin cfg2.N) (h0 : ¬isFirst (grid2.coords t)) (h1 : isLast (grid2.coords t)) (x0 y0 : Vec F S1024x256 .f32) (s : Vec F S1024x1 .f32) : Vec F S1024x1 .f32 :=
  vAcc.read (Elt F) (vAcc.writes (Elt F) vAcc.junk (runLast c (grid2.coords t) (mX t) (hX t) (mY t) (hY t) (mO t) (hO t) mAcc (Memref.isWhole_whole _) h0 h1 x0 y0 s).2.1)
/-- The output's buffer after a row's last point. -/
def outLast (c : Dev nD) (t : Fin cfg2.N) (h0 : ¬isFirst (grid2.coords t)) (h1 : isLast (grid2.coords t)) (x0 y0 : Vec F S1024x256 .f32) (s : Vec F S1024x1 .f32) : Vec F S1024x1 .f32 :=
  vOut.read (Elt F) (vOut.writes (Elt F) vOut.junk (runLast c (grid2.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg2.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg2.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg2.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg2.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg2.N → sProp 𝕄
  | 0, _ => Pipeline.ΦA spec2 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg2.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg2.W) : (dat V qs c).A w = V c (Pipeline.arrRef spec2 w) := by
  dsimp only [dat]
theorem Phi_castSucc (c : Dev nD) (t : Fin cfg2.N) :
    (dat V qs c).Φ t.castSucc = PhiS V c t.val (Nat.le_of_lt t.isLt) := by
  dsimp only [dat]; simp only [Fin.coe_castSucc]
theorem after_0 (c : Dev nD) (t : Fin cfg2.N) : (dat V qs c).after 0 t = iblk V c 0 t := by dsimp only [dat]
theorem after_1 (c : Dev nD) (t : Fin cfg2.N) : (dat V qs c).after 1 t = iblk V c 1 t := by dsimp only [dat]
theorem after_2 (c : Dev nD) (t : Fin cfg2.N) : (dat V qs c).after 2 t = (holdsAt V c t.val t.isLt).2 := by dsimp only [dat]
theorem before_0 (c : Dev nD) (t : Fin cfg2.N) (d) : (dat V qs c).before 0 t d = iblk V c 0 t :=
  before_0_of V (dat V qs c) (A_eq V qs c 0) (after_0 V qs c) t d
theorem before_1 (c : Dev nD) (t : Fin cfg2.N) (d) : (dat V qs c).before 1 t d = iblk V c 1 t :=
  before_1_of V (dat V qs c) (A_eq V qs c 1) (after_1 V qs c) t d

/-! ## The body's obligation -/

def bodyPre (c : Dev nD) (t : Fin cfg2.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg2.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg2.N) :
    bodyPre V qs c t ⊢ wp frame (wpE (defs₀ (F := F)) Variants.none c none) Set.univ (bodyAt2 t) (fun _ => bodyPost V qs c t) := by
  unfold bodyPre bodyPost bodyAt2
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg2.N = 64 from N_2)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid2.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid2.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid2.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid2.coords t) := fun h => h0 ((isFirst_iff t).mp h)
    have hz : t.val ≠ 0 := fun h => h0 (by rw [h])
    by_cases h1 : t.val % 8 = 7
    · have hl : isLast (grid2.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid2.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid2.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid2.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W2, bigSep_W2]
  exact sound_body V qs c t

/-- What the call is handed is the invariant before the first point. -/
theorem hin (c : Dev nD) : Pipeline.ΦA spec2 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg2.N) ⊢ Pipeline.ΦA spec2 c := by
  rw [show (dat V qs c).Φ (Fin.last cfg2.N) = PhiS V c (Fin.last cfg2.N).val (Nat.le_of_lt_succ (Fin.last cfg2.N).isLt) from rfl,
    PhiS_pos V c _ _ (by rw [Fin.val_last]; have : cfg2.N = 64 := N_2; omega), PhiA_eq]
  iintro ⟨⟨HS, Hoth⟩, Hg⟩
  isplitl [HS Hoth]
  · isplitl [HS]
    · iexists _; iexact HS
    iexact Hoth
  iexact Hg

end Cert.Kernel.Reg2

end
-- ==== Proof.KBRun.lean ====
/-
  The whole program: its three calls and the host operations between and after them, run from the launch memory to the
  return. The core's unscoped buffers are followed from boundary to boundary: a call changes only its output column
  (to what its last grid points wrote back), a stretch of host operations changes only the buffers it writes.
  The first two calls read ONE array through both of their input windows; the array is then held in two halves, one
  per window, and put together again when the call is left.
-/
import proofs.«139631_j39135742001578_2_alg».proof.Proof.KB0.Points
import proofs.«139631_j39135742001578_2_alg».proof.Proof.KB1.Points
import proofs.«139631_j39135742001578_2_alg».proof.Proof.KB2.Points
import proofs.«139631_j39135742001578_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares the input arrays are held at -/

/-- One array read through two windows: a half for each. -/
abbrev halves : Fin 3 → PosShare TreeShare := fun | 0 => fullShare.left | 1 => fullShare.right | 2 => fullShare | ⟨_ + 3, h⟩ => absurd h (Nat.not_lt.2 (Nat.le_add_left _ _))
/-- Two distinct arrays: each whole. -/
abbrev wholes : Fin 3 → PosShare TreeShare := fun _ => fullShare

/-! ## The buffers' contents at each boundary -/

/-- At launch. -/
abbrev W0 (c : Dev nD) : Valuation τ sig (Elt F) := fun b => m (c, b)
abbrev U0 (c : Dev nD) (b : Ref sig .tc) : Buf (Elt F) ((c : Thread nD τ).loc b) := W0 m c b
/-- The column call 0 leaves. -/
def out0 (c : Dev nD) : Buf (Elt F) ((c : Thread nD τ).loc main_v0) := (Reg0.dat (U0 m) halves c).arrAt 2 cfg0.N
/-- After call 0. -/
def W1 (c : Dev nD) : Valuation τ sig (Elt F) := Function.update (W0 m c) main_v0 (out0 m c)
abbrev U1 (c : Dev nD) (b : Ref sig .tc) : Buf (Elt F) ((c : Thread nD τ).loc b) := W1 m c b
/-- After the first stretch of host operations. -/
abbrev W2 (c : Dev nD) : Valuation τ sig (Elt F) := StableHlo.after hostOps1 (W1 m c)
abbrev U2 (c : Dev nD) (b : Ref sig .tc) : Buf (Elt F) ((c : Thread nD τ).loc b) := W2 m c b
/-- The column call 1 leaves. -/
def out1 (c : Dev nD) : Buf (Elt F) ((c : Thread nD τ).loc main_v2) := (Reg1.dat (U2 m) halves c).arrAt 2 cfg1.N
/-- After call 1. -/
def W3 (c : Dev nD) : Valuation τ sig (Elt F) := Function.update (W2 m c) main_v2 (out1 m c)
abbrev U3 (c : Dev nD) (b : Ref sig .tc) : Buf (Elt F) ((c : Thread nD τ).loc b) := W3 m c b
/-- After the second stretch. -/
abbrev W4 (c : Dev nD) : Valuation τ sig (Elt F) := StableHlo.after hostOps2 (W3 m c)
abbrev U4 (c : Dev nD) (b : Ref sig .tc) : Buf (Elt F) ((c : Thread nD τ).loc b) := W4 m c b
/-- The column call 2 leaves. -/
def out2 (c : Dev nD) : Buf (Elt F) ((c : Thread nD τ).loc main_v4) := (Reg2.dat (U4 m) wholes c).arrAt 2 cfg2.N
/-- After call 2. -/
def W5 (c : Dev nD) : Valuation τ sig (Elt F) := Function.update (W4 m c) main_v4 (out2 m c)
abbrev U5 (c : Dev nD) (b : Ref sig .tc) : Buf (Elt F) ((c : Thread nD τ).loc b) := W5 m c b
/-- At the return. -/
abbrev W6 (c : Dev nD) : Valuation τ sig (Elt F) := StableHlo.after hostOps3 (W5 m c)

/-! ## The calls' data, and what rides along -/

/-- Each call's data at the contents it is entered from. -/
def pdats : (p : Fin 3) → (c : Dev nD) → Dat τ (Elt F) Unit ℕ (UR sig nD τ) ℕ (Pipeline.pin (pcfgs (F := F)) adm p) c
  | ⟨0, _⟩ => fun c => Reg0.dat (U0 m) halves c
  | ⟨1, _⟩ => fun c => Reg1.dat (U2 m) halves c
  | ⟨2, _⟩ => fun c => Reg2.dat (U4 m) wholes c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A whole array's points-to over its view's index set is the plain one. -/
theorem pt_whole {sp : Space} {sh : Shape} {e : EltTy} (a : Memref sig .tc sp sh e) (ha : a.IsWhole) (c : Dev nD) (q : PosShare TreeShare)
    (f : Buf (Elt F) (a.view.loc (c : Thread nD τ))) :
    ((a.view.loc (c : Thread nD τ)) ↦[a.view.set]{q} f : sProp 𝕄) = ((a.view.loc (c : Thread nD τ)) ↦{q} f) := by
  rw [ha.set_eq_univ]

abbrev Tₙ (c : Dev nD) : sProp 𝕄 := iprop(StableHlo.held (c : Thread nD τ) (Pipeline.ucRefs τ sig) (W6 m c) ∗ ∃ r, prngReg c r)

/-! ## Call 0 as a segment of the program -/

set_option backward.isDefEq.respectTransparency.types false in
/-- The arrays of call 0's windows, one conjunct per window, each a whole buffer. -/
theorem arrays0_eq (c : Dev nD) (Fa) :
    ((pdats m 0 c).arrays Fa : sProp 𝕄)
      = iprop((((Pipeline.pin (pcfgs (F := F)) adm 0).win 0).arr.view.loc (c : Thread nD τ) ↦{(pdats m 0 c).share 0} Fa 0)
          ∗ (((Pipeline.pin (pcfgs (F := F)) adm 0).win 1).arr.view.loc (c : Thread nD τ) ↦{(pdats m 0 c).share 1} Fa 1)
          ∗ (((Pipeline.pin (pcfgs (F := F)) adm 0).win 2).arr.view.loc (c : Thread nD τ) ↦{(pdats m 0 c).share 2} Fa 2)) := by
  unfold Pipeline.Dat.arrays
  rw [bigSep_W0]
  exact congrArg₂ (fun a b : sProp 𝕄 => iprop(a ∗ b)) (pt_whole _ (arr_whole0 0) c _ _)
    (congrArg₂ (fun a b : sProp 𝕄 => iprop(a ∗ b)) (pt_whole _ (arr_whole0 1) c _ _) (pt_whole _ (arr_whole0 2) c _ _))

/-- The buffers behind call 0's arrays. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) (cfgs 0).spec c Vv : sProp 𝕄)
      = bigSep ({main_arg0, main_v0} : Finset (Ref sig .tc)) fun b => (((c : Thread nD τ).loc b) ↦{fullShare} Vv b : sProp 𝕄) := by
  unfold Pipeline.arrBufs
  rw [show (Finset.univ.image (Pipeline.arrRef (cfgs 0).spec)) = ({main_arg0, main_v0} : Finset (Ref sig .tc)) from by decide]

/-- Leaving call 0 changes only its output's buffer. -/
theorem W1_of_ne (c : Dev nD) (b : Ref sig .tc) (hb : b ≠ main_v0) : W1 m c b = W0 m c b := by
  unfold W1
  exact Function.update_of_ne (StableHlo.devRef_ne_of_ne hb) _ _
theorem W1_out (c : Dev nD) : W1 m c main_v0 = out0 m c := by
  unfold W1
  exact Function.update_self ..

set_option backward.isDefEq.respectTransparency.types false in
/-- ENTRY: the core's unscoped buffers are the windows' arrays (the array both inputs read split in two halves) and the rest. -/
theorem entry0 (c : Dev nD) :
    (unscopedBufs (Ix := Unit) (Name := ℕ) (U := UR sig nD τ) (Lvl := ℕ) c (U0 m c) : sProp 𝕄)
      ⊢ iprop((pdats m 0 c).arrays ((pdats m 0 c).arrAt · 0) ∗ Pipeline.unscopedRest spec0 c (U0 m c)) := by
  rw [Pipeline.unscopedBufs_split₀ cfgs 0 winFacts₀0.arr_unscoped c (U0 m c), arrays0_eq, arrBufs0_eq]
  refine sep_mono ?_ .rfl
  rw [bigSep_insert (by decide), bigSep_singleton]
  show iprop((((c : Thread nD τ).loc main_arg0) ↦{fullShare} U0 m c main_arg0) ∗ (((c : Thread nD τ).loc main_v0) ↦{fullShare} U0 m c main_v0))
      ⊢ (iprop((((c : Thread nD τ).loc main_arg0) ↦{fullShare.left} U0 m c main_arg0) ∗ (((c : Thread nD τ).loc main_arg0) ↦{fullShare.right} U0 m c main_arg0) ∗ (((c : Thread nD τ).loc main_v0) ↦{fullShare} U0 m c main_v0)) : sProp 𝕄)
  iintro ⟨Ha, Ho⟩
  ihave H := (pointsTo_share (PosShare.mem_left_op_right fullShare)).1 $$ Ha
  icases H with ⟨Hl, Hr⟩
  isplitl [Hl]; · iexact Hl
  isplitl [Hr]; · iexact Hr
  iexact Ho

set_option backward.isDefEq.respectTransparency.types false in
/-- EXIT: the windows' arrays after the last point and the rest are the core's unscoped buffers at the next boundary. -/
theorem exit0 (c : Dev nD) :
    iprop((pdats m 0 c).arrays ((pdats m 0 c).arrAt · cfg0.N) ∗ Pipeline.unscopedRest spec0 c (U0 m c))
      ⊢ (unscopedBufs (Ix := Unit) (Name := ℕ) (U := UR sig nD τ) (Lvl := ℕ) c (U1 m c) : sProp 𝕄) := by
  rw [Pipeline.unscopedBufs_split₀ cfgs 0 winFacts₀0.arr_unscoped c (U1 m c), arrays0_eq, arrBufs0_eq]
  refine sep_mono ?_ (Entails.of_eq ?_)
  · rw [bigSep_insert (by decide), bigSep_singleton]
    rw [(pdats m 0 c).arrAt_in 0 rfl _, (pdats m 0 c).arrAt_in 1 rfl _]
    simp only [U1, W1_of_ne m c main_arg0 (by decide), W1_out]
    show (iprop((((c : Thread nD τ).loc main_arg0) ↦{fullShare.left} U0 m c main_arg0) ∗ (((c : Thread nD τ).loc main_arg0) ↦{fullShare.right} U0 m c main_arg0) ∗ (((c : Thread nD τ).loc main_v0) ↦{fullShare} out0 m c)) : sProp 𝕄)
      ⊢ iprop((((c : Thread nD τ).loc main_arg0) ↦{fullShare} U0 m c main_arg0) ∗ (((c : Thread nD τ).loc main_v0) ↦{fullShare} out0 m c))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    refine bigSep_congr fun b hb => ?_
    have hne : b ≠ main_v0 := fun h => (Finset.mem_sdiff.mp hb).2 (Finset.mem_image.mpr ⟨2, Finset.mem_univ _, h.symm⟩)
    simp only [U1, W1_of_ne m c b hne]

set_option backward.isDefEq.respectTransparency.types false in
/-- Call 0 over the thread state "every unscoped buffer at the boundary's contents, the generator register at some state,
    nothing owed": entered from the contents before it, left at those contents with its output column written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation (U0 m) halves c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg0.hin (U0 m) halves c)
    unfold Pipeline.ΦA
    iintro ⟨Hp, -, Hr⟩
    isplitl [Hr]; · iexact Hr
    iexact Hp
  hout c := by
    rw [Pipeline.ownSems0_none]
    refine Idealize.SL.BI.BIBase.Entails.trans (Reg0.hout (U0 m) halves c) ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 as a segment of the program -/

set_option backward.isDefEq.respectTransparency.types false in
/-- The arrays of call 1's windows, one conjunct per window, each a whole buffer. -/
theorem arrays1_eq (c : Dev nD) (Fa) :
    ((pdats m 1 c).arrays Fa : sProp 𝕄)
      = iprop((((Pipeline.pin (pcfgs (F := F)) adm 1).win 0).arr.view.loc (c : Thread nD τ) ↦{(pdats m 1 c).share 0} Fa 0)
          ∗ (((Pipeline.pin (pcfgs (F := F)) adm 1).win 1).arr.view.loc (c : Thread nD τ) ↦{(pdats m 1 c).share 1} Fa 1)
          ∗ (((Pipeline.pin (pcfgs (F := F)) adm 1).win 2).arr.view.loc (c : Thread nD τ) ↦{(pdats m 1 c).share 2} Fa 2)) := by
  unfold Pipeline.Dat.arrays
  rw [bigSep_W1]
  exact congrArg₂ (fun a b : sProp 𝕄 => iprop(a ∗ b)) (pt_whole _ (arr_whole1 0) c _ _)
    (congrArg₂ (fun a b : sProp 𝕄 => iprop(a ∗ b)) (pt_whole _ (arr_whole1 1) c _ _) (pt_whole _ (arr_whole1 2) c _ _))

/-- The buffers behind call 1's arrays. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) (cfgs 1).spec c Vv : sProp 𝕄)
      = bigSep ({main_arg1, main_v2} : Finset (Ref sig .tc)) fun b => (((c : Thread nD τ).loc b) ↦{fullShare} Vv b : sProp 𝕄) := by
  unfold Pipeline.arrBufs
  rw [show (Finset.univ.image (Pipeline.arrRef (cfgs 1).spec)) = ({main_arg1, main_v2} : Finset (Ref sig .tc)) from by decide]

/-- Leaving call 1 changes only its output's buffer. -/
theorem W3_of_ne (c : Dev nD) (b : Ref sig .tc) (hb : b ≠ main_v2) : W3 m c b = W2 m c b := by
  unfold W3
  exact Function.update_of_ne (StableHlo.devRef_ne_of_ne hb) _ _
theorem W3_out (c : Dev nD) : W3 m c main_v2 = out1 m c := by
  unfold W3
  exact Function.update_self ..

set_option backward.isDefEq.respectTransparency.types false in
/-- ENTRY: the core's unscoped buffers are the windows' arrays (the array both inputs read split in two halves) and the rest. -/
theorem entry1 (c : Dev nD) :
    (unscopedBufs (Ix := Unit) (Name := ℕ) (U := UR sig nD τ) (Lvl := ℕ) c (U2 m c) : sProp 𝕄)
      ⊢ iprop((pdats m 1 c).arrays ((pdats m 1 c).arrAt · 0) ∗ Pipeline.unscopedRest spec1 c (U2 m c)) := by
  rw [Pipeline.unscopedBufs_split₀ cfgs 1 winFacts₀1.arr_unscoped c (U2 m c), arrays1_eq, arrBufs1_eq]
  refine sep_mono ?_ .rfl
  rw [bigSep_insert (by decide), bigSep_singleton]
  show iprop((((c : Thread nD τ).loc main_arg1) ↦{fullShare} U2 m c main_arg1) ∗ (((c : Thread nD τ).loc main_v2) ↦{fullShare} U2 m c main_v2))
      ⊢ (iprop((((c : Thread nD τ).loc main_arg1) ↦{fullShare.left} U2 m c main_arg1) ∗ (((c : Thread nD τ).loc main_arg1) ↦{fullShare.right} U2 m c main_arg1) ∗ (((c : Thread nD τ).loc main_v2) ↦{fullShare} U2 m c main_v2)) : sProp 𝕄)
  iintro ⟨Ha, Ho⟩
  ihave H := (pointsTo_share (PosShare.mem_left_op_right fullShare)).1 $$ Ha
  icases H with ⟨Hl, Hr⟩
  isplitl [Hl]; · iexact Hl
  isplitl [Hr]; · iexact Hr
  iexact Ho

set_option backward.isDefEq.respectTransparency.types false in
/-- EXIT: the windows' arrays after the last point and the rest are the core's unscoped buffers at the next boundary. -/
theorem exit1 (c : Dev nD) :
    iprop((pdats m 1 c).arrays ((pdats m 1 c).arrAt · cfg1.N) ∗ Pipeline.unscopedRest spec1 c (U2 m c))
      ⊢ (unscopedBufs (Ix := Unit) (Name := ℕ) (U := UR sig nD τ) (Lvl := ℕ) c (U3 m c) : sProp 𝕄) := by
  rw [Pipeline.unscopedBufs_split₀ cfgs 1 winFacts₀1.arr_unscoped c (U3 m c), arrays1_eq, arrBufs1_eq]
  refine sep_mono ?_ (Entails.of_eq ?_)
  · rw [bigSep_insert (by decide), bigSep_singleton]
    rw [(pdats m 1 c).arrAt_in 0 rfl _, (pdats m 1 c).arrAt_in 1 rfl _]
    simp only [U3, W3_of_ne m c main_arg1 (by decide), W3_out]
    show (iprop((((c : Thread nD τ).loc main_arg1) ↦{fullShare.left} U2 m c main_arg1) ∗ (((c : Thread nD τ).loc main_arg1) ↦{fullShare.right} U2 m c main_arg1) ∗ (((c : Thread nD τ).loc main_v2) ↦{fullShare} out1 m c)) : sProp 𝕄)
      ⊢ iprop((((c : Thread nD τ).loc main_arg1) ↦{fullShare} U2 m c main_arg1) ∗ (((c : Thread nD τ).loc main_v2) ↦{fullShare} out1 m c))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    refine bigSep_congr fun b hb => ?_
    have hne : b ≠ main_v2 := fun h => (Finset.mem_sdiff.mp hb).2 (Finset.mem_image.mpr ⟨2, Finset.mem_univ _, h.symm⟩)
    simp only [U3, W3_of_ne m c b hne]

set_option backward.isDefEq.respectTransparency.types false in
/-- Call 1 over the thread state "every unscoped buffer at the boundary's contents, the generator register at some state,
    nothing owed": entered from the contents before it, left at those contents with its output column written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (U2 m) halves c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg1.hin (U2 m) halves c)
    unfold Pipeline.ΦA
    iintro ⟨Hp, -, Hr⟩
    isplitl [Hr]; · iexact Hr
    iexact Hp
  hout c := by
    rw [Pipeline.ownSems0_none]
    refine Idealize.SL.BI.BIBase.Entails.trans (Reg1.hout (U2 m) halves c) ?_
    unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 as a segment of the program -/

set_option backward.isDefEq.respectTransparency.types false in
/-- The arrays of call 2's windows, one conjunct per window, each a whole buffer. -/
theorem arrays2_eq (c : Dev nD) (Fa) :
    ((pdats m 2 c).arrays Fa : sProp 𝕄)
      = iprop((((Pipeline.pin (pcfgs (F := F)) adm 2).win 0).arr.view.loc (c : Thread nD τ) ↦{(pdats m 2 c).share 0} Fa 0)
          ∗ (((Pipeline.pin (pcfgs (F := F)) adm 2).win 1).arr.view.loc (c : Thread nD τ) ↦{(pdats m 2 c).share 1} Fa 1)
          ∗ (((Pipeline.pin (pcfgs (F := F)) adm 2).win 2).arr.view.loc (c : Thread nD τ) ↦{(pdats m 2 c).share 2} Fa 2)) := by
  unfold Pipeline.Dat.arrays
  rw [bigSep_W2]
  exact congrArg₂ (fun a b : sProp 𝕄 => iprop(a ∗ b)) (pt_whole _ (arr_whole2 0) c _ _)
    (congrArg₂ (fun a b : sProp 𝕄 => iprop(a ∗ b)) (pt_whole _ (arr_whole2 1) c _ _) (pt_whole _ (arr_whole2 2) c _ _))

/-- The buffers behind call 2's arrays. -/
theorem arrBufs2_eq (c : Dev nD) (Vv : (b : Ref sig .tc) → Buf (Elt F) ((c : Thread nD τ).loc b)) :
    (Pipeline.arrBufs (Ix := Unit) (Name := ℕ) (U := UR sig nD τ) (Lvl := ℕ) (cfgs 2).spec c Vv : sProp 𝕄)
      = bigSep ({main_arg0, main_arg1, main_v4} : Finset (Ref sig .tc)) fun b => (((c : Thread nD τ).loc b) ↦{fullShare} Vv b : sProp 𝕄) := by
  unfold Pipeline.arrBufs
  rw [show (Finset.univ.image (Pipeline.arrRef (cfgs 2).spec)) = ({main_arg0, main_arg1, main_v4} : Finset (Ref sig .tc)) from by decide]

/-- Leaving call 2 changes only its output's buffer. -/
theorem W5_of_ne (c : Dev nD) (b : Ref sig .tc) (hb : b ≠ main_v4) : W5 m c b = W4 m c b := by
  unfold W5
  exact Function.update_of_ne (StableHlo.devRef_ne_of_ne hb) _ _
theorem W5_out (c : Dev nD) : W5 m c main_v4 = out2 m c := by
  unfold W5
  exact Function.update_self ..

set_option backward.isDefEq.respectTransparency.types false in
/-- ENTRY: the core's unscoped buffers are the windows' arrays and the rest. -/
theorem entry2 (c : Dev nD) :
    (unscopedBufs (Ix := Unit) (Name := ℕ) (U := UR sig nD τ) (Lvl := ℕ) c (U4 m c) : sProp 𝕄)
      ⊢ iprop((pdats m 2 c).arrays ((pdats m 2 c).arrAt · 0) ∗ Pipeline.unscopedRest spec2 c (U4 m c)) := by
  rw [Pipeline.unscopedBufs_split₀ cfgs 2 winFacts2.arr_unscoped c (U4 m c), arrays2_eq, arrBufs2_eq]
  refine sep_mono ?_ .rfl
  rw [bigSep_insert (by decide), bigSep_insert (by decide), bigSep_singleton]
  show iprop((((c : Thread nD τ).loc main_arg0) ↦{fullShare} U4 m c main_arg0) ∗ (((c : Thread nD τ).loc main_arg1) ↦{fullShare} U4 m c main_arg1) ∗ (((c : Thread nD τ).loc main_v4) ↦{fullShare} U4 m c main_v4))
      ⊢ (iprop((((c : Thread nD τ).loc main_arg0) ↦{fullShare} U4 m c main_arg0) ∗ (((c : Thread nD τ).loc main_arg1) ↦{fullShare} U4 m c main_arg1) ∗ (((c : Thread nD τ).loc main_v4) ↦{fullShare} U4 m c main_v4)) : sProp 𝕄)
  iintro ⟨Ha, Hb, Ho⟩
  isplitl [Ha]; · iexact Ha
  isplitl [Hb]; · iexact Hb
  iexact Ho

set_option backward.isDefEq.respectTransparency.types false in
/-- EXIT: the windows' arrays after the last point and the rest are the core's unscoped buffers at the next boundary. -/
theorem exit2 (c : Dev nD) :
    iprop((pdats m 2 c).arrays ((pdats m 2 c).arrAt · cfg2.N) ∗ Pipeline.unscopedRest spec2 c (U4 m c))
      ⊢ (unscopedBufs (Ix := Unit) (Name := ℕ) (U := UR sig nD τ) (Lvl := ℕ) c (U5 m c) : sProp 𝕄) := by
  rw [Pipeline.unscopedBufs_split₀ cfgs 2 winFacts2.arr_unscoped c (U5 m c), arrays2_eq, arrBufs2_eq]
  refine sep_mono ?_ (Entails.of_eq ?_)
  · rw [bigSep_insert (by decide), bigSep_insert (by decide), bigSep_singleton]
    rw [(pdats m 2 c).arrAt_in 0 rfl _, (pdats m 2 c).arrAt_in 1 rfl _]
    simp only [U5, W5_of_ne m c main_arg0 (by decide), W5_of_ne m c main_arg1 (by decide), W5_out]
    show (iprop((((c : Thread nD τ).loc main_arg0) ↦{fullShare} U4 m c main_arg0) ∗ (((c : Thread nD τ).loc main_arg1) ↦{fullShare} U4 m c main_arg1) ∗ (((c : Thread nD τ).loc main_v4) ↦{fullShare} out2 m c)) : sProp 𝕄)
      ⊢ iprop((((c : Thread nD τ).loc main_arg0) ↦{fullShare} U4 m c main_arg0) ∗ (((c : Thread nD τ).loc main_arg1) ↦{fullShare} U4 m c main_arg1) ∗ (((c : Thread nD τ).loc main_v4) ↦{fullShare} out2 m c))
    iintro ⟨Ha, Hb, Ho⟩
    isplitl [Ha]; · iexact Ha
    isplitl [Hb]; · iexact Hb
    iexact Ho
  · unfold Pipeline.unscopedRest
    refine bigSep_congr fun b hb => ?_
    have hne : b ≠ main_v4 := fun h => (Finset.mem_sdiff.mp hb).2 (Finset.mem_image.mpr ⟨2, Finset.mem_univ _, h.symm⟩)
    simp only [U5, W5_of_ne m c b hne]

set_option backward.isDefEq.respectTransparency.types false in
/-- Call 2 over the thread state "every unscoped buffer at the boundary's contents, the generator register at some state,
    nothing owed": entered from the contents before it, left at those contents with its output column written. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (Reg2.body_obligation (U4 m) wholes c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg2.hin (U4 m) wholes c)
    unfold Pipeline.ΦA
    iintro ⟨Hp, -, Hr⟩
    isplitl [Hr]; · iexact Hr
    iexact Hp
  hout c := by
    rw [Pipeline.ownSems0_none]
    refine Idealize.SL.BI.BIBase.Entails.trans (Reg2.hout (U4 m) wholes c) ?_
    unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and at
    the end every unscoped buffer holds what the boundaries' contents say (`W6`). -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Whole

end
-- ==== Proof.KBTail.lean ====
/-
  The host operations after the three calls, as one function of the three columns of row sums the calls leave:
  each column is summed, divided by N² = 2^26, and the three means are combined as m₀ + m₁ − (2 · s₂) / N².
-/
import proofs.«139631_j39135742001578_2_alg».proof.Kernel
import proofs.«139631_j39135742001578_2_alg».proof.Proof.Gen.Kernel

noncomputable section

namespace Cert.Kernel.Whole

open Cert.Kernel Cert.Kernel.Gen Idealize.ShloMosaic

variable {F : FTy → Type} [FloatOps F]

/-- A column's total, as the host computes it: the sum of all its entries from the initial value zero. -/
def colSum (o : FVec F S8192x1 .f32) : FVec F S_ .f32 :=
  Host.reduceAdd o (constant S_ .f32 0x00000000#32) reducesTo_S8192x1_S_d0_1 h_S_

/-- The host's combination of the three totals. -/
def combine (s0 s1 s2 : FVec F S_ .f32) : FVec F S_ .f32 :=
  subf (addf (Host.divf s0 (constant S_ .f32 0x4C800000#32)) (Host.divf s1 (constant S_ .f32 0x4C800000#32)))
    (Host.divf (mulf (constant S_ .f32 0x40000000#32) s2) (constant S_ .f32 0x4C800000#32))

/-- The program's result from the three columns. -/
def tail (o0 o1 o2 : FVec F S8192x1 .f32) : FVec F S_ .f32 :=
  combine (colSum o0) (colSum o1) (colSum o2)

end Cert.Kernel.Whole

end
-- ==== Proof.KBRunValue.lean ====
/-
  What the program's buffers hold at the return: the two arguments are as launched (no call and no host operation
  writes them), and the result is the host's combination of the three columns the calls leave.
-/
import proofs.«139631_j39135742001578_2_alg».proof.Proof.KBRun
import proofs.«139631_j39135742001578_2_alg».proof.Proof.KBTail

set_option maxRecDepth 16384

noncomputable section

namespace Cert.Kernel.Whole

open Cert.Kernel Cert.Kernel.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- The first argument reaches the end as launched. -/
theorem W6_main_arg0 (c : Dev nD) : W6 m c main_arg0 = m ((c : Thread nD τ).loc main_arg0) :=
  (StableHlo.after_of_writes_sub hostOps3 (W5 m c) hostOps3_writes (by decide)).trans <| (W5_of_ne m c main_arg0 (by decide)).trans <|
  (StableHlo.after_of_writes_sub hostOps2 (W3 m c) hostOps2_writes (by decide)).trans <| (W3_of_ne m c main_arg0 (by decide)).trans <|
  (StableHlo.after_of_writes_sub hostOps1 (W1 m c) hostOps1_writes (by decide)).trans <| (W1_of_ne m c main_arg0 (by decide)).trans rfl
/-- So does the second. -/
theorem W6_main_arg1 (c : Dev nD) : W6 m c main_arg1 = m ((c : Thread nD τ).loc main_arg1) :=
  (StableHlo.after_of_writes_sub hostOps3 (W5 m c) hostOps3_writes (by decide)).trans <| (W5_of_ne m c main_arg1 (by decide)).trans <|
  (StableHlo.after_of_writes_sub hostOps2 (W3 m c) hostOps2_writes (by decide)).trans <| (W3_of_ne m c main_arg1 (by decide)).trans <|
  (StableHlo.after_of_writes_sub hostOps1 (W1 m c) hostOps1_writes (by decide)).trans <| (W1_of_ne m c main_arg1 (by decide)).trans rfl

/-- The arrays the second and third calls read are the arguments as launched. -/
theorem U2_main_arg1 (c : Dev nD) : U2 m c main_arg1 = m ((c : Thread nD τ).loc main_arg1) :=
  (StableHlo.after_of_writes_sub hostOps1 (W1 m c) hostOps1_writes (by decide)).trans <| (W1_of_ne m c main_arg1 (by decide)).trans rfl
theorem U4_main_arg0 (c : Dev nD) : U4 m c main_arg0 = m ((c : Thread nD τ).loc main_arg0) :=
  (StableHlo.after_of_writes_sub hostOps2 (W3 m c) hostOps2_writes (by decide)).trans <| (W3_of_ne m c main_arg0 (by decide)).trans <|
  (StableHlo.after_of_writes_sub hostOps1 (W1 m c) hostOps1_writes (by decide)).trans <| (W1_of_ne m c main_arg0 (by decide)).trans rfl
theorem U4_main_arg1 (c : Dev nD) : U4 m c main_arg1 = m ((c : Thread nD τ).loc main_arg1) :=
  (StableHlo.after_of_writes_sub hostOps2 (W3 m c) hostOps2_writes (by decide)).trans <| (W3_of_ne m c main_arg1 (by decide)).trans <|
  (StableHlo.after_of_writes_sub hostOps1 (W1 m c) hostOps1_writes (by decide)).trans <| (W1_of_ne m c main_arg1 (by decide)).trans rfl

/-- The first column's total, computed by the first stretch, is still there when the last stretch reads it. -/
theorem W5_main_v1 (c : Dev nD) : W5 m c main_v1 = colSum (out0 m c) := by
  refine (W5_of_ne m c main_v1 (by decide)).trans <| (StableHlo.after_of_writes_sub hostOps2 (W3 m c) hostOps2_writes (by decide)).trans <|
    (W3_of_ne m c main_v1 (by decide)).trans ?_
  rw [← W1_out m c]
  show StableHlo.after hostOps1 (W1 m c) (Proc.devRef .tc main_v1) = colSum (W1 m c (Proc.devRef .tc main_v0))
  generalize W1 m c = Wv
  after_results
  rfl
/-- The second column's total likewise. -/
theorem W5_main_v3 (c : Dev nD) : W5 m c main_v3 = colSum (out1 m c) := by
  refine (W5_of_ne m c main_v3 (by decide)).trans ?_
  rw [← W3_out m c]
  show StableHlo.after hostOps2 (W3 m c) (Proc.devRef .tc main_v3) = colSum (W3 m c (Proc.devRef .tc main_v2))
  generalize W3 m c = Wv
  after_results
  rfl

set_option maxHeartbeats 1000000 in
/-- The result at the return. -/
theorem W6_result (c : Dev nD) : W6 m c main_v11 = tail (out0 m c) (out1 m c) (out2 m c) := by
  have e1 := W5_main_v1 m c
  have e3 := W5_main_v3 m c
  have e4 := W5_out m c
  show StableHlo.after hostOps3 (W5 m c) (Proc.devRef .tc main_v11) = _
  generalize W5 m c = Wv at e1 e3 e4 ⊢
  after_results
  unfold tail combine
  rw [← e1, ← e3, ← e4]
  rfl

/-- THE RUN, read at the result and the arguments. -/
theorem run_result (ρ : Dev nD → PrngReg) : θ_run defs (onTc (τ := τ) (main (F := F))) ⟨m, fun _ => 0, ρ⟩ (fun r => ∀ c : Dev nD,
      r.2.mem ((c.tc : Thread nD τ).loc main_v11) = tail (out0 m c) (out1 m c) (out2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v11 (by decide))).trans (W6_result m c),
     (h c _ (mem_uc main_arg0 (by decide))).trans (W6_main_arg0 m c),
     (h c _ (mem_uc main_arg1 (by decide))).trans (W6_main_arg1 m c)⟩) (run m ρ)

end Cert.Kernel.Whole

end
-- ==== Proof.KI0.Setup.lean ====
/-
  Call 0 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.KernelIdeal.Launch
import proofs.«139631_j39135742001578_2_alg».proof.Proof.Gen.KernelIdeal.Skeleton
import proofs.«139631_j39135742001578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid0.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg0.N, isFirst (grid0.coords t) ↔ t.val % 8 = 0 :=
  (by decide +kernel : ∀ t : Fin grid0.N, isFirst (grid0.coords t) ↔ t.val % 8 = 0)

/-- "This is the last point of its row of the grid" (j = 7), as the body computes it. -/
abbrev isLast (i : grid0.Coords) : Prop := k0_cond2 i = 1#1
/-- It holds exactly at the points 8·i + 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Off a row's last point the output window is idle and is not written back. -/
theorem idle_2 : ∀ t : Fin cfg0.N, ¬isLast (grid0.coords t) → cfg0.idle 2 (grid0.coords t) = true := by decide +kernel
theorem noFlush_2 : ∀ t : Fin cfg0.N, ¬isLast (grid0.coords t) → (cfg0.win 2).flush t = false := by decide +kernel
/-- At a row's last point it is live. -/
theorem live_2 : ∀ t : Fin cfg0.N, isLast (grid0.coords t) → cfg0.idle 2 (grid0.coords t) = false := by decide +kernel

/-! ## The memrefs the body is called with -/

abbrev mX (t : Fin cfg0.N) : Memref sig .tc .vmem S1024x256 .f32 := win0_0.stage (cfg0.slots t 0)
abbrev hX (t : Fin cfg0.N) : (mX t).IsWhole := hstage0_0 ((cfg0.slots t 0).cast nbuf0_0)
abbrev mY (t : Fin cfg0.N) : Memref sig .tc .vmem S1024x256 .f32 := win0_1.stage (cfg0.slots t 1)
abbrev hY (t : Fin cfg0.N) : (mY t).IsWhole := hstage0_1 ((cfg0.slots t 1).cast nbuf0_1)
abbrev mO (t : Fin cfg0.N) : Memref sig .tc .vmem S1024x1 .f32 := win0_2.stage (cfg0.slots t 2)
abbrev hO (t : Fin cfg0.N) : (mO t).IsWhole := hstage0_2 ((cfg0.slots t 2).cast nbuf0_2)
/-- The accumulator column: a scratch buffer of the call's own. -/
abbrev mAcc : Memref sig .tc .vmem S1024x1 .f32 := Memref.whole cc0_scratch0
/-- A view through which a column's contents are stated. -/
abbrev vAcc : View sig .tc .vmem S1024x1 .f32 := (mAcc).view
abbrev vOut : View sig .tc .vmem S1024x1 .f32 := (Memref.whole cc0_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc0_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Reg0

end
-- ==== Proof.KI0.RunFirst.lean ====
/-
  The body of call 0 run once, symbolically, at the first point of a row of the grid (the accumulator is reset, then added to; the output's buffer is not touched).
  What it leaves in each buffer it stores into is recorded as the list of its stores (last first), found by the run itself.
-/
import proofs.«139631_j39135742001578_2_alg».proof.Proof.KI0.Setup

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨[], ?_, fun yo E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg0

end
-- ==== Proof.KI0.RunMid.lean ====
/-
  The body of call 0 run once, symbolically, at an inner point of a row of the grid (the accumulator is added to; the output's buffer is not touched).
  What it leaves in each buffer it stores into is recorded as the list of its stores (last first), found by the run itself.
-/
import proofs.«139631_j39135742001578_2_alg».proof.Proof.KI0.RunFirst

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨[], ?_, fun yo E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg0

end
-- ==== Proof.KI0.RunLast.lean ====
/-
  The body of call 0 run once, symbolically, at the last point of a row of the grid (the accumulator is added to, then copied into the output's buffer).
  What it leaves in each buffer it stores into is recorded as the list of its stores (last first), found by the run itself.
-/
import proofs.«139631_j39135742001578_2_alg».proof.Proof.KI0.RunMid

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid0.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc0__rbf_rowsum_kernel i x hx y hy o ho acc hacc) K } := by
  refine ⟨?_, ?_, fun E K => ?run⟩
  case run =>
    simp only [cc0__rbf_rowsum_kernel_eq_skeleton]; unfold cc0__rbf_rowsum_kernel_skel
    simp only [k0_part1_eq_skeleton]; unfold k0_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.KernelIdeal.Reg0

end
-- ==== Proof.KI0.Points.lean ====
/-
  Call 0 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KI0.RunLast

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg0.N) (h0 : isFirst (grid0.coords t)) (h1 : ¬isLast (grid0.coords t)) (x0 y0 : Vec F S1024x256 .f32) (y : S1024x1.Idx) :
    ∃ pc ∈ (runFirst c (grid0.coords t) (mX t) (hX t) (mY t) (hY t) (mO t) (hO t) mAcc (Memref.isWhole_whole _) h0 h1 x0 y0).2.1, y ∈ pc.1.set :=
  View.cover_of_tiledL (runFirst c (grid0.coords t) (mX t) (hX t) (mY t) (hY t) (mO t) (hO t) mAcc (Memref.isWhole_whole _) h0 h1 x0 y0).2.1 S1024x1.size (by sl_kernel_rfl) y
theorem coverMid (c : Dev nD) (t : Fin cfg0.N) (h0 : ¬isFirst (grid0.coords t)) (h1 : ¬isLast (grid0.coords t)) (x0 y0 : Vec F S1024x256 .f32) (s : Vec F S1024x1 .f32) (y : S1024x1.Idx) :
    ∃ pc ∈ (runMid c (grid0.coords t) (mX t) (hX t) (mY t) (hY t) (mO t) (hO t) mAcc (Memref.isWhole_whole _) h0 h1 x0 y0 s).2.1, y ∈ pc.1.set :=
  View.cover_of_tiledL (runMid c (grid0.coords t) (mX t) (hX t) (mY t) (hY t) (mO t) (hO t) mAcc (Memref.isWhole_whole _) h0 h1 x0 y0 s).2.1 S1024x1.size (by sl_kernel_rfl) y
theorem coverLast (c : Dev nD) (t : Fin cfg0.N) (h0 : ¬isFirst (grid0.coords t)) (h1 : isLast (grid0.coords t)) (x0 y0 : Vec F S1024x256 .f32) (s : Vec F S1024x1 .f32) (y : S1024x1.Idx) :
    ∃ pc ∈ (runLast c (grid0.coords t) (mX t) (hX t) (mY t) (hY t) (mO t) (hO t) mAcc (Memref.isWhole_whole _) h0 h1 x0 y0 s).2.1, y ∈ pc.1.set :=
  View.cover_of_tiledL (runLast c (grid0.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg0.N) (h0 : ¬isFirst (grid0.coords t)) (h1 : isLast (grid0.coords t)) (x0 y0 : Vec F S1024x256 .f32) (s : Vec F S1024x1 .f32) (y : S1024x1.Idx) :
    ∃ pc ∈ (runLast c (grid0.coords t) (mX t) (hX t) (mY t) (hY t) (mO t) (hO t) mAcc (Memref.isWhole_whole _) h0 h1 x0 y0 s).1, y ∈ pc.1.set :=
  View.cover_of_tiledL (runLast c (grid0.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg0.N) (h0 : isFirst (grid0.coords t)) (h1 : ¬isLast (grid0.coords t)) (x0 y0 : Vec F S1024x256 .f32) : Vec F S1024x1 .f32 :=
  vAcc.read (Elt F) (vAcc.writes (Elt F) vAcc.junk (runFirst c (grid0.coords t) (mX t) (hX t) (mY t) (hY t) (mO t) (hO t) mAcc (Memref.isWhole_whole _) h0 h1 x0 y0).2.1)
/-- The accumulator after an inner point, from what the point before left. -/
def accMid (c : Dev nD) (t : Fin cfg0.N) (h0 : ¬isFirst (grid0.coords t)) (h1 : ¬isLast (grid0.coords t)) (x0 y0 : Vec F S1024x256 .f32) (s : Vec F S1024x1 .f32) : Vec F S1024x1 .f32 :=
  vAcc.read (Elt F) (vAcc.writes (Elt F) vAcc.junk (runMid c (grid0.coords t) (mX t) (hX t) (mY t) (hY t) (mO t) (hO t) mAcc (Memref.isWhole_whole _) h0 h1 x0 y0 s).2.1)
/-- The accumulator after a row's last point, from what the point before left. -/
def accLast (c : Dev nD) (t : Fin cfg0.N) (h0 : ¬isFirst (grid0.coords t)) (h1 : isLast (grid0.coords t)) (x0 y0 : Vec F S1024x256 .f32) (s : Vec F S1024x1 .f32) : Vec F S1024x1 .f32 :=
  vAcc.read (Elt F) (vAcc.writes (Elt F) vAcc.junk (runLast c (grid0.coords t) (mX t) (hX t) (mY t) (hY t) (mO t) (hO t) mAcc (Memref.isWhole_whole _) h0 h1 x0 y0 s).2.1)
/-- The output's buffer after a row's last point. -/
def outLast (c : Dev nD) (t : Fin cfg0.N) (h0 : ¬isFirst (grid0.coords t)) (h1 : isLast (grid0.coords t)) (x0 y0 : Vec F S1024x256 .f32) (s : Vec F S1024x1 .f32) : Vec F S1024x1 .f32 :=
  vOut.read (Elt F) (vOut.writes (Elt F) vOut.junk (runLast c (grid0.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg0.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg0.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg0.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg0.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg0.N → sProp 𝕄
  | 0, _ => Pipeline.ΦA spec0 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg0.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg0.W) : (dat V qs c).A w = V c (Pipeline.arrRef spec0 w) := by
  dsimp only [dat]
theorem Phi_castSucc (c : Dev nD) (t : Fin cfg0.N) :
    (dat V qs c).Φ t.castSucc = PhiS V c t.val (Nat.le_of_lt t.isLt) := by
  dsimp only [dat]; simp only [Fin.coe_castSucc]
theorem after_0 (c : Dev nD) (t : Fin cfg0.N) : (dat V qs c).after 0 t = iblk V c 0 t := by dsimp only [dat]
theorem after_1 (c : Dev nD) (t : Fin cfg0.N) : (dat V qs c).after 1 t = iblk V c 1 t := by dsimp only [dat]
theorem after_2 (c : Dev nD) (t : Fin cfg0.N) : (dat V qs c).after 2 t = (holdsAt V c t.val t.isLt).2 := by dsimp only [dat]
theorem before_0 (c : Dev nD) (t : Fin cfg0.N) (d) : (dat V qs c).before 0 t d = iblk V c 0 t :=
  before_0_of V (dat V qs c) (A_eq V qs c 0) (after_0 V qs c) t d
theorem before_1 (c : Dev nD) (t : Fin cfg0.N) (d) : (dat V qs c).before 1 t d = iblk V c 1 t :=
  before_1_of V (dat V qs c) (A_eq V qs c 1) (after_1 V qs c) t d

/-! ## The body's obligation -/

def bodyPre (c : Dev nD) (t : Fin cfg0.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg0.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg0.N) :
    bodyPre V qs c t ⊢ wp frame (wpE (defs₀ (F := F)) Variants.none c none) Set.univ (bodyAt0 t) (fun _ => bodyPost V qs c t) := by
  unfold bodyPre bodyPost bodyAt0
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg0.N = 64 from N_0)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid0.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid0.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid0.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid0.coords t) := fun h => h0 ((isFirst_iff t).mp h)
    have hz : t.val ≠ 0 := fun h => h0 (by rw [h])
    by_cases h1 : t.val % 8 = 7
    · have hl : isLast (grid0.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid0.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid0.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid0.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W0, bigSep_W0]
  exact sound_body V qs c t

/-- What the call is handed is the invariant before the first point. -/
theorem hin (c : Dev nD) : Pipeline.ΦA spec0 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg0.N) ⊢ Pipeline.ΦA spec0 c := by
  rw [show (dat V qs c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hoth⟩, Hg⟩
  isplitl [HS Hoth]
  · isplitl [HS]
    · iexists _; iexact HS
    iexact Hoth
  iexact Hg

end Cert.KernelIdeal.Reg0

end
-- ==== Proof.KI1.Setup.lean ====
/-
  Call 1 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.KernelIdeal.Launch
import proofs.«139631_j39135742001578_2_alg».proof.Proof.Gen.KernelIdeal.Skeleton
import proofs.«139631_j39135742001578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid1.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg1.N, isFirst (grid1.coords t) ↔ t.val % 8 = 0 :=
  (by decide +kernel : ∀ t : Fin grid1.N, isFirst (grid1.coords t) ↔ t.val % 8 = 0)

/-- "This is the last point of its row of the grid" (j = 7), as the body computes it. -/
abbrev isLast (i : grid1.Coords) : Prop := k1_cond2 i = 1#1
/-- It holds exactly at the points 8·i + 7. -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Off a row's last point the output window is idle and is not written back. -/
theorem idle_2 : ∀ t : Fin cfg1.N, ¬isLast (grid1.coords t) → cfg1.idle 2 (grid1.coords t) = true := by decide +kernel
theorem noFlush_2 : ∀ t : Fin cfg1.N, ¬isLast (grid1.coords t) → (cfg1.win 2).flush t = false := by decide +kernel
/-- At a row's last point it is live. -/
theorem live_2 : ∀ t : Fin cfg1.N, isLast (grid1.coords t) → cfg1.idle 2 (grid1.coords t) = false := by decide +kernel

/-! ## The memrefs the body is called with -/

abbrev mX (t : Fin cfg1.N) : Memref sig .tc .vmem S1024x256 .f32 := win1_0.stage (cfg1.slots t 0)
abbrev hX (t : Fin cfg1.N) : (mX t).IsWhole := hstage1_0 ((cfg1.slots t 0).cast nbuf1_0)
abbrev mY (t : Fin cfg1.N) : Memref sig .tc .vmem S1024x256 .f32 := win1_1.stage (cfg1.slots t 1)
abbrev hY (t : Fin cfg1.N) : (mY t).IsWhole := hstage1_1 ((cfg1.slots t 1).cast nbuf1_1)
abbrev mO (t : Fin cfg1.N) : Memref sig .tc .vmem S1024x1 .f32 := win1_2.stage (cfg1.slots t 2)
abbrev hO (t : Fin cfg1.N) : (mO t).IsWhole := hstage1_2 ((cfg1.slots t 2).cast nbuf1_2)
/-- The accumulator column: a scratch buffer of the call's own. -/
abbrev mAcc : Memref sig .tc .vmem S1024x1 .f32 := Memref.whole cc1_scratch0
/-- A view through which a column's contents are stated. -/
abbrev vAcc : View sig .tc .vmem S1024x1 .f32 := (mAcc).view
abbrev vOut : View sig .tc .vmem S1024x1 .f32 := (Memref.whole cc1_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc1_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Reg1

end
-- ==== Proof.KI1.RunFirst.lean ====
/-
  The body of call 1 run once, symbolically, at the first point of a row of the grid (the accumulator is reset, then added to; the output's buffer is not touched).
  What it leaves in each buffer it stores into is recorded as the list of its stores (last first), found by the run itself.
-/
import proofs.«139631_j39135742001578_2_alg».proof.Proof.KI1.Setup

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨[], ?_, fun yo E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg1

end
-- ==== Proof.KI1.RunMid.lean ====
/-
  The body of call 1 run once, symbolically, at an inner point of a row of the grid (the accumulator is added to; the output's buffer is not touched).
  What it leaves in each buffer it stores into is recorded as the list of its stores (last first), found by the run itself.
-/
import proofs.«139631_j39135742001578_2_alg».proof.Proof.KI1.RunFirst

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨[], ?_, fun yo E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg1

end
-- ==== Proof.KI1.RunLast.lean ====
/-
  The body of call 1 run once, symbolically, at the last point of a row of the grid (the accumulator is added to, then copied into the output's buffer).
  What it leaves in each buffer it stores into is recorded as the list of its stores (last first), found by the run itself.
-/
import proofs.«139631_j39135742001578_2_alg».proof.Proof.KI1.RunMid

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid1.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc1__rbf_rowsum_kernel i x hx y hy o ho acc hacc) K } := by
  refine ⟨?_, ?_, fun E K => ?run⟩
  case run =>
    simp only [cc1__rbf_rowsum_kernel_eq_skeleton]; unfold cc1__rbf_rowsum_kernel_skel
    simp only [k1_part1_eq_skeleton]; unfold k1_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.KernelIdeal.Reg1

end
-- ==== Proof.KI1.Points.lean ====
/-
  Call 1 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KI1.RunLast

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg1.N) (h0 : isFirst (grid1.coords t)) (h1 : ¬isLast (grid1.coords t)) (x0 y0 : Vec F S1024x256 .f32) (y : S1024x1.Idx) :
    ∃ pc ∈ (runFirst c (grid1.coords t) (mX t) (hX t) (mY t) (hY t) (mO t) (hO t) mAcc (Memref.isWhole_whole _) h0 h1 x0 y0).2.1, y ∈ pc.1.set :=
  View.cover_of_tiledL (runFirst c (grid1.coords t) (mX t) (hX t) (mY t) (hY t) (mO t) (hO t) mAcc (Memref.isWhole_whole _) h0 h1 x0 y0).2.1 S1024x1.size (by sl_kernel_rfl) y
theorem coverMid (c : Dev nD) (t : Fin cfg1.N) (h0 : ¬isFirst (grid1.coords t)) (h1 : ¬isLast (grid1.coords t)) (x0 y0 : Vec F S1024x256 .f32) (s : Vec F S1024x1 .f32) (y : S1024x1.Idx) :
    ∃ pc ∈ (runMid c (grid1.coords t) (mX t) (hX t) (mY t) (hY t) (mO t) (hO t) mAcc (Memref.isWhole_whole _) h0 h1 x0 y0 s).2.1, y ∈ pc.1.set :=
  View.cover_of_tiledL (runMid c (grid1.coords t) (mX t) (hX t) (mY t) (hY t) (mO t) (hO t) mAcc (Memref.isWhole_whole _) h0 h1 x0 y0 s).2.1 S1024x1.size (by sl_kernel_rfl) y
theorem coverLast (c : Dev nD) (t : Fin cfg1.N) (h0 : ¬isFirst (grid1.coords t)) (h1 : isLast (grid1.coords t)) (x0 y0 : Vec F S1024x256 .f32) (s : Vec F S1024x1 .f32) (y : S1024x1.Idx) :
    ∃ pc ∈ (runLast c (grid1.coords t) (mX t) (hX t) (mY t) (hY t) (mO t) (hO t) mAcc (Memref.isWhole_whole _) h0 h1 x0 y0 s).2.1, y ∈ pc.1.set :=
  View.cover_of_tiledL (runLast c (grid1.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg1.N) (h0 : ¬isFirst (grid1.coords t)) (h1 : isLast (grid1.coords t)) (x0 y0 : Vec F S1024x256 .f32) (s : Vec F S1024x1 .f32) (y : S1024x1.Idx) :
    ∃ pc ∈ (runLast c (grid1.coords t) (mX t) (hX t) (mY t) (hY t) (mO t) (hO t) mAcc (Memref.isWhole_whole _) h0 h1 x0 y0 s).1, y ∈ pc.1.set :=
  View.cover_of_tiledL (runLast c (grid1.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg1.N) (h0 : isFirst (grid1.coords t)) (h1 : ¬isLast (grid1.coords t)) (x0 y0 : Vec F S1024x256 .f32) : Vec F S1024x1 .f32 :=
  vAcc.read (Elt F) (vAcc.writes (Elt F) vAcc.junk (runFirst c (grid1.coords t) (mX t) (hX t) (mY t) (hY t) (mO t) (hO t) mAcc (Memref.isWhole_whole _) h0 h1 x0 y0).2.1)
/-- The accumulator after an inner point, from what the point before left. -/
def accMid (c : Dev nD) (t : Fin cfg1.N) (h0 : ¬isFirst (grid1.coords t)) (h1 : ¬isLast (grid1.coords t)) (x0 y0 : Vec F S1024x256 .f32) (s : Vec F S1024x1 .f32) : Vec F S1024x1 .f32 :=
  vAcc.read (Elt F) (vAcc.writes (Elt F) vAcc.junk (runMid c (grid1.coords t) (mX t) (hX t) (mY t) (hY t) (mO t) (hO t) mAcc (Memref.isWhole_whole _) h0 h1 x0 y0 s).2.1)
/-- The accumulator after a row's last point, from what the point before left. -/
def accLast (c : Dev nD) (t : Fin cfg1.N) (h0 : ¬isFirst (grid1.coords t)) (h1 : isLast (grid1.coords t)) (x0 y0 : Vec F S1024x256 .f32) (s : Vec F S1024x1 .f32) : Vec F S1024x1 .f32 :=
  vAcc.read (Elt F) (vAcc.writes (Elt F) vAcc.junk (runLast c (grid1.coords t) (mX t) (hX t) (mY t) (hY t) (mO t) (hO t) mAcc (Memref.isWhole_whole _) h0 h1 x0 y0 s).2.1)
/-- The output's buffer after a row's last point. -/
def outLast (c : Dev nD) (t : Fin cfg1.N) (h0 : ¬isFirst (grid1.coords t)) (h1 : isLast (grid1.coords t)) (x0 y0 : Vec F S1024x256 .f32) (s : Vec F S1024x1 .f32) : Vec F S1024x1 .f32 :=
  vOut.read (Elt F) (vOut.writes (Elt F) vOut.junk (runLast c (grid1.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg1.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg1.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg1.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg1.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg1.N → sProp 𝕄
  | 0, _ => Pipeline.ΦA spec1 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg1.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg1.W) : (dat V qs c).A w = V c (Pipeline.arrRef spec1 w) := by
  dsimp only [dat]
theorem Phi_castSucc (c : Dev nD) (t : Fin cfg1.N) :
    (dat V qs c).Φ t.castSucc = PhiS V c t.val (Nat.le_of_lt t.isLt) := by
  dsimp only [dat]; simp only [Fin.coe_castSucc]
theorem after_0 (c : Dev nD) (t : Fin cfg1.N) : (dat V qs c).after 0 t = iblk V c 0 t := by dsimp only [dat]
theorem after_1 (c : Dev nD) (t : Fin cfg1.N) : (dat V qs c).after 1 t = iblk V c 1 t := by dsimp only [dat]
theorem after_2 (c : Dev nD) (t : Fin cfg1.N) : (dat V qs c).after 2 t = (holdsAt V c t.val t.isLt).2 := by dsimp only [dat]
theorem before_0 (c : Dev nD) (t : Fin cfg1.N) (d) : (dat V qs c).before 0 t d = iblk V c 0 t :=
  before_0_of V (dat V qs c) (A_eq V qs c 0) (after_0 V qs c) t d
theorem before_1 (c : Dev nD) (t : Fin cfg1.N) (d) : (dat V qs c).before 1 t d = iblk V c 1 t :=
  before_1_of V (dat V qs c) (A_eq V qs c 1) (after_1 V qs c) t d

/-! ## The body's obligation -/

def bodyPre (c : Dev nD) (t : Fin cfg1.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg1.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg1.N) :
    bodyPre V qs c t ⊢ wp frame (wpE (defs₀ (F := F)) Variants.none c none) Set.univ (bodyAt1 t) (fun _ => bodyPost V qs c t) := by
  unfold bodyPre bodyPost bodyAt1
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg1.N = 64 from N_1)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid1.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid1.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid1.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid1.coords t) := fun h => h0 ((isFirst_iff t).mp h)
    have hz : t.val ≠ 0 := fun h => h0 (by rw [h])
    by_cases h1 : t.val % 8 = 7
    · have hl : isLast (grid1.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid1.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid1.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid1.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W1, bigSep_W1]
  exact sound_body V qs c t

/-- What the call is handed is the invariant before the first point. -/
theorem hin (c : Dev nD) : Pipeline.ΦA spec1 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg1.N) ⊢ Pipeline.ΦA spec1 c := by
  rw [show (dat V qs c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HS, Hoth⟩, Hg⟩
  isplitl [HS Hoth]
  · isplitl [HS]
    · iexists _; iexact HS
    iexact Hoth
  iexact Hg

end Cert.KernelIdeal.Reg1

end
-- ==== Proof.KI2.Setup.lean ====
/-
  Call 2 of the row-sum kernel on its 8 × 8 grid: the notions its point-by-point run is stated over.
  A grid point t = 8·i + j reads rows [1024 i, 1024 i + 1024) of its first array and rows [1024 j, 1024 j + 1024) of its
  second; the accumulator column is reset where j = 0 and copied to the output block where j = 7, so the output's
  staging buffer is left alone at the other points.
-/
import proofs.«139631_j39135742001578_2_alg».proof.Proof.Gen.KernelIdeal.Launch
import proofs.«139631_j39135742001578_2_alg».proof.Proof.Gen.KernelIdeal.Skeleton
import proofs.«139631_j39135742001578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point of its row of the grid" (j = 0), as the body computes it. -/
abbrev isFirst (i : grid2.Coords) : Prop :=
  (Scalar.cmpi .ne (Scalar.extui (Scalar.cmpi .eq (BitVec.ofNat 32 (i 1).val) 0#32)) 0#32) = 1#1
/-- It holds exactly at the points 8·i. -/
theorem isFirst_iff : ∀ t : Fin cfg2.N, isFirst (grid2.coords t) ↔ t.val % 8 = 0 :=
  (by decide +kernel : ∀ t : Fin grid2.N, isFirst (grid2.coords t) ↔ t.val % 8 = 0)

/-- "This is the last point of its row of the grid" (j = 7), as the body computes it. -/
abbrev isLast (i : grid2.Coords) : Prop := k2_cond2 i = 1#1
/-- It holds exactly at the points 8·i + 7. -/
theorem isLast_iff : ∀ t : Fin cfg2.N, isLast (grid2.coords t) ↔ t.val % 8 = 7 :=
  (by decide +kernel : ∀ t : Fin grid2.N, isLast (grid2.coords t) ↔ t.val % 8 = 7)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
/-- Off a row's last point the output window is idle and is not written back. -/
theorem idle_2 : ∀ t : Fin cfg2.N, ¬isLast (grid2.coords t) → cfg2.idle 2 (grid2.coords t) = true := by decide +kernel
theorem noFlush_2 : ∀ t : Fin cfg2.N, ¬isLast (grid2.coords t) → (cfg2.win 2).flush t = false := by decide +kernel
/-- At a row's last point it is live. -/
theorem live_2 : ∀ t : Fin cfg2.N, isLast (grid2.coords t) → cfg2.idle 2 (grid2.coords t) = false := by decide +kernel

/-! ## The memrefs the body is called with -/

abbrev mX (t : Fin cfg2.N) : Memref sig .tc .vmem S1024x256 .f32 := win2_0.stage (cfg2.slots t 0)
abbrev hX (t : Fin cfg2.N) : (mX t).IsWhole := hstage2_0 ((cfg2.slots t 0).cast nbuf2_0)
abbrev mY (t : Fin cfg2.N) : Memref sig .tc .vmem S1024x256 .f32 := win2_1.stage (cfg2.slots t 1)
abbrev hY (t : Fin cfg2.N) : (mY t).IsWhole := hstage2_1 ((cfg2.slots t 1).cast nbuf2_1)
abbrev mO (t : Fin cfg2.N) : Memref sig .tc .vmem S1024x1 .f32 := win2_2.stage (cfg2.slots t 2)
abbrev hO (t : Fin cfg2.N) : (mO t).IsWhole := hstage2_2 ((cfg2.slots t 2).cast nbuf2_2)
/-- The accumulator column: a scratch buffer of the call's own. -/
abbrev mAcc : Memref sig .tc .vmem S1024x1 .f32 := Memref.whole cc2_scratch0
/-- A view through which a column's contents are stated. -/
abbrev vAcc : View sig .tc .vmem S1024x1 .f32 := (mAcc).view
abbrev vOut : View sig .tc .vmem S1024x1 .f32 := (Memref.whole cc2_stg2_0 : Memref sig .tc .vmem S1024x1 .f32).view

/-- The scoped buffers of the other calls (and nothing of this one), each whole at some contents: they ride along untouched. -/
def others (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The call's invariant between points, with the accumulator split off as a memref owned at some contents. -/
theorem PhiA_eq (c : Dev nD) :
    (Pipeline.ΦA spec2 c : sProp 𝕄)
      = iprop(iprop((∃ d, owns (c : Thread nD τ) mAcc fullShare d) ∗ others (F := F) c) ∗ (∃ r, prngReg c r)) := by
  unfold Pipeline.ΦA Pipeline.scopedRest others
  rw [bigSep_erase (i := cc2_scratch0) (by decide)]
  simp only [mAcc, owns_whole]; try rfl

/-! ## The windows' blocks, read off the arrays as the call finds them -/

section Blocks
variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Reg2

end
-- ==== Proof.KI2.RunFirst.lean ====
/-
  The body of call 2 run once, symbolically, at the first point of a row of the grid (the accumulator is reset, then added to; the output's buffer is not touched).
  What it leaves in each buffer it stores into is recorded as the list of its stores (last first), found by the run itself.
-/
import proofs.«139631_j39135742001578_2_alg».proof.Proof.KI2.Setup

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at anything, the output's buffer at yo — the body runs to its
    end; the inputs are as they were, and each buffer stored into holds its stores (the lists this definition carries). -/
noncomputable def runFirst (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : isFirst i) (h1 : ¬isLast i)
    (x0 : Vec F S1024x256 .f32) (y0 : Vec F S1024x256 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ (∃ d, owns (c : Thread nD τ) acc fullShare d)
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨[], ?_, fun yo E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%fq, %hfq, HO⟩, ⟨%ds, %fs, -, HS⟩, Hk⟩
    obtain rfl := hx.eq_unread hf0; obtain rfl := hy.eq_unread hf1; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg2

end
-- ==== Proof.KI2.RunMid.lean ====
/-
  The body of call 2 run once, symbolically, at an inner point of a row of the grid (the accumulator is added to; the output's buffer is not touched).
  What it leaves in each buffer it stores into is recorded as the list of its stores (last first), found by the run itself.
-/
import proofs.«139631_j39135742001578_2_alg».proof.Proof.KI2.RunFirst

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at yo — the body runs to its
    end; the inputs are as they were, and each buffer stored into holds its stores (the lists this definition carries). -/
noncomputable def runMid (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : ¬isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (yo : Vec F S1024x1 .f32) (E : Set ℕ) (K : PUnit → sProp 𝕄),
        iprop(owns (c : Thread nD τ) x fullShare x0 ∗ owns (c : Thread nD τ) y fullShare y0 ∗ owns (c : Thread nD τ) o fullShare yo ∗ owns (c : Thread nD τ) acc fullShare s
            ∗ (iprop(owns (c : Thread nD τ) x fullShare x0 ∗ owns (c : Thread nD τ) y fullShare y0 ∗ owns (c : Thread nD τ) o fullShare yo
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨[], ?_, fun yo E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%fq, %hfq, HO⟩, ⟨%fs, %hfs, HS⟩, Hk⟩
    obtain rfl := hx.eq_unread hf0; obtain rfl := hy.eq_unread hf1; obtain rfl := hacc.eq_unread hfs; obtain rfl := ho.eq_unread hfq
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]
    · iexists _; isplitr; · ipureintro; exact ho.read_unread _
      iexact HO
    iexists _; iexact HS

end Cert.KernelIdeal.Reg2

end
-- ==== Proof.KI2.RunLast.lean ====
/-
  The body of call 2 run once, symbolically, at the last point of a row of the grid (the accumulator is added to, then copied into the output's buffer).
  What it leaves in each buffer it stores into is recorded as the list of its stores (last first), found by the run itself.
-/
import proofs.«139631_j39135742001578_2_alg».proof.Proof.KI2.RunMid

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two inputs at x, y, the accumulator at s, the output's buffer at anything — the body runs to its
    end; the inputs are as they were, and each buffer stored into holds its stores (the lists this definition carries). -/
noncomputable def runLast (c : Dev nD) (i : grid2.Coords) (x : Memref sig .tc .vmem S1024x256 .f32) (hx : x.IsWhole) (y : Memref sig .tc .vmem S1024x256 .f32) (hy : y.IsWhole)
    (o : Memref sig .tc .vmem S1024x1 .f32) (ho : o.IsWhole) (acc : Memref sig .tc .vmem S1024x1 .f32) (hacc : acc.IsWhole) (h0 : ¬isFirst i) (h1 : isLast i)
    (x0 : Vec F S1024x256 .f32) (y0 : Vec F S1024x256 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) x fullShare x0 ∗ owns (c : Thread nD τ) y fullShare y0 ∗ (∃ d, owns (c : Thread nD τ) o fullShare d) ∗ owns (c : Thread nD τ) acc fullShare s
            ∗ (iprop(owns (c : Thread nD τ) x fullShare x0 ∗ owns (c : Thread nD τ) y fullShare y0 ∗ (∃ f, o.view.loc (c : Thread nD τ) ↦[o.view.set]{fullShare} o.view.writes (Elt F) f LO)
                ∗ (∃ f, acc.view.loc (c : Thread nD τ) ↦[acc.view.set]{fullShare} acc.view.writes (Elt F) f LS)) -∗ K ⟨⟩))
          ⊢ wp frame (wpE (defs₀ (F := F)) Variants.none c none) E (cc2__rbf_rowsum_kernel i x hx y hy o ho acc hacc) K } := by
  refine ⟨?_, ?_, fun E K => ?run⟩
  case run =>
    simp only [cc2__rbf_rowsum_kernel_eq_skeleton]; unfold cc2__rbf_rowsum_kernel_skel
    simp only [k2_part1_eq_skeleton]; unfold k2_part1_skel
    unfold owns
    iintro ⟨⟨%f0, %hf0, H0⟩, ⟨%f1, %hf1, H1⟩, ⟨%dq, %fq, -, HO⟩, ⟨%fs, %hfs, HS⟩, Hk⟩
    obtain rfl := hx.eq_unread hf0; obtain rfl := hy.eq_unread hf1; obtain rfl := hacc.eq_unread hfs
    sl_exec (disch := first | exact h0 | exact h1)
    sl_step
    iapply Hk
    isplitl [H0]
    · iexists _; isplitr; · ipureintro; exact hx.read_unread _
      iexact H0
    isplitl [H1]
    · iexists _; isplitr; · ipureintro; exact hy.read_unread _
      iexact H1
    isplitl [HO]; · iexists _; iexact HO
    iexists _; iexact HS

end Cert.KernelIdeal.Reg2

end
-- ==== Proof.KI2.Points.lean ====
/-
  Call 2 point by point: what the accumulator column holds after each grid point, the output block a row's last point
  leaves, the data the pipeline's rule asks for, and the body's obligation at every point.
  After point t = 8·i + j the accumulator holds the sum over the column tiles 0..j of the row sums of the kernel
  matrix's tile (i, ·); the recursion below says exactly this through the body's own stores.
-/
import proofs.«139631_j39135742001578_2_alg».proof.Proof.KI2.RunLast

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (qs : Fin 3 → PosShare TreeShare)

/-! ## What the stores of each case leave, read back -/

/-- The stores into the accumulator cover it, in every case. -/
theorem coverFirst (c : Dev nD) (t : Fin cfg2.N) (h0 : isFirst (grid2.coords t)) (h1 : ¬isLast (grid2.coords t)) (x0 y0 : Vec F S1024x256 .f32) (y : S1024x1.Idx) :
    ∃ pc ∈ (runFirst c (grid2.coords t) (mX t) (hX t) (mY t) (hY t) (mO t) (hO t) mAcc (Memref.isWhole_whole _) h0 h1 x0 y0).2.1, y ∈ pc.1.set :=
  View.cover_of_tiledL (runFirst c (grid2.coords t) (mX t) (hX t) (mY t) (hY t) (mO t) (hO t) mAcc (Memref.isWhole_whole _) h0 h1 x0 y0).2.1 S1024x1.size (by sl_kernel_rfl) y
theorem coverMid (c : Dev nD) (t : Fin cfg2.N) (h0 : ¬isFirst (grid2.coords t)) (h1 : ¬isLast (grid2.coords t)) (x0 y0 : Vec F S1024x256 .f32) (s : Vec F S1024x1 .f32) (y : S1024x1.Idx) :
    ∃ pc ∈ (runMid c (grid2.coords t) (mX t) (hX t) (mY t) (hY t) (mO t) (hO t) mAcc (Memref.isWhole_whole _) h0 h1 x0 y0 s).2.1, y ∈ pc.1.set :=
  View.cover_of_tiledL (runMid c (grid2.coords t) (mX t) (hX t) (mY t) (hY t) (mO t) (hO t) mAcc (Memref.isWhole_whole _) h0 h1 x0 y0 s).2.1 S1024x1.size (by sl_kernel_rfl) y
theorem coverLast (c : Dev nD) (t : Fin cfg2.N) (h0 : ¬isFirst (grid2.coords t)) (h1 : isLast (grid2.coords t)) (x0 y0 : Vec F S1024x256 .f32) (s : Vec F S1024x1 .f32) (y : S1024x1.Idx) :
    ∃ pc ∈ (runLast c (grid2.coords t) (mX t) (hX t) (mY t) (hY t) (mO t) (hO t) mAcc (Memref.isWhole_whole _) h0 h1 x0 y0 s).2.1, y ∈ pc.1.set :=
  View.cover_of_tiledL (runLast c (grid2.coords t) (mX t) (hX t) (mY t) (hY t) (mO t) (hO t) mAcc (Memref.isWhole_whole _) h0 h1 x0 y0 s).2.1 S1024x1.size (by sl_kernel_rfl) y
/-- At a row's last point the store into the output's buffer covers it. -/
theorem coverOut (c : Dev nD) (t : Fin cfg2.N) (h0 : ¬isFirst (grid2.coords t)) (h1 : isLast (grid2.coords t)) (x0 y0 : Vec F S1024x256 .f32) (s : Vec F S1024x1 .f32) (y : S1024x1.Idx) :
    ∃ pc ∈ (runLast c (grid2.coords t) (mX t) (hX t) (mY t) (hY t) (mO t) (hO t) mAcc (Memref.isWhole_whole _) h0 h1 x0 y0 s).1, y ∈ pc.1.set :=
  View.cover_of_tiledL (runLast c (grid2.coords t) (mX t) (hX t) (mY t) (hY t) (mO t) (hO t) mAcc (Memref.isWhole_whole _) h0 h1 x0 y0 s).1 S1024x1.size (by sl_kernel_rfl) y

/-- The accumulator after a row's first point. -/
def accFirst (c : Dev nD) (t : Fin cfg2.N) (h0 : isFirst (grid2.coords t)) (h1 : ¬isLast (grid2.coords t)) (x0 y0 : Vec F S1024x256 .f32) : Vec F S1024x1 .f32 :=
  vAcc.read (Elt F) (vAcc.writes (Elt F) vAcc.junk (runFirst c (grid2.coords t) (mX t) (hX t) (mY t) (hY t) (mO t) (hO t) mAcc (Memref.isWhole_whole _) h0 h1 x0 y0).2.1)
/-- The accumulator after an inner point, from what the point before left. -/
def accMid (c : Dev nD) (t : Fin cfg2.N) (h0 : ¬isFirst (grid2.coords t)) (h1 : ¬isLast (grid2.coords t)) (x0 y0 : Vec F S1024x256 .f32) (s : Vec F S1024x1 .f32) : Vec F S1024x1 .f32 :=
  vAcc.read (Elt F) (vAcc.writes (Elt F) vAcc.junk (runMid c (grid2.coords t) (mX t) (hX t) (mY t) (hY t) (mO t) (hO t) mAcc (Memref.isWhole_whole _) h0 h1 x0 y0 s).2.1)
/-- The accumulator after a row's last point, from what the point before left. -/
def accLast (c : Dev nD) (t : Fin cfg2.N) (h0 : ¬isFirst (grid2.coords t)) (h1 : isLast (grid2.coords t)) (x0 y0 : Vec F S1024x256 .f32) (s : Vec F S1024x1 .f32) : Vec F S1024x1 .f32 :=
  vAcc.read (Elt F) (vAcc.writes (Elt F) vAcc.junk (runLast c (grid2.coords t) (mX t) (hX t) (mY t) (hY t) (mO t) (hO t) mAcc (Memref.isWhole_whole _) h0 h1 x0 y0 s).2.1)
/-- The output's buffer after a row's last point. -/
def outLast (c : Dev nD) (t : Fin cfg2.N) (h0 : ¬isFirst (grid2.coords t)) (h1 : isLast (grid2.coords t)) (x0 y0 : Vec F S1024x256 .f32) (s : Vec F S1024x1 .f32) : Vec F S1024x1 .f32 :=
  vOut.read (Elt F) (vOut.writes (Elt F) vOut.junk (runLast c (grid2.coords t) (mX t) (hX t) (mY t) (hY t) (mO t) (hO t) mAcc (Memref.isWhole_whole _) h0 h1 x0 y0 s).1)

/-! ## The accumulation, point by point -/

/-- What the accumulator and the output's buffer hold after position n (a pair: accumulator, output's buffer). Off a row's
    last point the output's buffer is not stored into and nothing consults the second component there. -/
def holdsAt (c : Dev nD) : (n : ℕ) → n < cfg2.N → Vec F S1024x1 .f32 × Vec F S1024x1 .f32
  | 0, hn => (accFirst c ⟨0, hn⟩ ((isFirst_iff ⟨0, hn⟩).mpr (Nat.zero_mod _)) (fun h => by have := (isLast_iff ⟨0, hn⟩).mp h; (try dsimp only at this); omega)
      (iblk V c 0 ⟨0, hn⟩) (iblk V c 1 ⟨0, hn⟩), vOut.read (Elt F) vOut.junk)
  | n + 1, hn =>
    if h0 : (n + 1) % 8 = 0 then
      (accFirst c ⟨n + 1, hn⟩ ((isFirst_iff ⟨n + 1, hn⟩).mpr h0) (fun h => by have := (isLast_iff ⟨n + 1, hn⟩).mp h; (try dsimp only at this); omega)
        (iblk V c 0 ⟨n + 1, hn⟩) (iblk V c 1 ⟨n + 1, hn⟩), vOut.read (Elt F) vOut.junk)
    else if h1 : (n + 1) % 8 = 7 then
      (accLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1,
       outLast c ⟨n + 1, hn⟩ (fun h => h0 ((isFirst_iff ⟨n + 1, hn⟩).mp h)) ((isLast_iff ⟨n + 1, hn⟩).mpr h1)
        (iblk V c 0 ⟨n + 1, hn⟩) (iblk V c 1 ⟨n + 1, hn⟩) (holdsAt c n (Nat.lt_of_succ_lt hn)).1)
    else
      (accMid c ⟨n + 1, hn⟩ (fun h => h0 ((isFirst_iff ⟨n + 1, hn⟩).mp h)) (fun h => h1 ((isLast_iff ⟨n + 1, hn⟩).mp h))
        (iblk V c 0 ⟨n + 1, hn⟩) (iblk V c 1 ⟨n + 1, hn⟩) (holdsAt c n (Nat.lt_of_succ_lt hn)).1, vOut.read (Elt F) vOut.junk)

theorem holdsAt_first (c : Dev nD) (t : Fin cfg2.N) (h0 : t.val % 8 = 0) :
    holdsAt V c t.val t.isLt = (accFirst c t ((isFirst_iff t).mpr h0) (fun h => by have := (isLast_iff t).mp h; omega) (iblk V c 0 t) (iblk V c 1 t),
      vOut.read (Elt F) vOut.junk) := by
  obtain ⟨n, hn⟩ := t
  cases n with
  | zero => exact rfl
  | succ n => exact (dif_pos h0).trans rfl

theorem holdsAt_mid (c : Dev nD) (t : Fin cfg2.N) (h0 : ¬t.val % 8 = 0) (h1 : ¬t.val % 8 = 7) :
    holdsAt V c t.val t.isLt = (accMid c t (fun h => h0 ((isFirst_iff t).mp h)) (fun h => h1 ((isLast_iff t).mp h)) (iblk V c 0 t) (iblk V c 1 t)
      (holdsAt V c (t.val - 1) (Nat.lt_of_le_of_lt (Nat.sub_le _ _) t.isLt)).1, vOut.read (Elt F) vOut.junk) := by
  obtain ⟨n, hn⟩ := t
  cases n with
  | zero => exact absurd (Nat.zero_mod _) h0
  | succ n => exact (dif_neg h0).trans ((dif_neg h1).trans rfl)

theorem holdsAt_last (c : Dev nD) (t : Fin cfg2.N) (h0 : ¬t.val % 8 = 0) (h1 : t.val % 8 = 7) :
    holdsAt V c t.val t.isLt = (accLast c t (fun h => h0 ((isFirst_iff t).mp h)) ((isLast_iff t).mpr h1) (iblk V c 0 t) (iblk V c 1 t)
      (holdsAt V c (t.val - 1) (Nat.lt_of_le_of_lt (Nat.sub_le _ _) t.isLt)).1,
     outLast c t (fun h => h0 ((isFirst_iff t).mp h)) ((isLast_iff t).mpr h1) (iblk V c 0 t) (iblk V c 1 t)
      (holdsAt V c (t.val - 1) (Nat.lt_of_le_of_lt (Nat.sub_le _ _) t.isLt)).1) := by
  obtain ⟨n, hn⟩ := t
  cases n with
  | zero => exact absurd (Nat.zero_mod _) h0
  | succ n => exact (dif_neg h0).trans ((dif_pos h1).trans rfl)

/-! ## The invariant between points -/

/-- Before the first point the accumulator holds anything; before position n + 1 it holds what point n left. The other
    calls' scoped buffers and the generator register ride along. -/
def PhiS (c : Dev nD) : (n : ℕ) → n ≤ cfg2.N → sProp 𝕄
  | 0, _ => Pipeline.ΦA spec2 c
  | n + 1, hn => iprop(iprop(owns (c : Thread nD τ) mAcc fullShare ((holdsAt V c n hn).1) ∗ others (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) mAcc fullShare ((holdsAt V c n hn).1) ∗ others (F := F) c) ∗ (∃ r, prngReg c r)) := rfl
theorem PhiS_pos (c : Dev nD) (n : ℕ) (h : n ≤ cfg2.N) (hz : n ≠ 0) :
    PhiS V c n h = iprop(iprop(owns (c : Thread nD τ) mAcc fullShare ((holdsAt V c (n - 1) (by omega)).1) ∗ others (F := F) c) ∗ (∃ r, prngReg c r)) := by
  cases n with
  | zero => exact absurd rfl hz
  | succ n => rfl

/-! ## The data of the pipeline's rule -/

/-- The arrays as the call finds them; after the body each input's buffer holds its block and the output's what
    `holdsAt` says; the invariant `PhiS`; nothing owed; the inputs' arrays held at the shares `qs`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (holdsAt V c t.val t.isLt).2
  Φ t := PhiS V c t.val (Nat.le_of_lt_succ t.isLt)
  q := qs
  owed _ := 0

theorem A_eq (c : Dev nD) (w : Fin cfg2.W) : (dat V qs c).A w = V c (Pipeline.arrRef spec2 w) := by
  dsimp only [dat]
theorem Phi_castSucc (c : Dev nD) (t : Fin cfg2.N) :
    (dat V qs c).Φ t.castSucc = PhiS V c t.val (Nat.le_of_lt t.isLt) := by
  dsimp only [dat]; simp only [Fin.coe_castSucc]
theorem after_0 (c : Dev nD) (t : Fin cfg2.N) : (dat V qs c).after 0 t = iblk V c 0 t := by dsimp only [dat]
theorem after_1 (c : Dev nD) (t : Fin cfg2.N) : (dat V qs c).after 1 t = iblk V c 1 t := by dsimp only [dat]
theorem after_2 (c : Dev nD) (t : Fin cfg2.N) : (dat V qs c).after 2 t = (holdsAt V c t.val t.isLt).2 := by dsimp only [dat]
theorem before_0 (c : Dev nD) (t : Fin cfg2.N) (d) : (dat V qs c).before 0 t d = iblk V c 0 t :=
  before_0_of V (dat V qs c) (A_eq V qs c 0) (after_0 V qs c) t d
theorem before_1 (c : Dev nD) (t : Fin cfg2.N) (d) : (dat V qs c).before 1 t d = iblk V c 1 t :=
  before_1_of V (dat V qs c) (A_eq V qs c 1) (after_1 V qs c) t d

/-! ## The body's obligation -/

def bodyPre (c : Dev nD) (t : Fin cfg2.N) : sProp 𝕄 :=
  iprop((dat V qs c).Φ t.castSucc ∗ (dat V qs c).owesAt () t.castSucc
    ∗ (∃ d, owns (c : Thread nD τ) (mX t) fullShare ((dat V qs c).before 0 t d))
    ∗ (∃ d, owns (c : Thread nD τ) (mY t) fullShare ((dat V qs c).before 1 t d))
    ∗ (∃ d, owns (c : Thread nD τ) (mO t) fullShare ((dat V qs c).before 2 t d)))

def bodyPost (c : Dev nD) (t : Fin cfg2.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4800000 in
/-- At every point the body, called on the current staging buffers, takes the invariant before the point to the invariant
    after it: the inputs' buffers hold their blocks, the case is read off the point's number, and the accumulator goes
    from what the point before left to what `holdsAt` says of this one. -/
theorem sound_body (c : Dev nD) (t : Fin cfg2.N) :
    bodyPre V qs c t ⊢ wp frame (wpE (defs₀ (F := F)) Variants.none c none) Set.univ (bodyAt2 t) (fun _ => bodyPost V qs c t) := by
  unfold bodyPre bodyPost bodyAt2
  simp only [before_0, before_1]
  rw [show (dat V qs c).owesAt () t.succ = (dat V qs c).owesAt () t.castSucc from rfl]
  rw [show (dat V qs c).Φ t.succ = PhiS V c (t.val + 1) t.isLt from rfl, PhiS_succ]
  have hN : t.val < 64 := lt_of_lt_of_eq t.isLt (show cfg2.N = 64 from N_2)
  rw [show (dat V qs c).leavesExact 0 t = owns (c : Thread nD τ) (mX t) fullShare ((dat V qs c).after 0 t) from by
    unfold Dat.leavesExact; rw [live_0 t], after_0]
  rw [show (dat V qs c).leavesExact 1 t = owns (c : Thread nD τ) (mY t) fullShare ((dat V qs c).after 1 t) from by
    unfold Dat.leavesExact; rw [live_1 t], after_1]
  by_cases h0 : t.val % 8 = 0
  · have hl : ¬isLast (grid2.coords t) := fun h => by have := (isLast_iff t).mp h; omega
    rw [Dat.leavesExact_idle (dat V qs c) 2 t (idle_2 t hl) (noFlush_2 t hl)]
    rw [holdsAt_first V c t h0]
    unfold accFirst; (try dsimp only)
    by_cases hz : t.val = 0
    · rw [Phi_castSucc V qs c t, PhiS_zero V c _ _ hz, PhiA_eq]
      iintro ⟨⟨⟨HS, Hoth⟩, Hg⟩, Ho, ⟨%d0, H0⟩, ⟨%d1, H1⟩, ⟨%d2, H2⟩⟩
      iapply ((runFirst c (grid2.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
    · rw [Phi_castSucc V qs c t, PhiS_pos V c _ _ hz]
      iintro ⟨⟨⟨HS, Hoth⟩, Hg⟩, Ho, ⟨%d0, H0⟩, ⟨%d1, H1⟩, ⟨%d2, H2⟩⟩
      iapply ((runFirst c (grid2.coords t) (mX t) (hX t) (mY t) (hY t) (mO t) (hO t) mAcc (Memref.isWhole_whole _) ((isFirst_iff t).mpr h0) hl (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverFirst c t _ _ _ _)
          iexact Hoth
        iexact Hg
      isplitl [Ho]; · iexact Ho
      isplitl [H0]; · iexact H0
      isplitl [H1]; · iexact H1
      iexists _; iexact H2
  · have hf : ¬isFirst (grid2.coords t) := fun h => h0 ((isFirst_iff t).mp h)
    have hz : t.val ≠ 0 := fun h => h0 (by rw [h])
    by_cases h1 : t.val % 8 = 7
    · have hl : isLast (grid2.coords t) := (isLast_iff t).mpr h1
      rw [show (dat V qs c).leavesExact 2 t = owns (c : Thread nD τ) (mO t) fullShare ((dat V qs c).after 2 t) from by
        unfold Dat.leavesExact; rw [live_2 t hl], after_2]
      rw [holdsAt_last V c t h0 h1]
      unfold accLast outLast; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runLast c (grid2.coords t) (mX t) (hX t) (mY t) (hY t) (mO t) (hO t) mAcc (Memref.isWhole_whole _) hf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hg Hoth]
      · isplitl [HS Hoth]
        · isplitl [HS]
          · unfold owns; iexists _; isplitr
            swap; · iexact HS
            ipureintro; exact View.read_writes_of_cover _ _ _ _ _ (coverLast c t _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c t _ _ _ _ _)
    · have hl : ¬isLast (grid2.coords t) := fun h => h1 ((isLast_iff t).mp h)
      rw [Dat.leavesExact_idle (dat V qs c) 2 t (idle_2 t hl) (noFlush_2 t hl)]
      rw [holdsAt_mid V c t h0 h1]
      unfold accMid; (try dsimp only)
      rw [Phi_castSucc V qs c t, PhiS_pos V c _ _ hz]
      iintro ⟨⟨⟨HS, Hoth⟩, Hg⟩, Ho, ⟨%d0, H0⟩, ⟨%d1, H1⟩, ⟨%d2, H2⟩⟩
      iapply ((runMid c (grid2.coords t) (mX t) (hX t) (mY t) (hY t) (mO t) (hO t) mAcc (Memref.isWhole_whole _) hf hl (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg Hoth]
      · isplitl [HS Hoth]
        · isplitl [HS]
          · unfold owns; iexists _; isplitr
            swap; · iexact HS
            ipureintro; exact View.read_writes_of_cover _ _ _ _ _ (coverMid c t _ _ _ _ _)
          iexact Hoth
        iexact Hg
      isplitl [Ho]; · iexact Ho
      isplitl [H0]; · iexact H0
      isplitl [H1]; · iexact H1
      iexists _; iexact H2

/-- The pipeline rule's body obligation, at every point. -/
theorem body_obligation (c : Dev nD) : BodyObligation (dat (F := F) V qs c) (defs₀ (F := F)) Variants.none () Set.univ := fun t => by
  rw [bigSep_W2, bigSep_W2]
  exact sound_body V qs c t

/-- What the call is handed is the invariant before the first point. -/
theorem hin (c : Dev nD) : Pipeline.ΦA spec2 c ⊢ (dat V qs c).Φ 0 := by
  rw [show (dat V qs c).Φ 0 = PhiS V c 0 (Nat.zero_le _) from rfl, PhiS_zero V c 0 _ rfl]
  try exact Idealize.SL.BI.Entails.refl _

/-- After the last point the invariant gives everything back, the accumulator's contents forgotten. -/
theorem hout (c : Dev nD) : (dat V qs c).Φ (Fin.last cfg2.N) ⊢ Pipeline.ΦA spec2 c := by
  rw [show (dat V qs c).Φ (Fin.last cfg2.N) = PhiS V c (Fin.last cfg2.N).val (Nat.le_of_lt_succ (Fin.last cfg2.N).isLt) from rfl,
    PhiS_pos V c _ _ (by rw [Fin.val_last]; have : cfg2.N = 64 := N_2; omega), PhiA_eq]
  iintro ⟨⟨HS, Hoth⟩, Hg⟩
  isplitl [HS Hoth]
  · isplitl [HS]
    · iexists _; iexact HS
    iexact Hoth
  iexact Hg

end Cert.KernelIdeal.Reg2

end
-- ==== Proof.KIRun.lean ====
/-
  The whole program: its three calls and the host operations between and after them, run from the launch memory to the
  return. The core's unscoped buffers are followed from boundary to boundary: a call changes only its output column
  (to what its last grid points wrote back), a stretch of host operations changes only the buffers it writes.
  The first two calls read ONE array through both of their input windows; the array is then held in two halves, one
  per window, and put together again when the call is left.
-/
import proofs.«139631_j39135742001578_2_alg».proof.Proof.KI0.Points
import proofs.«139631_j39135742001578_2_alg».proof.Proof.KI1.Points
import proofs.«139631_j39135742001578_2_alg».proof.Proof.KI2.Points
import proofs.«139631_j39135742001578_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares the input arrays are held at -/

/-- One array read through two windows: a half for each. -/
abbrev halves : Fin 3 → PosShare TreeShare := fun | 0 => fullShare.left | 1 => fullShare.right | 2 => fullShare | ⟨_ + 3, h⟩ => absurd h (Nat.not_lt.2 (Nat.le_add_left _ _))
/-- Two distinct arrays: each whole. -/
abbrev wholes : Fin 3 → PosShare TreeShare := fun _ => fullShare

/-! ## The buffers' contents at each boundary -/

/-- At launch. -/
abbrev W0 (c : Dev nD) : Valuation τ sig (Elt F) := fun b => m (c, b)
abbrev U0 (c : Dev nD) (b : Ref sig .tc) : Buf (Elt F) ((c : Thread nD τ).loc b) := W0 m c b
/-- The column call 0 leaves. -/
def out0 (c : Dev nD) : Buf (Elt F) ((c : Thread nD τ).loc main_v0) := (Reg0.dat (U0 m) halves c).arrAt 2 cfg0.N
/-- After call 0. -/
def W1 (c : Dev nD) : Valuation τ sig (Elt F) := Function.update (W0 m c) main_v0 (out0 m c)
abbrev U1 (c : Dev nD) (b : Ref sig .tc) : Buf (Elt F) ((c : Thread nD τ).loc b) := W1 m c b
/-- After the first stretch of host operations. -/
abbrev W2 (c : Dev nD) : Valuation τ sig (Elt F) := StableHlo.after hostOps1 (W1 m c)
abbrev U2 (c : Dev nD) (b : Ref sig .tc) : Buf (Elt F) ((c : Thread nD τ).loc b) := W2 m c b
/-- The column call 1 leaves. -/
def out1 (c : Dev nD) : Buf (Elt F) ((c : Thread nD τ).loc main_v2) := (Reg1.dat (U2 m) halves c).arrAt 2 cfg1.N
/-- After call 1. -/
def W3 (c : Dev nD) : Valuation τ sig (Elt F) := Function.update (W2 m c) main_v2 (out1 m c)
abbrev U3 (c : Dev nD) (b : Ref sig .tc) : Buf (Elt F) ((c : Thread nD τ).loc b) := W3 m c b
/-- After the second stretch. -/
abbrev W4 (c : Dev nD) : Valuation τ sig (Elt F) := StableHlo.after hostOps2 (W3 m c)
abbrev U4 (c : Dev nD) (b : Ref sig .tc) : Buf (Elt F) ((c : Thread nD τ).loc b) := W4 m c b
/-- The column call 2 leaves. -/
def out2 (c : Dev nD) : Buf (Elt F) ((c : Thread nD τ).loc main_v4) := (Reg2.dat (U4 m) wholes c).arrAt 2 cfg2.N
/-- After call 2. -/
def W5 (c : Dev nD) : Valuation τ sig (Elt F) := Function.update (W4 m c) main_v4 (out2 m c)
abbrev U5 (c : Dev nD) (b : Ref sig .tc) : Buf (Elt F) ((c : Thread nD τ).loc b) := W5 m c b
/-- At the return. -/
abbrev W6 (c : Dev nD) : Valuation τ sig (Elt F) := StableHlo.after hostOps3 (W5 m c)

/-! ## The calls' data, and what rides along -/

/-- Each call's data at the contents it is entered from. -/
def pdats : (p : Fin 3) → (c : Dev nD) → Dat τ (Elt F) Unit ℕ (UR sig nD τ) ℕ (Pipeline.pin (pcfgs (F := F)) adm p) c
  | ⟨0, _⟩ => fun c => Reg0.dat (U0 m) halves c
  | ⟨1, _⟩ => fun c => Reg1.dat (U2 m) halves c
  | ⟨2, _⟩ => fun c => Reg2.dat (U4 m) wholes c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A whole array's points-to over its view's index set is the plain one. -/
theorem pt_whole {sp : Space} {sh : Shape} {e : EltTy} (a : Memref sig .tc sp sh e) (ha : a.IsWhole) (c : Dev nD) (q : PosShare TreeShare)
    (f : Buf (Elt F) (a.view.loc (c : Thread nD τ))) :
    ((a.view.loc (c : Thread nD τ)) ↦[a.view.set]{q} f : sProp 𝕄) = ((a.view.loc (c : Thread nD τ)) ↦{q} f) := by
  rw [ha.set_eq_univ]

abbrev Tₙ (c : Dev nD) : sProp 𝕄 := iprop(StableHlo.held (c : Thread nD τ) (Pipeline.ucRefs τ sig) (W6 m c) ∗ ∃ r, prngReg c r)

/-! ## Call 0 as a segment of the program -/

set_option backward.isDefEq.respectTransparency.types false in
/-- The arrays of call 0's windows, one conjunct per window, each a whole buffer. -/
theorem arrays0_eq (c : Dev nD) (Fa) :
    ((pdats m 0 c).arrays Fa : sProp 𝕄)
      = iprop((((Pipeline.pin (pcfgs (F := F)) adm 0).win 0).arr.view.loc (c : Thread nD τ) ↦{(pdats m 0 c).share 0} Fa 0)
          ∗ (((Pipeline.pin (pcfgs (F := F)) adm 0).win 1).arr.view.loc (c : Thread nD τ) ↦{(pdats m 0 c).share 1} Fa 1)
          ∗ (((Pipeline.pin (pcfgs (F := F)) adm 0).win 2).arr.view.loc (c : Thread nD τ) ↦{(pdats m 0 c).share 2} Fa 2)) := by
  unfold Pipeline.Dat.arrays
  rw [bigSep_W0]
  exact congrArg₂ (fun a b : sProp 𝕄 => iprop(a ∗ b)) (pt_whole _ (arr_whole0 0) c _ _)
    (congrArg₂ (fun a b : sProp 𝕄 => iprop(a ∗ b)) (pt_whole _ (arr_whole0 1) c _ _) (pt_whole _ (arr_whole0 2) c _ _))

/-- The buffers behind call 0's arrays. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) (cfgs 0).spec c Vv : sProp 𝕄)
      = bigSep ({main_arg0, main_v0} : Finset (Ref sig .tc)) fun b => (((c : Thread nD τ).loc b) ↦{fullShare} Vv b : sProp 𝕄) := by
  unfold Pipeline.arrBufs
  rw [show (Finset.univ.image (Pipeline.arrRef (cfgs 0).spec)) = ({main_arg0, main_v0} : Finset (Ref sig .tc)) from by decide]

/-- Leaving call 0 changes only its output's buffer. -/
theorem W1_of_ne (c : Dev nD) (b : Ref sig .tc) (hb : b ≠ main_v0) : W1 m c b = W0 m c b := by
  unfold W1
  exact Function.update_of_ne (StableHlo.devRef_ne_of_ne hb) _ _
theorem W1_out (c : Dev nD) : W1 m c main_v0 = out0 m c := by
  unfold W1
  exact Function.update_self ..

set_option backward.isDefEq.respectTransparency.types false in
/-- ENTRY: the core's unscoped buffers are the windows' arrays (the array both inputs read split in two halves) and the rest. -/
theorem entry0 (c : Dev nD) :
    (unscopedBufs (Ix := Unit) (Name := ℕ) (U := UR sig nD τ) (Lvl := ℕ) c (U0 m c) : sProp 𝕄)
      ⊢ iprop((pdats m 0 c).arrays ((pdats m 0 c).arrAt · 0) ∗ Pipeline.unscopedRest spec0 c (U0 m c)) := by
  rw [Pipeline.unscopedBufs_split₀ cfgs 0 winFacts₀0.arr_unscoped c (U0 m c), arrays0_eq, arrBufs0_eq]
  refine sep_mono ?_ .rfl
  rw [bigSep_insert (by decide), bigSep_singleton]
  show iprop((((c : Thread nD τ).loc main_arg0) ↦{fullShare} U0 m c main_arg0) ∗ (((c : Thread nD τ).loc main_v0) ↦{fullShare} U0 m c main_v0))
      ⊢ (iprop((((c : Thread nD τ).loc main_arg0) ↦{fullShare.left} U0 m c main_arg0) ∗ (((c : Thread nD τ).loc main_arg0) ↦{fullShare.right} U0 m c main_arg0) ∗ (((c : Thread nD τ).loc main_v0) ↦{fullShare} U0 m c main_v0)) : sProp 𝕄)
  iintro ⟨Ha, Ho⟩
  ihave H := (pointsTo_share (PosShare.mem_left_op_right fullShare)).1 $$ Ha
  icases H with ⟨Hl, Hr⟩
  isplitl [Hl]; · iexact Hl
  isplitl [Hr]; · iexact Hr
  iexact Ho

set_option backward.isDefEq.respectTransparency.types false in
/-- EXIT: the windows' arrays after the last point and the rest are the core's unscoped buffers at the next boundary. -/
theorem exit0 (c : Dev nD) :
    iprop((pdats m 0 c).arrays ((pdats m 0 c).arrAt · cfg0.N) ∗ Pipeline.unscopedRest spec0 c (U0 m c))
      ⊢ (unscopedBufs (Ix := Unit) (Name := ℕ) (U := UR sig nD τ) (Lvl := ℕ) c (U1 m c) : sProp 𝕄) := by
  rw [Pipeline.unscopedBufs_split₀ cfgs 0 winFacts₀0.arr_unscoped c (U1 m c), arrays0_eq, arrBufs0_eq]
  refine sep_mono ?_ (Entails.of_eq ?_)
  · rw [bigSep_insert (by decide), bigSep_singleton]
    rw [(pdats m 0 c).arrAt_in 0 rfl _, (pdats m 0 c).arrAt_in 1 rfl _]
    simp only [U1, W1_of_ne m c main_arg0 (by decide), W1_out]
    show (iprop((((c : Thread nD τ).loc main_arg0) ↦{fullShare.left} U0 m c main_arg0) ∗ (((c : Thread nD τ).loc main_arg0) ↦{fullShare.right} U0 m c main_arg0) ∗ (((c : Thread nD τ).loc main_v0) ↦{fullShare} out0 m c)) : sProp 𝕄)
      ⊢ iprop((((c : Thread nD τ).loc main_arg0) ↦{fullShare} U0 m c main_arg0) ∗ (((c : Thread nD τ).loc main_v0) ↦{fullShare} out0 m c))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    refine bigSep_congr fun b hb => ?_
    have hne : b ≠ main_v0 := fun h => (Finset.mem_sdiff.mp hb).2 (Finset.mem_image.mpr ⟨2, Finset.mem_univ _, h.symm⟩)
    simp only [U1, W1_of_ne m c b hne]

set_option backward.isDefEq.respectTransparency.types false in
/-- Call 0 over the thread state "every unscoped buffer at the boundary's contents, the generator register at some state,
    nothing owed": entered from the contents before it, left at those contents with its output column written. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation (U0 m) halves c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg0.hin (U0 m) halves c)
    unfold Pipeline.ΦA
    iintro ⟨Hp, -, Hr⟩
    isplitl [Hr]; · iexact Hr
    iexact Hp
  hout c := by
    rw [Pipeline.ownSems0_none]
    refine Idealize.SL.BI.BIBase.Entails.trans (Reg0.hout (U0 m) halves c) ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 as a segment of the program -/

set_option backward.isDefEq.respectTransparency.types false in
/-- The arrays of call 1's windows, one conjunct per window, each a whole buffer. -/
theorem arrays1_eq (c : Dev nD) (Fa) :
    ((pdats m 1 c).arrays Fa : sProp 𝕄)
      = iprop((((Pipeline.pin (pcfgs (F := F)) adm 1).win 0).arr.view.loc (c : Thread nD τ) ↦{(pdats m 1 c).share 0} Fa 0)
          ∗ (((Pipeline.pin (pcfgs (F := F)) adm 1).win 1).arr.view.loc (c : Thread nD τ) ↦{(pdats m 1 c).share 1} Fa 1)
          ∗ (((Pipeline.pin (pcfgs (F := F)) adm 1).win 2).arr.view.loc (c : Thread nD τ) ↦{(pdats m 1 c).share 2} Fa 2)) := by
  unfold Pipeline.Dat.arrays
  rw [bigSep_W1]
  exact congrArg₂ (fun a b : sProp 𝕄 => iprop(a ∗ b)) (pt_whole _ (arr_whole1 0) c _ _)
    (congrArg₂ (fun a b : sProp 𝕄 => iprop(a ∗ b)) (pt_whole _ (arr_whole1 1) c _ _) (pt_whole _ (arr_whole1 2) c _ _))

/-- The buffers behind call 1's arrays. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) (cfgs 1).spec c Vv : sProp 𝕄)
      = bigSep ({main_arg1, main_v2} : Finset (Ref sig .tc)) fun b => (((c : Thread nD τ).loc b) ↦{fullShare} Vv b : sProp 𝕄) := by
  unfold Pipeline.arrBufs
  rw [show (Finset.univ.image (Pipeline.arrRef (cfgs 1).spec)) = ({main_arg1, main_v2} : Finset (Ref sig .tc)) from by decide]

/-- Leaving call 1 changes only its output's buffer. -/
theorem W3_of_ne (c : Dev nD) (b : Ref sig .tc) (hb : b ≠ main_v2) : W3 m c b = W2 m c b := by
  unfold W3
  exact Function.update_of_ne (StableHlo.devRef_ne_of_ne hb) _ _
theorem W3_out (c : Dev nD) : W3 m c main_v2 = out1 m c := by
  unfold W3
  exact Function.update_self ..

set_option backward.isDefEq.respectTransparency.types false in
/-- ENTRY: the core's unscoped buffers are the windows' arrays (the array both inputs read split in two halves) and the rest. -/
theorem entry1 (c : Dev nD) :
    (unscopedBufs (Ix := Unit) (Name := ℕ) (U := UR sig nD τ) (Lvl := ℕ) c (U2 m c) : sProp 𝕄)
      ⊢ iprop((pdats m 1 c).arrays ((pdats m 1 c).arrAt · 0) ∗ Pipeline.unscopedRest spec1 c (U2 m c)) := by
  rw [Pipeline.unscopedBufs_split₀ cfgs 1 winFacts₀1.arr_unscoped c (U2 m c), arrays1_eq, arrBufs1_eq]
  refine sep_mono ?_ .rfl
  rw [bigSep_insert (by decide), bigSep_singleton]
  show iprop((((c : Thread nD τ).loc main_arg1) ↦{fullShare} U2 m c main_arg1) ∗ (((c : Thread nD τ).loc main_v2) ↦{fullShare} U2 m c main_v2))
      ⊢ (iprop((((c : Thread nD τ).loc main_arg1) ↦{fullShare.left} U2 m c main_arg1) ∗ (((c : Thread nD τ).loc main_arg1) ↦{fullShare.right} U2 m c main_arg1) ∗ (((c : Thread nD τ).loc main_v2) ↦{fullShare} U2 m c main_v2)) : sProp 𝕄)
  iintro ⟨Ha, Ho⟩
  ihave H := (pointsTo_share (PosShare.mem_left_op_right fullShare)).1 $$ Ha
  icases H with ⟨Hl, Hr⟩
  isplitl [Hl]; · iexact Hl
  isplitl [Hr]; · iexact Hr
  iexact Ho

set_option backward.isDefEq.respectTransparency.types false in
/-- EXIT: the windows' arrays after the last point and the rest are the core's unscoped buffers at the next boundary. -/
theorem exit1 (c : Dev nD) :
    iprop((pdats m 1 c).arrays ((pdats m 1 c).arrAt · cfg1.N) ∗ Pipeline.unscopedRest spec1 c (U2 m c))
      ⊢ (unscopedBufs (Ix := Unit) (Name := ℕ) (U := UR sig nD τ) (Lvl := ℕ) c (U3 m c) : sProp 𝕄) := by
  rw [Pipeline.unscopedBufs_split₀ cfgs 1 winFacts₀1.arr_unscoped c (U3 m c), arrays1_eq, arrBufs1_eq]
  refine sep_mono ?_ (Entails.of_eq ?_)
  · rw [bigSep_insert (by decide), bigSep_singleton]
    rw [(pdats m 1 c).arrAt_in 0 rfl _, (pdats m 1 c).arrAt_in 1 rfl _]
    simp only [U3, W3_of_ne m c main_arg1 (by decide), W3_out]
    show (iprop((((c : Thread nD τ).loc main_arg1) ↦{fullShare.left} U2 m c main_arg1) ∗ (((c : Thread nD τ).loc main_arg1) ↦{fullShare.right} U2 m c main_arg1) ∗ (((c : Thread nD τ).loc main_v2) ↦{fullShare} out1 m c)) : sProp 𝕄)
      ⊢ iprop((((c : Thread nD τ).loc main_arg1) ↦{fullShare} U2 m c main_arg1) ∗ (((c : Thread nD τ).loc main_v2) ↦{fullShare} out1 m c))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    refine bigSep_congr fun b hb => ?_
    have hne : b ≠ main_v2 := fun h => (Finset.mem_sdiff.mp hb).2 (Finset.mem_image.mpr ⟨2, Finset.mem_univ _, h.symm⟩)
    simp only [U3, W3_of_ne m c b hne]

set_option backward.isDefEq.respectTransparency.types false in
/-- Call 1 over the thread state "every unscoped buffer at the boundary's contents, the generator register at some state,
    nothing owed": entered from the contents before it, left at those contents with its output column written. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (U2 m) halves c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg1.hin (U2 m) halves c)
    unfold Pipeline.ΦA
    iintro ⟨Hp, -, Hr⟩
    isplitl [Hr]; · iexact Hr
    iexact Hp
  hout c := by
    rw [Pipeline.ownSems0_none]
    refine Idealize.SL.BI.BIBase.Entails.trans (Reg1.hout (U2 m) halves c) ?_
    unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 as a segment of the program -/

set_option backward.isDefEq.respectTransparency.types false in
/-- The arrays of call 2's windows, one conjunct per window, each a whole buffer. -/
theorem arrays2_eq (c : Dev nD) (Fa) :
    ((pdats m 2 c).arrays Fa : sProp 𝕄)
      = iprop((((Pipeline.pin (pcfgs (F := F)) adm 2).win 0).arr.view.loc (c : Thread nD τ) ↦{(pdats m 2 c).share 0} Fa 0)
          ∗ (((Pipeline.pin (pcfgs (F := F)) adm 2).win 1).arr.view.loc (c : Thread nD τ) ↦{(pdats m 2 c).share 1} Fa 1)
          ∗ (((Pipeline.pin (pcfgs (F := F)) adm 2).win 2).arr.view.loc (c : Thread nD τ) ↦{(pdats m 2 c).share 2} Fa 2)) := by
  unfold Pipeline.Dat.arrays
  rw [bigSep_W2]
  exact congrArg₂ (fun a b : sProp 𝕄 => iprop(a ∗ b)) (pt_whole _ (arr_whole2 0) c _ _)
    (congrArg₂ (fun a b : sProp 𝕄 => iprop(a ∗ b)) (pt_whole _ (arr_whole2 1) c _ _) (pt_whole _ (arr_whole2 2) c _ _))

/-- The buffers behind call 2's arrays. -/
theorem arrBufs2_eq (c : Dev nD) (Vv : (b : Ref sig .tc) → Buf (Elt F) ((c : Thread nD τ).loc b)) :
    (Pipeline.arrBufs (Ix := Unit) (Name := ℕ) (U := UR sig nD τ) (Lvl := ℕ) (cfgs 2).spec c Vv : sProp 𝕄)
      = bigSep ({main_arg0, main_arg1, main_v4} : Finset (Ref sig .tc)) fun b => (((c : Thread nD τ).loc b) ↦{fullShare} Vv b : sProp 𝕄) := by
  unfold Pipeline.arrBufs
  rw [show (Finset.univ.image (Pipeline.arrRef (cfgs 2).spec)) = ({main_arg0, main_arg1, main_v4} : Finset (Ref sig .tc)) from by decide]

/-- Leaving call 2 changes only its output's buffer. -/
theorem W5_of_ne (c : Dev nD) (b : Ref sig .tc) (hb : b ≠ main_v4) : W5 m c b = W4 m c b := by
  unfold W5
  exact Function.update_of_ne (StableHlo.devRef_ne_of_ne hb) _ _
theorem W5_out (c : Dev nD) : W5 m c main_v4 = out2 m c := by
  unfold W5
  exact Function.update_self ..

set_option backward.isDefEq.respectTransparency.types false in
/-- ENTRY: the core's unscoped buffers are the windows' arrays and the rest. -/
theorem entry2 (c : Dev nD) :
    (unscopedBufs (Ix := Unit) (Name := ℕ) (U := UR sig nD τ) (Lvl := ℕ) c (U4 m c) : sProp 𝕄)
      ⊢ iprop((pdats m 2 c).arrays ((pdats m 2 c).arrAt · 0) ∗ Pipeline.unscopedRest spec2 c (U4 m c)) := by
  rw [Pipeline.unscopedBufs_split₀ cfgs 2 winFacts2.arr_unscoped c (U4 m c), arrays2_eq, arrBufs2_eq]
  refine sep_mono ?_ .rfl
  rw [bigSep_insert (by decide), bigSep_insert (by decide), bigSep_singleton]
  show iprop((((c : Thread nD τ).loc main_arg0) ↦{fullShare} U4 m c main_arg0) ∗ (((c : Thread nD τ).loc main_arg1) ↦{fullShare} U4 m c main_arg1) ∗ (((c : Thread nD τ).loc main_v4) ↦{fullShare} U4 m c main_v4))
      ⊢ (iprop((((c : Thread nD τ).loc main_arg0) ↦{fullShare} U4 m c main_arg0) ∗ (((c : Thread nD τ).loc main_arg1) ↦{fullShare} U4 m c main_arg1) ∗ (((c : Thread nD τ).loc main_v4) ↦{fullShare} U4 m c main_v4)) : sProp 𝕄)
  iintro ⟨Ha, Hb, Ho⟩
  isplitl [Ha]; · iexact Ha
  isplitl [Hb]; · iexact Hb
  iexact Ho

set_option backward.isDefEq.respectTransparency.types false in
/-- EXIT: the windows' arrays after the last point and the rest are the core's unscoped buffers at the next boundary. -/
theorem exit2 (c : Dev nD) :
    iprop((pdats m 2 c).arrays ((pdats m 2 c).arrAt · cfg2.N) ∗ Pipeline.unscopedRest spec2 c (U4 m c))
      ⊢ (unscopedBufs (Ix := Unit) (Name := ℕ) (U := UR sig nD τ) (Lvl := ℕ) c (U5 m c) : sProp 𝕄) := by
  rw [Pipeline.unscopedBufs_split₀ cfgs 2 winFacts2.arr_unscoped c (U5 m c), arrays2_eq, arrBufs2_eq]
  refine sep_mono ?_ (Entails.of_eq ?_)
  · rw [bigSep_insert (by decide), bigSep_insert (by decide), bigSep_singleton]
    rw [(pdats m 2 c).arrAt_in 0 rfl _, (pdats m 2 c).arrAt_in 1 rfl _]
    simp only [U5, W5_of_ne m c main_arg0 (by decide), W5_of_ne m c main_arg1 (by decide), W5_out]
    show (iprop((((c : Thread nD τ).loc main_arg0) ↦{fullShare} U4 m c main_arg0) ∗ (((c : Thread nD τ).loc main_arg1) ↦{fullShare} U4 m c main_arg1) ∗ (((c : Thread nD τ).loc main_v4) ↦{fullShare} out2 m c)) : sProp 𝕄)
      ⊢ iprop((((c : Thread nD τ).loc main_arg0) ↦{fullShare} U4 m c main_arg0) ∗ (((c : Thread nD τ).loc main_arg1) ↦{fullShare} U4 m c main_arg1) ∗ (((c : Thread nD τ).loc main_v4) ↦{fullShare} out2 m c))
    iintro ⟨Ha, Hb, Ho⟩
    isplitl [Ha]; · iexact Ha
    isplitl [Hb]; · iexact Hb
    iexact Ho
  · unfold Pipeline.unscopedRest
    refine bigSep_congr fun b hb => ?_
    have hne : b ≠ main_v4 := fun h => (Finset.mem_sdiff.mp hb).2 (Finset.mem_image.mpr ⟨2, Finset.mem_univ _, h.symm⟩)
    simp only [U5, W5_of_ne m c b hne]

set_option backward.isDefEq.respectTransparency.types false in
/-- Call 2 over the thread state "every unscoped buffer at the boundary's contents, the generator register at some state,
    nothing owed": entered from the contents before it, left at those contents with its output column written. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (Reg2.body_obligation (U4 m) wholes c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Reg2.hin (U4 m) wholes c)
    unfold Pipeline.ΦA
    iintro ⟨Hp, -, Hr⟩
    isplitl [Hr]; · iexact Hr
    iexact Hp
  hout c := by
    rw [Pipeline.ownSems0_none]
    refine Idealize.SL.BI.BIBase.Entails.trans (Reg2.hout (U4 m) wholes c) ?_
    unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and at
    the end every unscoped buffer holds what the boundaries' contents say (`W6`). -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Whole

end
-- ==== Proof.KITail.lean ====
/-
  The host operations after the three calls, as one function of the three columns of row sums the calls leave:
  each column is summed, divided by N² = 2^26, and the three means are combined as m₀ + m₁ − (2 · s₂) / N².
-/
import proofs.«139631_j39135742001578_2_alg».proof.KernelIdeal
import proofs.«139631_j39135742001578_2_alg».proof.Proof.Gen.KernelIdeal

noncomputable section

namespace Cert.KernelIdeal.Whole

open Cert.KernelIdeal Cert.KernelIdeal.Gen Idealize.ShloMosaic

variable {F : FTy → Type} [FloatOps F]

/-- A column's total, as the host computes it: the sum of all its entries from the initial value zero. -/
def colSum (o : FVec F S8192x1 .f32) : FVec F S_ .f32 :=
  Host.reduceAdd o (constant S_ .f32 0x00000000#32) reducesTo_S8192x1_S_d0_1 h_S_

/-- The host's combination of the three totals. -/
def combine (s0 s1 s2 : FVec F S_ .f32) : FVec F S_ .f32 :=
  subf (addf (Host.divf s0 (constant S_ .f32 0x4C800000#32)) (Host.divf s1 (constant S_ .f32 0x4C800000#32)))
    (Host.divf (mulf (constant S_ .f32 0x40000000#32) s2) (constant S_ .f32 0x4C800000#32))

/-- The program's result from the three columns. -/
def tail (o0 o1 o2 : FVec F S8192x1 .f32) : FVec F S_ .f32 :=
  combine (colSum o0) (colSum o1) (colSum o2)

end Cert.KernelIdeal.Whole

end
-- ==== Proof.KIRunValue.lean ====
/-
  What the program's buffers hold at the return: the two arguments are as launched (no call and no host operation
  writes them), and the result is the host's combination of the three columns the calls leave.
-/
import proofs.«139631_j39135742001578_2_alg».proof.Proof.KIRun
import proofs.«139631_j39135742001578_2_alg».proof.Proof.KITail

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- The first argument reaches the end as launched. -/
theorem W6_main_arg0 (c : Dev nD) : W6 m c main_arg0 = m ((c : Thread nD τ).loc main_arg0) :=
  (StableHlo.after_of_writes_sub hostOps3 (W5 m c) hostOps3_writes (by decide)).trans <| (W5_of_ne m c main_arg0 (by decide)).trans <|
  (StableHlo.after_of_writes_sub hostOps2 (W3 m c) hostOps2_writes (by decide)).trans <| (W3_of_ne m c main_arg0 (by decide)).trans <|
  (StableHlo.after_of_writes_sub hostOps1 (W1 m c) hostOps1_writes (by decide)).trans <| (W1_of_ne m c main_arg0 (by decide)).trans rfl
/-- So does the second. -/
theorem W6_main_arg1 (c : Dev nD) : W6 m c main_arg1 = m ((c : Thread nD τ).loc main_arg1) :=
  (StableHlo.after_of_writes_sub hostOps3 (W5 m c) hostOps3_writes (by decide)).trans <| (W5_of_ne m c main_arg1 (by decide)).trans <|
  (StableHlo.after_of_writes_sub hostOps2 (W3 m c) hostOps2_writes (by decide)).trans <| (W3_of_ne m c main_arg1 (by decide)).trans <|
  (StableHlo.after_of_writes_sub hostOps1 (W1 m c) hostOps1_writes (by decide)).trans <| (W1_of_ne m c main_arg1 (by decide)).trans rfl

/-- The arrays the second and third calls read are the arguments as launched. -/
theorem U2_main_arg1 (c : Dev nD) : U2 m c main_arg1 = m ((c : Thread nD τ).loc main_arg1) :=
  (StableHlo.after_of_writes_sub hostOps1 (W1 m c) hostOps1_writes (by decide)).trans <| (W1_of_ne m c main_arg1 (by decide)).trans rfl
theorem U4_main_arg0 (c : Dev nD) : U4 m c main_arg0 = m ((c : Thread nD τ).loc main_arg0) :=
  (StableHlo.after_of_writes_sub hostOps2 (W3 m c) hostOps2_writes (by decide)).trans <| (W3_of_ne m c main_arg0 (by decide)).trans <|
  (StableHlo.after_of_writes_sub hostOps1 (W1 m c) hostOps1_writes (by decide)).trans <| (W1_of_ne m c main_arg0 (by decide)).trans rfl
theorem U4_main_arg1 (c : Dev nD) : U4 m c main_arg1 = m ((c : Thread nD τ).loc main_arg1) :=
  (StableHlo.after_of_writes_sub hostOps2 (W3 m c) hostOps2_writes (by decide)).trans <| (W3_of_ne m c main_arg1 (by decide)).trans <|
  (StableHlo.after_of_writes_sub hostOps1 (W1 m c) hostOps1_writes (by decide)).trans <| (W1_of_ne m c main_arg1 (by decide)).trans rfl

/-- The first column's total, computed by the first stretch, is still there when the last stretch reads it. -/
theorem W5_main_v1 (c : Dev nD) : W5 m c main_v1 = colSum (out0 m c) := by
  refine (W5_of_ne m c main_v1 (by decide)).trans <| (StableHlo.after_of_writes_sub hostOps2 (W3 m c) hostOps2_writes (by decide)).trans <|
    (W3_of_ne m c main_v1 (by decide)).trans ?_
  rw [← W1_out m c]
  show StableHlo.after hostOps1 (W1 m c) (Proc.devRef .tc main_v1) = colSum (W1 m c (Proc.devRef .tc main_v0))
  generalize W1 m c = Wv
  after_results
  rfl
/-- The second column's total likewise. -/
theorem W5_main_v3 (c : Dev nD) : W5 m c main_v3 = colSum (out1 m c) := by
  refine (W5_of_ne m c main_v3 (by decide)).trans ?_
  rw [← W3_out m c]
  show StableHlo.after hostOps2 (W3 m c) (Proc.devRef .tc main_v3) = colSum (W3 m c (Proc.devRef .tc main_v2))
  generalize W3 m c = Wv
  after_results
  rfl

set_option maxHeartbeats 1000000 in
/-- The result at the return. -/
theorem W6_result (c : Dev nD) : W6 m c main_v11 = tail (out0 m c) (out1 m c) (out2 m c) := by
  have e1 := W5_main_v1 m c
  have e3 := W5_main_v3 m c
  have e4 := W5_out m c
  show StableHlo.after hostOps3 (W5 m c) (Proc.devRef .tc main_v11) = _
  generalize W5 m c = Wv at e1 e3 e4 ⊢
  after_results
  unfold tail combine
  rw [← e1, ← e3, ← e4]
  rfl

/-- THE RUN, read at the result and the arguments. -/
theorem run_result (ρ : Dev nD → PrngReg) : θ_run defs (onTc (τ := τ) (main (F := F))) ⟨m, fun _ => 0, ρ⟩ (fun r => ∀ c : Dev nD,
      r.2.mem ((c.tc : Thread nD τ).loc main_v11) = tail (out0 m c) (out1 m c) (out2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v11 (by decide))).trans (W6_result m c),
     (h c _ (mem_uc main_arg0 (by decide))).trans (W6_main_arg0 m c),
     (h c _ (mem_uc main_arg1 (by decide))).trans (W6_main_arg1 m c)⟩) (run m ρ)

end Cert.KernelIdeal.Whole

end
-- ==== Proof.Spec.lean ====
/-
  The function both programs compute, stated once over the two argument arrays as extended reals.

  For arrays x, y of 8192 rows and 256 columns and γ = 1/256:
    sq x r        = Σ_d x(r,d)²                         (a row's squared norm)
    cross x y r q = Σ_d x(r,d) · (y(q,d) · 2γ)          (the scaled inner product of row r of x and row q of y)
    entry x y r q = exp (min (sq x r · (−γ) + sq y q · (−γ) + cross x y r q) 0)
  which for real entries is exp (−γ · max (‖x_r − y_q‖², 0)), the Gaussian kernel of the two rows.
    rowSum x y r  = Σ_q entry x y r q,      total x y = Σ_r rowSum x y r,
    result x y    = total x x / N² + total y y / N² − (2 · total x y) / N²,      N² = 8192² = 2^26.
  The float literals are kept as the words the programs print: −γ = 0xBB800000, 2γ = 0x3C000000, 2 = 0x40000000,
  N² = 0x4C800000.
-/
import Idealize.ShloMosaic.PureOps.Ideal
import Idealize.ShloMosaic.Lib.ValueIdx

noncomputable section

open scoped BigOperators

namespace Cert.Rbf

open Idealize.ShloMosaic Idealize.ShloMosaic.ValueIdx

/-- An 8192 × 256 array of extended reals. -/
abbrev Arr : Type := (⟨2, ![8192, 256]⟩ : Shape).Idx → EReal

/-- The word of −γ = −1/256. -/
def negG : EReal := Ideal.ofBits .f32 0xBB800000#32
/-- The word of 2γ = 1/128. -/
def twoG : EReal := Ideal.ofBits .f32 0x3C000000#32
/-- The word of 2. -/
def two : EReal := Ideal.ofBits .f32 0x40000000#32
/-- The word of 8192² = 2^26. -/
def nSq : EReal := Ideal.ofBits .f32 0x4C800000#32

/-- A row's squared norm. -/
def sq (x : Arr) (r : Fin 8192) : EReal := ∑ d : Fin 256, x (ix2 r d) * x (ix2 r d)

/-- The inner product of row r of x with row q of y, the second factor scaled by 2γ. -/
def cross (x y : Arr) (r q : Fin 8192) : EReal := ∑ d : Fin 256, x (ix2 r d) * (y (ix2 q d) * twoG)

/-- One entry of the kernel matrix. -/
def entry (x y : Arr) (r q : Fin 8192) : EReal :=
  Ideal.exp (min (sq x r * negG + sq y q * negG + cross x y r q) 0)

/-- The sum of a row of the kernel matrix. -/
def rowSum (x y : Arr) (r : Fin 8192) : EReal := ∑ q : Fin 8192, entry x y r q

/-- The sum of the whole kernel matrix. -/
def total (x y : Arr) : EReal := ∑ r : Fin 8192, rowSum x y r

/-- The squared maximum mean discrepancy of the two samples. -/
def result (x y : Arr) : EReal :=
  (Ideal.div (total x x) nSq + Ideal.div (total y y) nSq) - Ideal.div (two * total x y) nSq

end Cert.Rbf

end
-- ==== Proof.KITailValue.lean ====
/-
  The host operations after the three calls, read at the ideal instance: each column's total is the sum of its 8192
  entries (the host's sum over both axes of an 8192 × 1 column from the initial value zero; the inner sum over the one
  column has one term), and the combination of the three totals is the specification's result, term for term.  No
  finiteness is needed: nothing is re-associated.
-/
import proofs.«139631_j39135742001578_2_alg».proof.Proof.KITail
import proofs.«139631_j39135742001578_2_alg».proof.Proof.Spec
import Idealize.ShloMosaic.PureOps.Ideal.Laws
import Idealize.ShloMosaic.Lib.ValueIdx

noncomputable section

open scoped BigOperators

namespace Cert.Rbf.TailV

open Idealize.ShloMosaic Idealize.ShloMosaic.ValueIdx Cert.KernelIdeal Cert.KernelIdeal.Gen Cert.KernelIdeal.Whole

/-- A column's total is the sum of its entries over the rows. -/
theorem colSum_apply (o : FVec Ideal S8192x1 .f32) (i : S_.Idx) :
    colSum (F := Ideal) o i = ∑ r : Fin 8192, o (ix2 r (0 : Fin 1)) := by
  unfold colSum
  simp only [Host.reduceAdd, Ideal.hostReduceAdd_def]
  rw [Ideal.hostReduceAdd_total reducesTo_S8192x1_S_d0_1 (fun b => b.elim0) o _ i, sum_idx2]
  simp only [constant_apply, Ideal.ofBits_zero_f32, zero_add, Fin.sum_univ_one]

/-- From columns holding the specification's row sums the program's tail computes the specification's result. -/
theorem tail_eq (x y : Cert.Rbf.Arr) (o0 o1 o2 : FVec Ideal Cert.KernelIdeal.S8192x1 .f32)
    (h0 : ∀ r : Fin 8192, o0 (ix2 r (0 : Fin 1)) = Cert.Rbf.rowSum x x r)
    (h1 : ∀ r : Fin 8192, o1 (ix2 r (0 : Fin 1)) = Cert.Rbf.rowSum y y r)
    (h2 : ∀ r : Fin 8192, o2 (ix2 r (0 : Fin 1)) = Cert.Rbf.rowSum x y r) :
    Cert.KernelIdeal.Whole.tail (F := Ideal) o0 o1 o2 = fun _ => Cert.Rbf.result x y := by
  funext i
  show Ideal.div (colSum (F := Ideal) o0 i) (Ideal.ofBits .f32 0x4C800000#32)
      + Ideal.div (colSum (F := Ideal) o1 i) (Ideal.ofBits .f32 0x4C800000#32)
      - Ideal.div (Ideal.ofBits .f32 0x40000000#32 * colSum (F := Ideal) o2 i) (Ideal.ofBits .f32 0x4C800000#32)
    = Cert.Rbf.result x y
  rw [colSum_apply, colSum_apply, colSum_apply]
  simp only [h0, h1, h2]
  rfl

end Cert.Rbf.TailV

end
-- ==== Proof.KI0.Cover.lean ====
/-
  The output column after the call, read at a row.
  The output's blocks of 1024 rows are written back at the last point of each row of the 8 × 8 grid, point 8·i + 7
  writing block i; the 8 blocks tile the 8192 rows.  So after the call row r of the output holds row r mod 1024 of
  what the point 8·(r div 1024) + 7 left in the output's buffer.
-/
import proofs.«139631_j39135742001578_2_alg».proof.Proof.KI0.Points
import Idealize.ShloMosaic.Lib.Pipeline.Value
import Idealize.ShloMosaic.Lib.ValueIdx

noncomputable section

namespace Cert.KernelIdeal.Reg0

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable {F : FTy → Type} [FloatOps F]
variable (V : (c : Dev nD) → (b : Ref sig .tc) → Buf (Elt F) ((c : Thread nD τ).loc b)) (qs : Fin 3 → PosShare TreeShare)

/-- The output's block index at every point of the grid: it moves with the grid's first coordinate only. -/
theorem idx_out : ∀ t : Fin cfg0.N, win0_2.index t (0 : Fin 2) = t.val / 8 ∧ win0_2.index t (1 : Fin 2) = 0 :=
  (by decide +kernel : ∀ t : Fin grid0.N, _)

/-- The grid has 64 points. -/
theorem points_eq : cfg0.N = 64 := N_0

/-- What a position left does not depend on how the position is written. -/
theorem holdsAt_congr (c : Dev nD) {n n' : ℕ} (h : n = n') (hn : n < cfg0.N) (hn' : n' < cfg0.N) :
    holdsAt V c n hn = holdsAt V c n' hn' := by
  subst h; rfl

/-- The last point of the row of the grid that writes row r's block. -/
theorem lastPoint_lt (r : ℕ) (hr : r < 8192) : r / 1024 * 8 + 7 < cfg0.N := by
  have := points_eq; omega

/-- The column the output ends holding: row r is row r mod 1024 of what the point 8·(r div 1024) + 7 left in the
    output's buffer. -/
def outG (c : Dev nD) : S8192x1.Idx → Elt F .f32 := fun i =>
  (holdsAt V c ((i 0).val / 1024 * 8 + 7) (lastPoint_lt _ (i 0).isLt)).2
    (ix2 (⟨(i 0).val % 1024, Nat.mod_lt _ (by decide)⟩ : Fin 1024) (0 : Fin 1))

/-- What a flushing point writes back is its block of that column. -/
theorem flushed_eq (c : Dev nD) (t : Fin cfg0.N) (hf : (cfg0.win 2).flush t = true) :
    (dat V qs c).flushed 2 t = ((cfg0.win 2).blk t).view.read (Elt F) (outG V c) := by
  have h7 : t.val % 8 = 7 := (flush0_2 t).mp hf
  obtain ⟨e0, e1⟩ := idx_out t
  show (cfg0.win 2).cut (grid0.coords t) ((dat V qs c).after 2 t) = _
  rw [after_2]
  funext y
  rw [View.read_apply]
  have hy0 : (y 0).val < 1024 := (y 0).isLt
  have hy1 : (y 1).val < 1 := (y 1).isLt
  have hE0 : ((((cfg0.win 2).blk t).view.emb y) 0).val = win0_2.index t (0 : Fin 2) * 1024 + 1 * (y 0).val := rfl
  show (holdsAt V c t.val t.isLt).2 ((cfg0.win 2).xinj (grid0.coords t) y) = outG V c (((cfg0.win 2).blk t).view.emb y)
  unfold outG
  rw [holdsAt_congr V c (show ((((cfg0.win 2).blk t).view.emb y) 0).val / 1024 * 8 + 7 = t.val by rw [hE0, e0]; omega)
    (lastPoint_lt _ ((((cfg0.win 2).blk t).view.emb y) 0).isLt) t.isLt]
  refine congrArg (holdsAt V c t.val t.isLt).2 (funext fun a => Fin.ext ?_)
  match a with
  | ⟨0, _⟩ =>
    show (y 0).val = ((((cfg0.win 2).blk t).view.emb y) 0).val % 1024
    rw [hE0, e0]; omega
  | ⟨1, _⟩ =>
    show (y 1).val = 0
    omega

/-- A row of the output is in a point's block iff each coordinate is in the block's range on its axis. -/
theorem mem_blk (t : Fin cfg0.N) (i : S8192x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row of the output is in the block some flushing point writes back: row r in that of point 8·(r div 1024) + 7. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨e0, e1⟩ := idx_out ⟨(i 0).val / 1024 * 8 + 7, lastPoint_lt _ hi0⟩
  have e0' : win0_2.index ⟨(i 0).val / 1024 * 8 + 7, lastPoint_lt _ hi0⟩ (0 : Fin 2) = ((i 0).val / 1024 * 8 + 7) / 8 := e0
  refine ⟨⟨(i 0).val / 1024 * 8 + 7, lastPoint_lt _ hi0⟩, (flush0_2 _).mpr (by show ((i 0).val / 1024 * 8 + 7) % 8 = 7; omega), ?_⟩
  rw [mem_blk]
  intro a
  match a with
  | ⟨0, _⟩ =>
    show win0_2.index ⟨(i 0).val / 1024 * 8 + 7, lastPoint_lt _ hi0⟩ (0 : Fin 2) * 1024 ≤ (i 0).val
      ∧ (i 0).val < win0_2.index ⟨(i 0).val / 1024 * 8 + 7, lastPoint_lt _ hi0⟩ (0 : Fin 2) * 1024 + 1024
    rw [e0']; omega
  | ⟨1, _⟩ =>
    show win0_2.index ⟨(i 0).val / 1024 * 8 + 7, lastPoint_lt _ hi0⟩ (1 : Fin 2) * 1 ≤ (i 1).val
      ∧ (i 1).val < win0_2.index ⟨(i 0).val / 1024 * 8 + 7, lastPoint_lt _ hi0⟩ (1 : Fin 2) * 1 + 1
    rw [e1]; omega

/-- The output array after the call is that column. -/
theorem out_eq (c : Dev nD) : (dat V qs c).arrAt 2 cfg0.N = outG V c :=
  (dat V qs c).arrAt_eq_of_cover 2 (outG V c) (fun t hf => flushed_eq V qs c t hf) cover

/-- The output array after the call, read at row r: row r mod 1024 of what the last point of the row's tile left in
    the output's buffer. -/
theorem out_at (c : Dev nD) (r : Fin 8192) :
    (dat V qs c).arrAt 2 cfg0.N (ix2 r (0 : Fin 1))
      = (holdsAt V c (r.val / 1024 * 8 + 7) (lastPoint_lt _ r.isLt)).2
          (ix2 (⟨r.val % 1024, Nat.mod_lt _ (by decide)⟩ : Fin 1024) (0 : Fin 1)) := by
  rw [out_eq]
  rfl

end Cert.KernelIdeal.Reg0

end
-- ==== Proof.KI0.Blocks.lean ====
/-
  The blocks of the two inputs at a point of the 8 × 8 grid, read off the arrays entry by entry.
  At point t = 8·i + j the first input's block is rows [1024 i, 1024 i + 1024) of its array and the second input's block
  is rows [1024 j, 1024 j + 1024) of its array: entry (p, d) of a block is entry (1024 · (block index) + p, d) of the
  array, the block index being t div 8 for the first input and t mod 8 for the second.
  Both inputs of this call are blocks of the same array.
-/
import proofs.«139631_j39135742001578_2_alg».proof.Proof.KI0.Setup
import Idealize.ShloMosaic.Lib.Pipeline.Value
import Idealize.ShloMosaic.Lib.ValueIdx

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-- The block indices of the two inputs at every point of the grid: the first input's block moves with the grid's
    first coordinate, the second input's with its second; neither moves along the columns. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- A point's number is below 64. -/
theorem point_lt (t : Fin cfg0.N) : t.val < 64 := Nat.lt_of_lt_of_eq t.isLt N_0

/-- Entry (p, d) of the first input's block at point t is entry (1024 · (t div 8) + p, d) of its array. -/
theorem iblk0_apply (c : Dev nD) (t : Fin cfg0.N) (p : Fin 1024) (d : Fin 256) :
    iblk V c 0 t (ix2 p d)
      = V c main_arg0 (ix2 (⟨(t.val / 8) * 1024 + p.val, by have := point_lt t; have := p.isLt; omega⟩ : Fin 8192) d) := by
  obtain ⟨e0, e1, -, -⟩ := idx_facts t
  unfold iblk
  rw [View.read_apply]
  show V c main_arg0 _ = _
  refine congrArg (V c main_arg0) (funext fun a => Fin.ext ?_)
  match a with
  | ⟨0, _⟩ =>
    show win0_0.index t (0 : Fin 2) * 1024 + 1 * p.val = t.val / 8 * 1024 + p.val
    rw [e0]; omega
  | ⟨1, _⟩ =>
    show win0_0.index t (1 : Fin 2) * 256 + 1 * d.val = d.val
    rw [e1]; omega

/-- Entry (p, d) of the second input's block at point t is entry (1024 · (t mod 8) + p, d) of its array. -/
theorem iblk1_apply (c : Dev nD) (t : Fin cfg0.N) (p : Fin 1024) (d : Fin 256) :
    iblk V c 1 t (ix2 p d)
      = V c main_arg0 (ix2 (⟨(t.val % 8) * 1024 + p.val, by have := p.isLt; omega⟩ : Fin 8192) d) := by
  obtain ⟨-, -, e0, e1⟩ := idx_facts t
  unfold iblk
  rw [View.read_apply]
  show V c main_arg0 _ = _
  refine congrArg (V c main_arg0) (funext fun a => Fin.ext ?_)
  match a with
  | ⟨0, _⟩ =>
    show win0_1.index t (0 : Fin 2) * 1024 + 1 * p.val = t.val % 8 * 1024 + p.val
    rw [e0]; omega
  | ⟨1, _⟩ =>
    show win0_1.index t (1 : Fin 2) * 256 + 1 * d.val = d.val
    rw [e1]; omega

end Cert.KernelIdeal.Reg0

end
-- ==== Proof.KI0.Pieces.lean ====
/-
  What the stores of each control case leave, as values.  Every load and store of the body goes through the whole
  buffer (a rectangle at offset (0, 0) of the buffer's own size), so a buffer's contents after the case are the payload
  of its last store, and a load after a store reads that store's payload:
    first point of a row:  the accumulator is reset to the zero column and then holds the zero column plus the tile's row sums;
    inner point:           the accumulator s becomes s plus the tile's row sums;
    last point of a row:   the same, and the output block is a copy of the accumulator.
-/
import proofs.«139631_j39135742001578_2_alg».proof.Proof.KI0.Points
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL.Sem

variable {F : FTy → Type} [FloatOps F]

/-- The offsets of every load and store are zero. -/
theorem offsets_zero : (![0, 0] : Fin 2 → Nat) = fun _ => 0 := funext fun a => by fin_cases a <;> rfl

/-- After a row's first point the accumulator holds the zero column plus the tile's row sums. -/
theorem accFirst_eq (c : Dev nD) (t : Fin cfg0.N) (h0 : isFirst (grid0.coords t)) (h1 : ¬isLast (grid0.coords t))
    (x0 y0 : Vec F S1024x256 .f32) : accFirst c t h0 h1 x0 y0 = k0_pay2 x0 y0 (k0_pay1 (F := F)) := by
  unfold accFirst
  rw [View.read_writes_eq_canon _ _ _ (coverFirst c t h0 h1 x0 y0)]
  unfold runFirst
  dsimp only
  sl_unfold_words
  rw [View.canon_cons_unit_zero (S := S1024x1) offsets_zero, View.readCov_unit_zero (S := S1024x1) _ offsets_zero]
  simp only [View.readAt_eq_ld, (hX t).read_unread, (hY t).read_unread, View.ld_unit_zero (S := S1024x256) offsets_zero]

/-- After an inner point the accumulator holds what it held plus the tile's row sums. -/
theorem accMid_eq (c : Dev nD) (t : Fin cfg0.N) (h0 : ¬isFirst (grid0.coords t)) (h1 : ¬isLast (grid0.coords t))
    (x0 y0 : Vec F S1024x256 .f32) (s : Vec F S1024x1 .f32) : accMid c t h0 h1 x0 y0 s = k0_pay2 x0 y0 s := by
  unfold accMid
  rw [View.read_writes_eq_canon _ _ _ (coverMid c t h0 h1 x0 y0 s)]
  unfold runMid
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the accumulator holds what it held plus the tile's row sums. -/
theorem accLast_eq (c : Dev nD) (t : Fin cfg0.N) (h0 : ¬isFirst (grid0.coords t)) (h1 : isLast (grid0.coords t))
    (x0 y0 : Vec F S1024x256 .f32) (s : Vec F S1024x1 .f32) : accLast c t h0 h1 x0 y0 s = k0_pay2 x0 y0 s := by
  unfold accLast
  rw [View.read_writes_eq_canon _ _ _ (coverLast c t h0 h1 x0 y0 s)]
  unfold runLast
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the output block holds the same column: a copy of the accumulator. -/
theorem outLast_eq (c : Dev nD) (t : Fin cfg0.N) (h0 : ¬isFirst (grid0.coords t)) (h1 : isLast (grid0.coords t))
    (x0 y0 : Vec F S1024x256 .f32) (s : Vec F S1024x1 .f32) : outLast c t h0 h1 x0 y0 s = k0_pay2 x0 y0 s := by
  unfold outLast
  rw [View.read_writes_eq_canon _ _ _ (coverOut c t h0 h1 x0 y0 s)]
  unfold runLast
  dsimp only
  sl_unfold_words
  rw [View.canon_unit_zero (S := S1024x1) offsets_zero, View.readCov_unit_zero (S := S1024x1) _ offsets_zero]
  simp only [View.readAt_eq_ld, (hX t).read_unread, (hY t).read_unread, (Memref.isWhole_whole _).read_unread,
    View.ld_unit_zero (S := S1024x256) offsets_zero, View.ld_unit_zero (S := S1024x1) offsets_zero]

end Cert.KernelIdeal.Reg0

end
-- ==== Proof.LibKeepdimsCol.lean ====
/-
  Two layout operations read at an index, for a column kept by a row reduction: a vector of length a cast to an
  [a, 1] column reads the vector's entry, and an [a, 1] column broadcast to [a, b] reads the row's one entry.
-/
import Idealize.ShloMosaic.Lib.Pipeline.Value
import Idealize.ShloMosaic.Lib.ValueIdx

noncomputable section

namespace Cert.LibKeepdimsCol

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdimsCol

end
-- ==== Proof.LibRowReduce.lean ====
/-
  A row of an n×d array reduced along its d entries, read at the row, at the ideal values.

  * The sum over the second axis of an n×d array, read at row p, is the sum over c of the entries (p, c).
  * The maximum over the second axis, folded from the -inf literal, read at row p, is the fold of max from that literal
    over c of the entries (p, c).
  Both are the library's reading of a one-axis reduction with the index that has the reduced coordinate inserted written
  out by its two coordinates; the accumulator's hypothesis is typed as the printed programs type it.
-/
import Idealize.ShloMosaic.Lib.ValueIdx
import Idealize.ShloMosaic.PureOps.Ideal.Laws

namespace Cert.LibRowReduce

open Idealize.ShloMosaic Idealize.ShloMosaic.ValueIdx

/-- The sum over the second axis of an n×d array, read at row p. -/
theorem sum_axis1_apply {n d : ℕ} (x : FVec Ideal ⟨2, ![n, d]⟩ .f32) (h : (⟨2, ![n, d]⟩ : Shape).Reduces [1] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ c : Fin d, x (ix2 p c) := by
  refine (Ideal.multiReduction_add_single x _ h hφ hacc (ix1 p)).trans ?_
  refine Finset.sum_congr rfl fun c _ => congrArg x ?_
  funext ax; apply Fin.ext
  match ax with
  | ⟨0, _⟩ => rfl
  | ⟨1, _⟩ => rfl

/-- The maximum over the second axis of an n×d array, folded from -inf, read at row p. -/
theorem max_axis1_apply {n d : ℕ} (z : FVec Ideal ⟨2, ![n, d]⟩ .f32) (h : (⟨2, ![n, d]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ z 0xFF800000#32 h hφ hacc (ix1 p)
      = (Finset.univ : Finset (Fin d)).fold max (Ideal.ofBits .f32 0xFF800000#32) fun c : Fin d => z (ix2 p c) := by
  refine (Ideal.multiReduction_maximumf_single z _ h hφ hacc (ix1 p)).trans ?_
  refine Finset.fold_congr fun c _ => congrArg z ?_
  funext ax; apply Fin.ext
  match ax with
  | ⟨0, _⟩ => rfl
  | ⟨1, _⟩ => rfl

end Cert.LibRowReduce
-- ==== Proof.Payload.lean ====
/-
  The kernel body's two stored values, read at a row.

  The body works on a block X of 1024 rows of the first array, a block Y of 1024 rows of the second (256 columns
  each) and a running column s of 1024 row sums.  Its first stored value is the zero column.  Its second is, at row p,
      s(p) + Σ_q exp (min (a(p) + b(q) + c(p,q)) 0)
  with a(p) = (Σ_d X(p,d)²)·(−γ) the scaled squared norm of row p of X, b(q) = (Σ_d Y(q,d)²)·(−γ) that of row q of Y,
  and c(p,q) = Σ_d X(p,d)·(Y(q,d)·2γ) the scaled inner product of the two rows: the sum over the 1024 rows q of the
  block Y of the Gaussian kernel of the two rows, added to what the column held.

  Each operation of the body is read at an index: the elementwise ones by definition; a sum along the columns as the
  sum over the column coordinate; a vector kept as a column, a column spread over the columns of a square, and a
  column laid out as a row and spread over the rows of a square, as the entry they copy; the product of the two
  blocks contracted along their columns as the sum over the column coordinate of the products of the entries.
-/
import proofs.«139631_j39135742001578_2_alg».proof.Proof.Spec
import proofs.«139631_j39135742001578_2_alg».proof.Proof.Gen.KernelIdeal.Skeleton
import proofs.«139631_j39135742001578_2_alg».proof.Proof.LibKeepdimsCol
import proofs.«139631_j39135742001578_2_alg».proof.Proof.LibRowReduce
import Idealize.ShloMosaic.Lib.ValueLayout
import Idealize.ShloMosaic.PureOps.Ideal.Laws

noncomputable section

open scoped BigOperators

namespace Cert.Rbf.Pay

open Idealize.ShloMosaic Idealize.ShloMosaic.ValueIdx Cert.KernelIdeal Cert.KernelIdeal.Gen Cert.Rbf

/-! ## The pieces of the body, each read at an index -/

/-- The exponential of a vector at an index is the exponential of the element. -/
theorem exp_apply {s : Shape} {φ : FTy} (a : FVec Ideal s φ) (i : s.Idx) : exp a i = Ideal.exp (a i) := rfl

/-- The squared norms of the rows of a block, summed along the columns, kept as a column and scaled by `c`, read at
    row `p`: the sum over the columns of the squares of row `p`, times `c`. -/
theorem normCol_apply (X : FVec Ideal S1024x256 .f32) (c : EReal) (hr : S1024x256.Reduces [1] S1024)
    (hφ : FKind.Formats .f32) (hacc : (0x00000000#32 : BitVec 32) = FKind.add.neutral .f32 hφ)
    (hc : S1024.ShapeCasts S1024x1) (p : Fin 1024) :
    mulf (shapeCast S1024x1 (multiReduction (F := Ideal) .add [1] S1024 (mulf X X) 0x00000000#32 hr hφ hacc) hc)
        (broadcast S1024x1 c) (ix2 p (0 : Fin 1))
      = (∑ d : Fin 256, X (ix2 p d) * X (ix2 p d)) * c := by
  rw [mulf_apply, broadcast_apply]
  refine congrArg (· * c) ?_
  refine (Cert.LibKeepdimsCol.shapeCast_a_a1_apply _ hc p 0).trans ?_
  exact Cert.LibRowReduce.sum_axis1_apply (mulf X X) hr hφ hacc p

/-- A column laid out as a row and spread over the rows of a square reads, at `(p, q)`, the column's entry `q`. -/
theorem rowSpread_apply (v : FVec Ideal S1024x1 .f32) (ht : S1024x1.Transposes [1, 0] S1x1024)
    (hb : S1x1024.Broadcasts S1024x1024) (p q : Fin 1024) :
    broadcastTo S1024x1024 (transpose S1x1024 [1, 0] v ht) hb (ix2 p q) = v (ix2 q (0 : Fin 1)) :=
  (broadcastTo_1b_ab_apply _ hb p q).trans (transpose_ix2_apply v ht (0 : Fin 1) q)

/-- A column spread over the columns of a square reads, at `(p, q)`, the column's entry `p`. -/
theorem colSpread_apply (v : FVec Ideal S1024x1 .f32) (hb : S1024x1.Broadcasts S1024x1024) (p q : Fin 1024) :
    broadcastTo S1024x1024 v hb (ix2 p q) = v (ix2 p (0 : Fin 1)) :=
  Cert.LibKeepdimsCol.broadcastTo_a1_ab_apply v hb p q

/-- The first operand of the product is read, on its row axis, at the output's row … -/
theorem lhs_row (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- … and the second operand, on its row axis, at the output's column. -/
theorem rhs_row (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The product of two blocks contracted along their columns, into the zero square, reads, at `(p, q)`, the sum over
    the columns of the products of row `p` of the first and row `q` of the second. -/
theorem dot_apply {φ₁ φ₂ : FTy} (A : FVec Ideal S1024x256 φ₁) (B : FVec Ideal S1024x256 φ₂) (p q : Fin 1024) :
    matmul dot_S1024x256_S1024x256_S1024x1024_1_1_0_0_n_n none A B (constant S1024x1024 .f32 0x00000000#32) (ix2 p q)
      = ∑ d : Fin 256, A (ix2 p d) * B (ix2 q d) := by
  show FloatOps.matmul dot_S1024x256_S1024x256_S1024x1024_1_1_0_0_n_n none A B (constant S1024x1024 .f32 0x00000000#32) (ix2 p q) = _
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun a => Fin.ext (by
      match a with
      | ⟨0, _⟩ => exact lhs_row _ _
      | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun a => Fin.ext (by
      match a with
      | ⟨0, _⟩ => exact rhs_row _ _
      | ⟨1, _⟩ => exact (dot_S1024x256_S1024x256_S1024x1024_1_1_0_0_n_n.rhsIdx_val_of_single rfl _ _).trans hk)
  rw [el, er]

/-! ## The two stored values -/

/-- The first stored value is the zero column. -/
theorem pay1_apply (p : Fin 1024) : k0_pay1 (F := Ideal) (ix2 p (0 : Fin 1)) = 0 := by
  unfold k0_pay1
  simp only [shapeCast_self]
  exact Ideal.ofBits_zero_f32

/-- The second stored value at row `p`: what the column held plus the sum over the rows `q` of the second block of the
    kernel of row `p` of the first block and row `q` of the second. -/
theorem pay2_apply (X Y : Vec Ideal S1024x256 .f32) (s : Vec Ideal S1024x1 .f32) (p : Fin 1024) :
    k0_pay2 (F := Ideal) X Y s (ix2 p (0 : Fin 1))
      = s (ix2 p (0 : Fin 1)) + ∑ q : Fin 1024, Ideal.exp (min
          ((∑ d : Fin 256, X (ix2 p d) * X (ix2 p d)) * negG + (∑ d : Fin 256, Y (ix2 q d) * Y (ix2 q d)) * negG
            + ∑ d : Fin 256, X (ix2 p d) * (Y (ix2 q d) * twoG)) 0) := by
  unfold k0_pay2 negG twoG
  simp only [shapeCast_self]
  rw [addf_apply]
  refine congrArg (s (ix2 p (0 : Fin 1)) + ·) ?_
  refine (Cert.LibKeepdimsCol.shapeCast_a_a1_apply _ _ p 0).trans ?_
  refine (Cert.LibRowReduce.sum_axis1_apply _ _ _ _ p).trans ?_
  refine Finset.sum_congr rfl fun q _ => ?_
  rw [exp_apply, minimumf_apply, addf_apply, addf_apply, broadcast_apply]
  refine congrArg Ideal.exp (congrArg₂ min (congrArg₂ (· + ·) (congrArg₂ (· + ·) ?_ ?_) ?_) Ideal.ofBits_zero_f32)
  · exact (colSpread_apply _ _ p q).trans (normCol_apply X _ _ _ _ _ p)
  · exact (rowSpread_apply _ _ _ p q).trans (normCol_apply Y _ _ _ _ _ q)
  · exact dot_apply _ _ p q

/-! ## The second and third launches run the same body -/

/-- The second launch's first stored value is the first launch's, as a term. -/
theorem k1_pay1_eq : @k1_pay1 = @k0_pay1 := rfl
/-- The second launch's second stored value is the first launch's, as a term. -/
theorem k1_pay2_eq : @k1_pay2 = @k0_pay2 := rfl
/-- The third launch's first stored value is the first launch's, as a term. -/
theorem k2_pay1_eq : @k2_pay1 = @k0_pay1 := rfl
/-- The third launch's second stored value is the first launch's, as a term. -/
theorem k2_pay2_eq : @k2_pay2 = @k0_pay2 := rfl

/-- The second launch's first stored value is the zero column. -/
theorem k1_pay1_apply (p : Fin 1024) : k1_pay1 (F := Ideal) (ix2 p (0 : Fin 1)) = 0 := by
  rw [k1_pay1_eq]
  exact pay1_apply p

/-- The second launch's second stored value at row `p`. -/
theorem k1_pay2_apply (X Y : Vec Ideal S1024x256 .f32) (s : Vec Ideal S1024x1 .f32) (p : Fin 1024) :
    k1_pay2 (F := Ideal) X Y s (ix2 p (0 : Fin 1))
      = s (ix2 p (0 : Fin 1)) + ∑ q : Fin 1024, Ideal.exp (min
          ((∑ d : Fin 256, X (ix2 p d) * X (ix2 p d)) * negG + (∑ d : Fin 256, Y (ix2 q d) * Y (ix2 q d)) * negG
            + ∑ d : Fin 256, X (ix2 p d) * (Y (ix2 q d) * twoG)) 0) := by
  rw [k1_pay2_eq]
  exact pay2_apply X Y s p

/-- The third launch's first stored value is the zero column. -/
theorem k2_pay1_apply (p : Fin 1024) : k2_pay1 (F := Ideal) (ix2 p (0 : Fin 1)) = 0 := by
  rw [k2_pay1_eq]
  exact pay1_apply p

/-- The third launch's second stored value at row `p`. -/
theorem k2_pay2_apply (X Y : Vec Ideal S1024x256 .f32) (s : Vec Ideal S1024x1 .f32) (p : Fin 1024) :
    k2_pay2 (F := Ideal) X Y s (ix2 p (0 : Fin 1))
      = s (ix2 p (0 : Fin 1)) + ∑ q : Fin 1024, Ideal.exp (min
          ((∑ d : Fin 256, X (ix2 p d) * X (ix2 p d)) * negG + (∑ d : Fin 256, Y (ix2 q d) * Y (ix2 q d)) * negG
            + ∑ d : Fin 256, X (ix2 p d) * (Y (ix2 q d) * twoG)) 0) := by
  rw [k2_pay2_eq]
  exact pay2_apply X Y s p

end Cert.Rbf.Pay

end
-- ==== Proof.Tiles.lean ====
/-
  Two facts about sums of extended reals (an additive commutative monoid: no finiteness is needed).

  * A sum over 8192 indices is the sum over 8 tiles of the sum over the 1024 indices of each tile: index q is
    position q mod 1024 of tile q div 1024.
  * A running sum that starts as 0 + T 0 and adds T (j + 1) at step j + 1 is, after step j, the sum of T 0 … T j.
-/
import proofs.«139631_j39135742001578_2_alg».proof.Proof.Spec

noncomputable section

open scoped BigOperators

namespace Cert.Rbf.Tiles

/-! ## A sum over 8192 indices, tile by tile -/

/-- Index `j * 1024 + q'` of tile `j`, position `q'`: the pairs (tile, position) are the 8192 indices. -/
def tileEquiv : Fin 8 × Fin 1024 ≃ Fin 8192 where
  toFun x := ⟨x.1.val * 1024 + x.2.val, by have := x.1.isLt; have := x.2.isLt; omega⟩
  invFun q := (⟨q.val / 1024, by have := q.isLt; omega⟩, ⟨q.val % 1024, Nat.mod_lt _ (by decide)⟩)
  left_inv x := by
    rcases x with ⟨a, b⟩
    have hb := b.isLt
    refine Prod.ext (Fin.ext ?_) (Fin.ext ?_)
    · show (a.val * 1024 + b.val) / 1024 = a.val
      omega
    · show (a.val * 1024 + b.val) % 1024 = b.val
      omega
  right_inv q := Fin.ext (by
    show q.val / 1024 * 1024 + q.val % 1024 = q.val
    omega)

/-- A sum over the 8192 indices is the sum over the 8 tiles of the sums over each tile's 1024 positions. -/
theorem sum_tiles (f : Fin 8192 → EReal) :
    ∑ q : Fin 8192, f q
      = ∑ j : Fin 8, ∑ q' : Fin 1024, f ⟨j.val * 1024 + q'.val, by have := j.isLt; have := q'.isLt; omega⟩ := by
  rw [← Equiv.sum_comp tileEquiv f, Fintype.sum_prod_type]
  rfl

/-! ## A running sum -/

/-- The running sum of `T`: it starts as `0 + T 0` and adds `T (j + 1)` at step `j + 1`. -/
def run (T : ℕ → EReal) : ℕ → EReal
  | 0 => 0 + T 0
  | j + 1 => run T j + T (j + 1)

/-- After step `j` the running sum is the sum of `T 0 … T j`. -/
theorem run_eq (T : ℕ → EReal) (j : ℕ) : run T j = ∑ k ∈ Finset.range (j + 1), T k := by
  induction j with
  | zero =>
    show 0 + T 0 = _
    rw [zero_add, Finset.sum_range_one]
  | succ j ih =>
    show run T j + T (j + 1) = _
    rw [ih, Finset.sum_range_succ T (j + 1)]

/-- After step 7 it is the sum over the 8 tiles. -/
theorem run_seven (T : ℕ → EReal) : run T 7 = ∑ j : Fin 8, T j.val :=
  (run_eq T 7).trans (Finset.sum_range T)

end Cert.Rbf.Tiles

end
-- ==== Proof.KI0.Value.lean ====
/-
  The output column of the call is the column of row sums of the kernel matrix of its two arrays.

  With x and y the two arrays of 8192 rows the call reads, the kernel matrix has the entry
  entry x y r q = exp (min (‖x_r‖²·(−γ) + ‖y_q‖²·(−γ) + ⟨x_r, y_q·2γ⟩) 0).  The grid point 8·i + j adds, to the accumulator's
  row p, the sum over the 1024 columns of column tile j of the entries of row 1024·i + p; the accumulator starts each
  row of the grid from the zero column.  So after point 8·i + j its row p is the running sum over the column tiles
  0 … j, after point 8·i + 7 it is the whole row sum, and that is what the last point copies to the output's block i.
  Both arrays of this call are the same array.
-/
import proofs.«139631_j39135742001578_2_alg».proof.Proof.KI0.Cover
import proofs.«139631_j39135742001578_2_alg».proof.Proof.KI0.Blocks
import proofs.«139631_j39135742001578_2_alg».proof.Proof.KI0.Pieces
import proofs.«139631_j39135742001578_2_alg».proof.Proof.Payload
import proofs.«139631_j39135742001578_2_alg».proof.Proof.Tiles
import proofs.«139631_j39135742001578_2_alg».proof.Proof.Spec

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Rbf

variable (V : (c : Dev nD) → (b : Ref sig .tc) → Buf (Elt Ideal) ((c : Thread nD τ).loc b)) (qs : Fin 3 → PosShare TreeShare)

/-- The first array as the call finds it. -/
abbrev xArr (c : Dev nD) : Arr := fun i => V c main_arg0 i
/-- The second array as the call finds it. -/
abbrev yArr (c : Dev nD) : Arr := fun i => V c main_arg0 i

/-- Row `p` of tile `i` of 1024 rows (the tile's number taken mod 8, so that every number names a tile). -/
def tileRow (i : ℕ) (p : Fin 1024) : Fin 8192 := ⟨i % 8 * 1024 + p.val, by have := p.isLt; omega⟩

/-- The sum, over the 1024 columns of column tile `j`, of the entries of row `p` of row tile `i` of the kernel matrix. -/
def tileSum (x y : Arr) (i : ℕ) (p : Fin 1024) (j : ℕ) : EReal := ∑ q : Fin 1024, entry x y (tileRow i p) (tileRow j q)

/-! ## The blocks and the body at a point -/

/-- Entry (p, d) of the first input's block at point t, as an entry of the first array. -/
theorem xblk_apply (c : Dev nD) (t : Fin cfg0.N) (p : Fin 1024) (d : Fin 256) :
    iblk V c 0 t (ix2 p d) = xArr V c (ix2 (tileRow (t.val / 8) p) d) :=
  (iblk0_apply V c t p d).trans (congrArg (fun r : Fin 8192 => V c main_arg0 (ix2 r d)) (Fin.ext (by
    have := point_lt t
    show t.val / 8 * 1024 + p.val = t.val / 8 % 8 * 1024 + p.val
    omega)))

/-- Entry (q, d) of the second input's block at point t, as an entry of the second array. -/
theorem yblk_apply (c : Dev nD) (t : Fin cfg0.N) (q : Fin 1024) (d : Fin 256) :
    iblk V c 1 t (ix2 q d) = yArr V c (ix2 (tileRow (t.val % 8) q) d) :=
  (iblk1_apply V c t q d).trans (congrArg (fun r : Fin 8192 => V c main_arg0 (ix2 r d)) (Fin.ext (by
    show t.val % 8 * 1024 + q.val = t.val % 8 % 8 * 1024 + q.val
    omega)))

/-- The body's second stored value at point t, read at row p: what the column held plus the tile's sum of entries. -/
theorem tile_apply (c : Dev nD) (t : Fin cfg0.N) (s : Vec Ideal S1024x1 .f32) (p : Fin 1024) :
    k0_pay2 (F := Ideal) (iblk V c 0 t) (iblk V c 1 t) s (ix2 p (0 : Fin 1))
      = s (ix2 p (0 : Fin 1)) + tileSum (xArr V c) (yArr V c) (t.val / 8) p (t.val % 8) := by
  rw [Pay.pay2_apply]
  refine congrArg (s (ix2 p (0 : Fin 1)) + ·) (Finset.sum_congr rfl fun q _ => ?_)
  simp only [xblk_apply, yblk_apply]
  rfl

/-! ## The accumulator after each point -/

set_option maxHeartbeats 4000000 in
/-- After the first point of a row of the grid the accumulator holds the body's second stored value of the point's two
    blocks and the zero column. -/
theorem fst_first (c : Dev nD) (t : Fin cfg0.N) (h0 : t.val % 8 = 0) :
    (holdsAt V c t.val t.isLt).1 = k0_pay2 (F := Ideal) (iblk V c 0 t) (iblk V c 1 t) (k0_pay1 (F := Ideal)) := by
  rw [holdsAt_first V c t h0]
  dsimp only
  exact accFirst_eq (F := Ideal) c t _ _ _ _

set_option maxHeartbeats 4000000 in
/-- After an inner point it holds the body's second stored value of the point's two blocks and what the point before
    left. -/
theorem fst_mid (c : Dev nD) (t : Fin cfg0.N) (h0 : ¬t.val % 8 = 0) (h1 : ¬t.val % 8 = 7) :
    (holdsAt V c t.val t.isLt).1 = k0_pay2 (F := Ideal) (iblk V c 0 t) (iblk V c 1 t)
      (holdsAt V c (t.val - 1) (Nat.lt_of_le_of_lt (Nat.sub_le _ _) t.isLt)).1 := by
  rw [holdsAt_mid V c t h0 h1]
  dsimp only
  exact accMid_eq (F := Ideal) c t _ _ _ _ _

set_option maxHeartbeats 4000000 in
/-- After the last point of a row of the grid likewise, … -/
theorem fst_last (c : Dev nD) (t : Fin cfg0.N) (h0 : ¬t.val % 8 = 0) (h1 : t.val % 8 = 7) :
    (holdsAt V c t.val t.isLt).1 = k0_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact accLast_eq (F := Ideal) c t _ _ _ _ _

set_option maxHeartbeats 4000000 in
/-- … and the output's buffer is left holding the same column. -/
theorem snd_last (c : Dev nD) (t : Fin cfg0.N) (h0 : ¬t.val % 8 = 0) (h1 : t.val % 8 = 7) :
    (holdsAt V c t.val t.isLt).2 = k0_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact outLast_eq (F := Ideal) c t _ _ _ _ _

/-- After the first point of a row of the grid the accumulator's row p is the zero column's entry plus the tile's sum. -/
theorem acc_first (c : Dev nD) (t : Fin cfg0.N) (h0 : t.val % 8 = 0) (p : Fin 1024) :
    (holdsAt V c t.val t.isLt).1 (ix2 p (0 : Fin 1))
      = 0 + tileSum (xArr V c) (yArr V c) (t.val / 8) p (t.val % 8) := by
  rw [fst_first V c t h0, tile_apply, Pay.pay1_apply]

/-- After any other point it is what the point before left plus the tile's sum. -/
theorem acc_step (c : Dev nD) (t : Fin cfg0.N) (h0 : ¬t.val % 8 = 0) (p : Fin 1024) :
    (holdsAt V c t.val t.isLt).1 (ix2 p (0 : Fin 1))
      = (holdsAt V c (t.val - 1) (Nat.lt_of_le_of_lt (Nat.sub_le _ _) t.isLt)).1 (ix2 p (0 : Fin 1))
        + tileSum (xArr V c) (yArr V c) (t.val / 8) p (t.val % 8) := by
  by_cases h1 : t.val % 8 = 7
  · rw [fst_last V c t h0 h1, tile_apply]
  · rw [fst_mid V c t h0 h1, tile_apply]

/-- After position n the accumulator's row p is the running sum, over the column tiles up to n mod 8, of the tile sums
    of row p of row tile n div 8. -/
theorem acc_nat (c : Dev nD) : ∀ (n : ℕ) (hn : n < cfg0.N) (p : Fin 1024),
    (holdsAt V c n hn).1 (ix2 p (0 : Fin 1))
      = Tiles.run (tileSum (xArr V c) (yArr V c) (n / 8) p) (n % 8) := by
  intro n
  induction n with
  | zero =>
    intro hn p
    exact acc_first V c ⟨0, hn⟩ (Nat.zero_mod _) p
  | succ n ih =>
    intro hn p
    by_cases h0 : (n + 1) % 8 = 0
    · refine (acc_first V c ⟨n + 1, hn⟩ h0 p).trans ?_
      show 0 + tileSum (xArr V c) (yArr V c) ((n + 1) / 8) p ((n + 1) % 8)
        = Tiles.run (tileSum (xArr V c) (yArr V c) ((n + 1) / 8) p) ((n + 1) % 8)
      rw [h0]
      rfl
    · have hd : (n + 1) / 8 = n / 8 := by omega
      have hm : (n + 1) % 8 = n % 8 + 1 := by omega
      refine (acc_step V c ⟨n + 1, hn⟩ h0 p).trans ?_
      refine (congrArg (fun z => z + tileSum (xArr V c) (yArr V c) ((n + 1) / 8) p ((n + 1) % 8))
        (ih (Nat.lt_of_succ_lt hn) p)).trans ?_
      show Tiles.run (tileSum (xArr V c) (yArr V c) (n / 8) p) (n % 8)
          + tileSum (xArr V c) (yArr V c) ((n + 1) / 8) p ((n + 1) % 8)
        = Tiles.run (tileSum (xArr V c) (yArr V c) ((n + 1) / 8) p) ((n + 1) % 8)
      rw [hd, hm]
      rfl

/-- The same at a point of the grid. -/
theorem acc_at (c : Dev nD) (t : Fin cfg0.N) (p : Fin 1024) :
    (holdsAt V c t.val t.isLt).1 (ix2 p (0 : Fin 1))
      = Tiles.run (tileSum (xArr V c) (yArr V c) (t.val / 8) p) (t.val % 8) :=
  acc_nat V c t.val t.isLt p

/-- At a row's last point the output's buffer is left holding what the accumulator holds. -/
theorem out_eq_acc (c : Dev nD) (t : Fin cfg0.N) (h0 : ¬t.val % 8 = 0) (h1 : t.val % 8 = 7) :
    (holdsAt V c t.val t.isLt).2 = (holdsAt V c t.val t.isLt).1 :=
  (snd_last V c t h0 h1).trans (fst_last V c t h0 h1).symm

/-! ## The output column -/

/-- After the call, row r of the output column is the sum of row r of the kernel matrix. -/
theorem out_value (c : Dev nD) (r : Fin 8192) :
    (dat V qs c).arrAt 2 cfg0.N (ix2 r (0 : Fin 1)) = rowSum (xArr V c) (yArr V c) r := by
  have hr := r.isLt
  have h0 : ¬(r.val / 1024 * 8 + 7) % 8 = 0 := by omega
  have h1 : (r.val / 1024 * 8 + 7) % 8 = 7 := by omega
  refine (out_at V qs c r).trans ?_
  refine (congrFun (out_eq_acc V c ⟨r.val / 1024 * 8 + 7, lastPoint_lt _ r.isLt⟩ h0 h1) _).trans ?_
  refine (acc_nat V c (r.val / 1024 * 8 + 7) (lastPoint_lt _ r.isLt) _).trans ?_
  rw [h1, Tiles.run_seven]
  unfold rowSum tileSum
  rw [Tiles.sum_tiles]
  refine Finset.sum_congr rfl fun j _ => Finset.sum_congr rfl fun q _ => ?_
  have hj := j.isLt
  have hq := q.isLt
  have e1 : tileRow ((r.val / 1024 * 8 + 7) / 8) (⟨r.val % 1024, Nat.mod_lt _ (by decide)⟩ : Fin 1024) = r :=
    Fin.ext (by show (r.val / 1024 * 8 + 7) / 8 % 8 * 1024 + r.val % 1024 = r.val; omega)
  have e2 : tileRow j.val q = (⟨j.val * 1024 + q.val, by omega⟩ : Fin 8192) :=
    Fin.ext (by show j.val % 8 * 1024 + q.val = j.val * 1024 + q.val; omega)
  rw [e1, e2]

end Cert.KernelIdeal.Reg0

end
-- ==== Proof.KI1.Cover.lean ====
/-
  The output column after the call, read at a row.
  The output's blocks of 1024 rows are written back at the last point of each row of the 8 × 8 grid, point 8·i + 7
  writing block i; the 8 blocks tile the 8192 rows.  So after the call row r of the output holds row r mod 1024 of
  what the point 8·(r div 1024) + 7 left in the output's buffer.
-/
import proofs.«139631_j39135742001578_2_alg».proof.Proof.KI1.Points
import Idealize.ShloMosaic.Lib.Pipeline.Value
import Idealize.ShloMosaic.Lib.ValueIdx

noncomputable section

namespace Cert.KernelIdeal.Reg1

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable {F : FTy → Type} [FloatOps F]
variable (V : (c : Dev nD) → (b : Ref sig .tc) → Buf (Elt F) ((c : Thread nD τ).loc b)) (qs : Fin 3 → PosShare TreeShare)

/-- The output's block index at every point of the grid: it moves with the grid's first coordinate only. -/
theorem idx_out : ∀ t : Fin cfg1.N, win1_2.index t (0 : Fin 2) = t.val / 8 ∧ win1_2.index t (1 : Fin 2) = 0 :=
  (by decide +kernel : ∀ t : Fin grid1.N, _)

/-- The grid has 64 points. -/
theorem points_eq : cfg1.N = 64 := N_1

/-- What a position left does not depend on how the position is written. -/
theorem holdsAt_congr (c : Dev nD) {n n' : ℕ} (h : n = n') (hn : n < cfg1.N) (hn' : n' < cfg1.N) :
    holdsAt V c n hn = holdsAt V c n' hn' := by
  subst h; rfl

/-- The last point of the row of the grid that writes row r's block. -/
theorem lastPoint_lt (r : ℕ) (hr : r < 8192) : r / 1024 * 8 + 7 < cfg1.N := by
  have := points_eq; omega

/-- The column the output ends holding: row r is row r mod 1024 of what the point 8·(r div 1024) + 7 left in the
    output's buffer. -/
def outG (c : Dev nD) : S8192x1.Idx → Elt F .f32 := fun i =>
  (holdsAt V c ((i 0).val / 1024 * 8 + 7) (lastPoint_lt _ (i 0).isLt)).2
    (ix2 (⟨(i 0).val % 1024, Nat.mod_lt _ (by decide)⟩ : Fin 1024) (0 : Fin 1))

/-- What a flushing point writes back is its block of that column. -/
theorem flushed_eq (c : Dev nD) (t : Fin cfg1.N) (hf : (cfg1.win 2).flush t = true) :
    (dat V qs c).flushed 2 t = ((cfg1.win 2).blk t).view.read (Elt F) (outG V c) := by
  have h7 : t.val % 8 = 7 := (flush1_2 t).mp hf
  obtain ⟨e0, e1⟩ := idx_out t
  show (cfg1.win 2).cut (grid1.coords t) ((dat V qs c).after 2 t) = _
  rw [after_2]
  funext y
  rw [View.read_apply]
  have hy0 : (y 0).val < 1024 := (y 0).isLt
  have hy1 : (y 1).val < 1 := (y 1).isLt
  have hE0 : ((((cfg1.win 2).blk t).view.emb y) 0).val = win1_2.index t (0 : Fin 2) * 1024 + 1 * (y 0).val := rfl
  show (holdsAt V c t.val t.isLt).2 ((cfg1.win 2).xinj (grid1.coords t) y) = outG V c (((cfg1.win 2).blk t).view.emb y)
  unfold outG
  rw [holdsAt_congr V c (show ((((cfg1.win 2).blk t).view.emb y) 0).val / 1024 * 8 + 7 = t.val by rw [hE0, e0]; omega)
    (lastPoint_lt _ ((((cfg1.win 2).blk t).view.emb y) 0).isLt) t.isLt]
  refine congrArg (holdsAt V c t.val t.isLt).2 (funext fun a => Fin.ext ?_)
  match a with
  | ⟨0, _⟩ =>
    show (y 0).val = ((((cfg1.win 2).blk t).view.emb y) 0).val % 1024
    rw [hE0, e0]; omega
  | ⟨1, _⟩ =>
    show (y 1).val = 0
    omega

/-- A row of the output is in a point's block iff each coordinate is in the block's range on its axis. -/
theorem mem_blk (t : Fin cfg1.N) (i : S8192x1.Idx) :
    i ∈ ((cfg1.win 2).blk t).view.set
      ↔ ∀ a : Fin 2, win1_2.index t a * S1024x1.size a ≤ (i a).val ∧ (i a).val < win1_2.index t a * S1024x1.size a + S1024x1.size a := by
  show i ∈ ((View.whole main_v2).slice (win1_2.rect t)).set ↔ _
  rw [View.set_slice_whole, Rect.mem_set_unit]
  exact Iff.rfl

/-- Every row of the output is in the block some flushing point writes back: row r in that of point 8·(r div 1024) + 7. -/
theorem cover (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  obtain ⟨e0, e1⟩ := idx_out ⟨(i 0).val / 1024 * 8 + 7, lastPoint_lt _ hi0⟩
  have e0' : win1_2.index ⟨(i 0).val / 1024 * 8 + 7, lastPoint_lt _ hi0⟩ (0 : Fin 2) = ((i 0).val / 1024 * 8 + 7) / 8 := e0
  refine ⟨⟨(i 0).val / 1024 * 8 + 7, lastPoint_lt _ hi0⟩, (flush1_2 _).mpr (by show ((i 0).val / 1024 * 8 + 7) % 8 = 7; omega), ?_⟩
  rw [mem_blk]
  intro a
  match a with
  | ⟨0, _⟩ =>
    show win1_2.index ⟨(i 0).val / 1024 * 8 + 7, lastPoint_lt _ hi0⟩ (0 : Fin 2) * 1024 ≤ (i 0).val
      ∧ (i 0).val < win1_2.index ⟨(i 0).val / 1024 * 8 + 7, lastPoint_lt _ hi0⟩ (0 : Fin 2) * 1024 + 1024
    rw [e0']; omega
  | ⟨1, _⟩ =>
    show win1_2.index ⟨(i 0).val / 1024 * 8 + 7, lastPoint_lt _ hi0⟩ (1 : Fin 2) * 1 ≤ (i 1).val
      ∧ (i 1).val < win1_2.index ⟨(i 0).val / 1024 * 8 + 7, lastPoint_lt _ hi0⟩ (1 : Fin 2) * 1 + 1
    rw [e1]; omega

/-- The output array after the call is that column. -/
theorem out_eq (c : Dev nD) : (dat V qs c).arrAt 2 cfg1.N = outG V c :=
  (dat V qs c).arrAt_eq_of_cover 2 (outG V c) (fun t hf => flushed_eq V qs c t hf) cover

/-- The output array after the call, read at row r: row r mod 1024 of what the last point of the row's tile left in
    the output's buffer. -/
theorem out_at (c : Dev nD) (r : Fin 8192) :
    (dat V qs c).arrAt 2 cfg1.N (ix2 r (0 : Fin 1))
      = (holdsAt V c (r.val / 1024 * 8 + 7) (lastPoint_lt _ r.isLt)).2
          (ix2 (⟨r.val % 1024, Nat.mod_lt _ (by decide)⟩ : Fin 1024) (0 : Fin 1)) := by
  rw [out_eq]
  rfl

end Cert.KernelIdeal.Reg1

end
-- ==== Proof.KI1.Blocks.lean ====
/-
  The blocks of the two inputs at a point of the 8 × 8 grid, read off the arrays entry by entry.
  At point t = 8·i + j the first input's block is rows [1024 i, 1024 i + 1024) of its array and the second input's block
  is rows [1024 j, 1024 j + 1024) of its array: entry (p, d) of a block is entry (1024 · (block index) + p, d) of the
  array, the block index being t div 8 for the first input and t mod 8 for the second.
  Both inputs of this call are blocks of the same array.
-/
import proofs.«139631_j39135742001578_2_alg».proof.Proof.KI1.Setup
import Idealize.ShloMosaic.Lib.Pipeline.Value
import Idealize.ShloMosaic.Lib.ValueIdx

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-- The block indices of the two inputs at every point of the grid: the first input's block moves with the grid's
    first coordinate, the second input's with its second; neither moves along the columns. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

/-- A point's number is below 64. -/
theorem point_lt (t : Fin cfg1.N) : t.val < 64 := Nat.lt_of_lt_of_eq t.isLt N_1

/-- Entry (p, d) of the first input's block at point t is entry (1024 · (t div 8) + p, d) of its array. -/
theorem iblk0_apply (c : Dev nD) (t : Fin cfg1.N) (p : Fin 1024) (d : Fin 256) :
    iblk V c 0 t (ix2 p d)
      = V c main_arg1 (ix2 (⟨(t.val / 8) * 1024 + p.val, by have := point_lt t; have := p.isLt; omega⟩ : Fin 8192) d) := by
  obtain ⟨e0, e1, -, -⟩ := idx_facts t
  unfold iblk
  rw [View.read_apply]
  show V c main_arg1 _ = _
  refine congrArg (V c main_arg1) (funext fun a => Fin.ext ?_)
  match a with
  | ⟨0, _⟩ =>
    show win1_0.index t (0 : Fin 2) * 1024 + 1 * p.val = t.val / 8 * 1024 + p.val
    rw [e0]; omega
  | ⟨1, _⟩ =>
    show win1_0.index t (1 : Fin 2) * 256 + 1 * d.val = d.val
    rw [e1]; omega

/-- Entry (p, d) of the second input's block at point t is entry (1024 · (t mod 8) + p, d) of its array. -/
theorem iblk1_apply (c : Dev nD) (t : Fin cfg1.N) (p : Fin 1024) (d : Fin 256) :
    iblk V c 1 t (ix2 p d)
      = V c main_arg1 (ix2 (⟨(t.val % 8) * 1024 + p.val, by have := p.isLt; omega⟩ : Fin 8192) d) := by
  obtain ⟨-, -, e0, e1⟩ := idx_facts t
  unfold iblk
  rw [View.read_apply]
  show V c main_arg1 _ = _
  refine congrArg (V c main_arg1) (funext fun a => Fin.ext ?_)
  match a with
  | ⟨0, _⟩ =>
    show win1_1.index t (0 : Fin 2) * 1024 + 1 * p.val = t.val % 8 * 1024 + p.val
    rw [e0]; omega
  | ⟨1, _⟩ =>
    show win1_1.index t (1 : Fin 2) * 256 + 1 * d.val = d.val
    rw [e1]; omega

end Cert.KernelIdeal.Reg1

end
-- ==== Proof.KI1.Pieces.lean ====
/-
  What the stores of each control case leave, as values.  Every load and store of the body goes through the whole
  buffer (a rectangle at offset (0, 0) of the buffer's own size), so a buffer's contents after the case are the payload
  of its last store, and a load after a store reads that store's payload:
    first point of a row:  the accumulator is reset to the zero column and then holds the zero column plus the tile's row sums;
    inner point:           the accumulator s becomes s plus the tile's row sums;
    last point of a row:   the same, and the output block is a copy of the accumulator.
-/
import proofs.«139631_j39135742001578_2_alg».proof.Proof.KI1.Points
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL.Sem

variable {F : FTy → Type} [FloatOps F]

/-- The offsets of every load and store are zero. -/
theorem offsets_zero : (![0, 0] : Fin 2 → Nat) = fun _ => 0 := funext fun a => by fin_cases a <;> rfl

/-- After a row's first point the accumulator holds the zero column plus the tile's row sums. -/
theorem accFirst_eq (c : Dev nD) (t : Fin cfg1.N) (h0 : isFirst (grid1.coords t)) (h1 : ¬isLast (grid1.coords t))
    (x0 y0 : Vec F S1024x256 .f32) : accFirst c t h0 h1 x0 y0 = k1_pay2 x0 y0 (k1_pay1 (F := F)) := by
  unfold accFirst
  rw [View.read_writes_eq_canon _ _ _ (coverFirst c t h0 h1 x0 y0)]
  unfold runFirst
  dsimp only
  sl_unfold_words
  rw [View.canon_cons_unit_zero (S := S1024x1) offsets_zero, View.readCov_unit_zero (S := S1024x1) _ offsets_zero]
  simp only [View.readAt_eq_ld, (hX t).read_unread, (hY t).read_unread, View.ld_unit_zero (S := S1024x256) offsets_zero]

/-- After an inner point the accumulator holds what it held plus the tile's row sums. -/
theorem accMid_eq (c : Dev nD) (t : Fin cfg1.N) (h0 : ¬isFirst (grid1.coords t)) (h1 : ¬isLast (grid1.coords t))
    (x0 y0 : Vec F S1024x256 .f32) (s : Vec F S1024x1 .f32) : accMid c t h0 h1 x0 y0 s = k1_pay2 x0 y0 s := by
  unfold accMid
  rw [View.read_writes_eq_canon _ _ _ (coverMid c t h0 h1 x0 y0 s)]
  unfold runMid
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the accumulator holds what it held plus the tile's row sums. -/
theorem accLast_eq (c : Dev nD) (t : Fin cfg1.N) (h0 : ¬isFirst (grid1.coords t)) (h1 : isLast (grid1.coords t))
    (x0 y0 : Vec F S1024x256 .f32) (s : Vec F S1024x1 .f32) : accLast c t h0 h1 x0 y0 s = k1_pay2 x0 y0 s := by
  unfold accLast
  rw [View.read_writes_eq_canon _ _ _ (coverLast c t h0 h1 x0 y0 s)]
  unfold runLast
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the output block holds the same column: a copy of the accumulator. -/
theorem outLast_eq (c : Dev nD) (t : Fin cfg1.N) (h0 : ¬isFirst (grid1.coords t)) (h1 : isLast (grid1.coords t))
    (x0 y0 : Vec F S1024x256 .f32) (s : Vec F S1024x1 .f32) : outLast c t h0 h1 x0 y0 s = k1_pay2 x0 y0 s := by
  unfold outLast
  rw [View.read_writes_eq_canon _ _ _ (coverOut c t h0 h1 x0 y0 s)]
  unfold runLast
  dsimp only
  sl_unfold_words
  rw [View.canon_unit_zero (S := S1024x1) offsets_zero, View.readCov_unit_zero (S := S1024x1) _ offsets_zero]
  simp only [View.readAt_eq_ld, (hX t).read_unread, (hY t).read_unread, (Memref.isWhole_whole _).read_unread,
    View.ld_unit_zero (S := S1024x256) offsets_zero, View.ld_unit_zero (S := S1024x1) offsets_zero]

end Cert.KernelIdeal.Reg1

end
-- ==== Proof.KI1.Value.lean ====
/-
  The output column of the call is the column of row sums of the kernel matrix of its two arrays.

  With x and y the two arrays of 8192 rows the call reads, the kernel matrix has the entry
  entry x y r q = exp (min (‖x_r‖²·(−γ) + ‖y_q‖²·(−γ) + ⟨x_r, y_q·2γ⟩) 0).  The grid point 8·i + j adds, to the accumulator's
  row p, the sum over the 1024 columns of column tile j of the entries of row 1024·i + p; the accumulator starts each
  row of the grid from the zero column.  So after point 8·i + j its row p is the running sum over the column tiles
  0 … j, after point 8·i + 7 it is the whole row sum, and that is what the last point copies to the output's block i.
  Both arrays of this call are the same array.
-/
import proofs.«139631_j39135742001578_2_alg».proof.Proof.KI1.Cover
import proofs.«139631_j39135742001578_2_alg».proof.Proof.KI1.Blocks
import proofs.«139631_j39135742001578_2_alg».proof.Proof.KI1.Pieces
import proofs.«139631_j39135742001578_2_alg».proof.Proof.Payload
import proofs.«139631_j39135742001578_2_alg».proof.Proof.Tiles
import proofs.«139631_j39135742001578_2_alg».proof.Proof.Spec

noncomputable section

open scoped BigOperators

namespace Cert.KernelIdeal.Reg1

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Rbf

variable (V : (c : Dev nD) → (b : Ref sig .tc) → Buf (Elt Ideal) ((c : Thread nD τ).loc b)) (qs : Fin 3 → PosShare TreeShare)

/-- The first array as the call finds it. -/
abbrev xArr (c : Dev nD) : Arr := fun i => V c main_arg1 i
/-- The second array as the call finds it. -/
abbrev yArr (c : Dev nD) : Arr := fun i => V c main_arg1 i

/-- Row `p` of tile `i` of 1024 rows (the tile's number taken mod 8, so that every number names a tile). -/
def tileRow (i : ℕ) (p : Fin 1024) : Fin 8192 := ⟨i % 8 * 1024 + p.val, by have := p.isLt; omega⟩

/-- The sum, over the 1024 columns of column tile `j`, of the entries of row `p` of row tile `i` of the kernel matrix. -/
def tileSum (x y : Arr) (i : ℕ) (p : Fin 1024) (j : ℕ) : EReal := ∑ q : Fin 1024, entry x y (tileRow i p) (tileRow j q)

/-! ## The blocks and the body at a point -/

/-- Entry (p, d) of the first input's block at point t, as an entry of the first array. -/
theorem xblk_apply (c : Dev nD) (t : Fin cfg1.N) (p : Fin 1024) (d : Fin 256) :
    iblk V c 0 t (ix2 p d) = xArr V c (ix2 (tileRow (t.val / 8) p) d) :=
  (iblk0_apply V c t p d).trans (congrArg (fun r : Fin 8192 => V c main_arg1 (ix2 r d)) (Fin.ext (by
    have := point_lt t
    show t.val / 8 * 1024 + p.val = t.val / 8 % 8 * 1024 + p.val
    omega)))

/-- Entry (q, d) of the second input's block at point t, as an entry of the second array. -/
theorem yblk_apply (c : Dev nD) (t : Fin cfg1.N) (q : Fin 1024) (d : Fin 256) :
    iblk V c 1 t (ix2 q d) = yArr V c (ix2 (tileRow (t.val % 8) q) d) :=
  (iblk1_apply V c t q d).trans (congrArg (fun r : Fin 8192 => V c main_arg1 (ix2 r d)) (Fin.ext (by
    show t.val % 8 * 1024 + q.val = t.val % 8 % 8 * 1024 + q.val
    omega)))

/-- The body's second stored value at point t, read at row p: what the column held plus the tile's sum of entries. -/
theorem tile_apply (c : Dev nD) (t : Fin cfg1.N) (s : Vec Ideal S1024x1 .f32) (p : Fin 1024) :
    k1_pay2 (F := Ideal) (iblk V c 0 t) (iblk V c 1 t) s (ix2 p (0 : Fin 1))
      = s (ix2 p (0 : Fin 1)) + tileSum (xArr V c) (yArr V c) (t.val / 8) p (t.val % 8) := by
  rw [Pay.k1_pay2_apply]
  refine congrArg (s (ix2 p (0 : Fin 1)) + ·) (Finset.sum_congr rfl fun q _ => ?_)
  simp only [xblk_apply, yblk_apply]
  rfl

/-! ## The accumulator after each point -/

set_option maxHeartbeats 4000000 in
/-- After the first point of a row of the grid the accumulator holds the body's second stored value of the point's two
    blocks and the zero column. -/
theorem fst_first (c : Dev nD) (t : Fin cfg1.N) (h0 : t.val % 8 = 0) :
    (holdsAt V c t.val t.isLt).1 = k1_pay2 (F := Ideal) (iblk V c 0 t) (iblk V c 1 t) (k1_pay1 (F := Ideal)) := by
  rw [holdsAt_first V c t h0]
  dsimp only
  exact accFirst_eq (F := Ideal) c t _ _ _ _

set_option maxHeartbeats 4000000 in
/-- After an inner point it holds the body's second stored value of the point's two blocks and what the point before
    left. -/
theorem fst_mid (c : Dev nD) (t : Fin cfg1.N) (h0 : ¬t.val % 8 = 0) (h1 : ¬t.val % 8 = 7) :
    (holdsAt V c t.val t.isLt).1 = k1_pay2 (F := Ideal) (iblk V c 0 t) (iblk V c 1 t)
      (holdsAt V c (t.val - 1) (Nat.lt_of_le_of_lt (Nat.sub_le _ _) t.isLt)).1 := by
  rw [holdsAt_mid V c t h0 h1]
  dsimp only
  exact accMid_eq (F := Ideal) c t _ _ _ _ _

set_option maxHeartbeats 4000000 in
/-- After the last point of a row of the grid likewise, … -/
theorem fst_last (c : Dev nD) (t : Fin cfg1.N) (h0 : ¬t.val % 8 = 0) (h1 : t.val % 8 = 7) :
    (holdsAt V c t.val t.isLt).1 = k1_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact accLast_eq (F := Ideal) c t _ _ _ _ _

set_option maxHeartbeats 4000000 in
/-- … and the output's buffer is left holding the same column. -/
theorem snd_last (c : Dev nD) (t : Fin cfg1.N) (h0 : ¬t.val % 8 = 0) (h1 : t.val % 8 = 7) :
    (holdsAt V c t.val t.isLt).2 = k1_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact outLast_eq (F := Ideal) c t _ _ _ _ _

/-- After the first point of a row of the grid the accumulator's row p is the zero column's entry plus the tile's sum. -/
theorem acc_first (c : Dev nD) (t : Fin cfg1.N) (h0 : t.val % 8 = 0) (p : Fin 1024) :
    (holdsAt V c t.val t.isLt).1 (ix2 p (0 : Fin 1))
      = 0 + tileSum (xArr V c) (yArr V c) (t.val / 8) p (t.val % 8) := by
  rw [fst_first V c t h0, tile_apply, Pay.k1_pay1_apply]

/-- After any other point it is what the point before left plus the tile's sum. -/
theorem acc_step (c : Dev nD) (t : Fin cfg1.N) (h0 : ¬t.val % 8 = 0) (p : Fin 1024) :
    (holdsAt V c t.val t.isLt).1 (ix2 p (0 : Fin 1))
      = (holdsAt V c (t.val - 1) (Nat.lt_of_le_of_lt (Nat.sub_le _ _) t.isLt)).1 (ix2 p (0 : Fin 1))
        + tileSum (xArr V c) (yArr V c) (t.val / 8) p (t.val % 8) := by
  by_cases h1 : t.val % 8 = 7
  · rw [fst_last V c t h0 h1, tile_apply]
  · rw [fst_mid V c t h0 h1, tile_apply]

/-- After position n the accumulator's row p is the running sum, over the column tiles up to n mod 8, of the tile sums
    of row p of row tile n div 8. -/
theorem acc_nat (c : Dev nD) : ∀ (n : ℕ) (hn : n < cfg1.N) (p : Fin 1024),
    (holdsAt V c n hn).1 (ix2 p (0 : Fin 1))
      = Tiles.run (tileSum (xArr V c) (yArr V c) (n / 8) p) (n % 8) := by
  intro n
  induction n with
  | zero =>
    intro hn p
    exact acc_first V c ⟨0, hn⟩ (Nat.zero_mod _) p
  | succ n ih =>
    intro hn p
    by_cases h0 : (n + 1) % 8 = 0
    · refine (acc_first V c ⟨n + 1, hn⟩ h0 p).trans ?_
      show 0 + tileSum (xArr V c) (yArr V c) ((n + 1) / 8) p ((n + 1) % 8)
        = Tiles.run (tileSum (xArr V c) (yArr V c) ((n + 1) / 8) p) ((n + 1) % 8)
      rw [h0]
      rfl
    · have hd : (n + 1) / 8 = n / 8 := by omega
      have hm : (n + 1) % 8 = n % 8 + 1 := by omega
      refine (acc_step V c ⟨n + 1, hn⟩ h0 p).trans ?_
      refine (congrArg (fun z => z + tileSum (xArr V c) (yArr V c) ((n + 1) / 8) p ((n + 1) % 8))
        (ih (Nat.lt_of_succ_lt hn) p)).trans ?_
      show Tiles.run (tileSum (xArr V c) (yArr V c) (n / 8) p) (n % 8)
          + tileSum (xArr V c) (yArr V c) ((n + 1) / 8) p ((n + 1) % 8)
        = Tiles.run (tileSum (xArr V c) (yArr V c) ((n + 1) / 8) p) ((n + 1) % 8)
      rw [hd, hm]
      rfl

/-- The same at a point of the grid. -/
theorem acc_at (c : Dev nD) (t : Fin cfg1.N) (p : Fin 1024) :
    (holdsAt V c t.val t.isLt).1 (ix2 p (0 : Fin 1))
      = Tiles.run (tileSum (xArr V c) (yArr V c) (t.val / 8) p) (t.val % 8) :=
  acc_nat V c t.val t.isLt p

/-- At a row's last point the output's buffer is left holding what the accumulator holds. -/
theorem out_eq_acc (c : Dev nD) (t : Fin cfg1.N) (h0 : ¬t.val % 8 = 0) (h1 : t.val % 8 = 7) :
    (holdsAt V c t.val t.isLt).2 = (holdsAt V c t.val t.isLt).1 :=
  (snd_last V c t h0 h1).trans (fst_last V c t h0 h1).symm

/-! ## The output column -/

/-- After the call, row r of the output column is the sum of row r of the kernel matrix. -/
theorem out_value (c : Dev nD) (r : Fin 8192) :
    (dat V qs c).arrAt 2 cfg1.N (ix2 r (0 : Fin 1)) = rowSum (xArr V c) (yArr V c) r := by
  have hr := r.isLt
  have h0 : ¬(r.val / 1024 * 8 + 7) % 8 = 0 := by omega
  have h1 : (r.val / 1024 * 8 + 7) % 8 = 7 := by omega
  refine (out_at V qs c r).trans ?_
  refine (congrFun (out_eq_acc V c ⟨r.val / 1024 * 8 + 7, lastPoint_lt _ r.isLt⟩ h0 h1) _).trans ?_
  refine (acc_nat V c (r.val / 1024 * 8 + 7) (lastPoint_lt _ r.isLt) _).trans ?_
  rw [h1, Tiles.run_seven]
  unfold rowSum tileSum
  rw [Tiles.sum_tiles]
  refine Finset.sum_congr rfl fun j _ => Finset.sum_congr rfl fun q _ => ?_
  have hj := j.isLt
  have hq := q.isLt
  have e1 : tileRow ((r.val / 1024 * 8 + 7) / 8) (⟨r.val % 1024, Nat.mod_lt _ (by decide)⟩ : Fin 1024) = r :=
    Fin.ext (by show (r.val / 1024 * 8 + 7) / 8 % 8 * 1024 + r.val % 1024 = r.val; omega)
  have e2 : tileRow j.val q = (⟨j.val * 1024 + q.val, by omega⟩ : Fin 8192) :=
    Fin.ext (by show j.val % 8 * 1024 + q.val = j.val * 1024 + q.val; omega)
  rw [e1, e2]

end Cert.KernelIdeal.Reg1

end
-- ==== Proof.KI2.Cover.lean ====
/-
  The output column after the call, read at a row.
  The output's blocks of 1024 rows are written back at the last point of each row of the 8 × 8 grid, point 8·i + 7
  writing block i; the 8 blocks tile the 8192 rows.  So after the call row r of the output holds row r mod 1024 of
  what the point 8·(r div 1024) + 7 left in the output's buffer.
-/
import proofs.«139631_j39135742001578_2_alg».proof.Proof.KI2.Points
import Idealize.ShloMosaic.Lib.Pipeline.Value
import Idealize.ShloMosaic.Lib.ValueIdx

noncomputable section

namespace Cert.KernelIdeal.Reg2

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable {F : FTy → Type} [FloatOps F]
variable (V : (c : Dev nD) → (b : Ref sig .tc) → Buf (Elt F) ((c : Thread nD τ).loc b)) (qs : Fin 3 → PosShare TreeShare)

/-- The output's block index at every point of the grid: it moves with the grid's first coordinate only. -/
theorem idx_out : ∀ t : Fin cfg2.N, win2_2.index t (0 : Fin 2) = t.val / 8 ∧ win2_2.index t (1 : Fin 2) = 0 :=
  (by decide +kernel : ∀ t : Fin grid2.N, _)

/-- The grid has 64 points. -/
theorem points_eq : cfg2.N = 64 := N_2

/-- What a position left does not depend on how the position is written. -/
theorem holdsAt_congr (c : Dev nD) {n n' : ℕ} (h : n = n') (hn : n < cfg2.N) (hn' : n' < cfg2.N) :
    holdsAt V c n hn = holdsAt V c n' hn' := by
  subst h; rfl

/-- The last point of the row of the grid that writes row r's block. -/
theorem lastPoint_lt (r : ℕ) (hr : r < 8192) : r / 1024 * 8 + 7 < cfg2.N := by
  have := points_eq; omega

/-- The column the output ends holding: row r is row r mod 1024 of what the point 8·(r div 1024) + 7 left in the
    output's buffer. -/
def outG (c : Dev nD) : S8192x1.Idx → Elt F .f32 := fun i =>
  (holdsAt V c ((i 0).val / 1024 * 8 + 7) (lastPoint_lt _ (i 0).isLt)).2
    (ix2 (⟨(i 0).val % 1024, Nat.mod_lt _ (by decide)⟩ : Fin 1024) (0 : Fin 1))

/-- What a flushing point writes back is its block of that column. -/
theorem flushed_eq (c : Dev nD) (t : Fin cfg2.N) (hf : (cfg2.win 2).flush t = true) :
    (dat V qs c).flushed 2 t = ((cfg2.win 2).blk t).view.read (Elt F) (outG V c) := by
  have h7 : t.val % 8 = 7 := (flush2_2 t).mp hf
  obtain ⟨e0, e1⟩ := idx_out t
  show (cfg2.win 2).cut (grid2.coords t) ((dat V qs c).after 2 t) = _
  rw [after_2]
  funext y
  rw [View.read_apply]
  have hy0 : (y 0).val < 1024 := (y 0).isLt
  have hy1 : (y 1).val < 1 := (y 1).isLt
  have hE0 : ((((cfg2.win 2).blk t).view.emb y) 0).val = win2_2.index t (0 : Fin 2) * 1024 + 1 * (y 0).val := rfl
  show (holdsAt V c t.val t.isLt).2 ((cfg2.win 2).xinj (grid2.coords t) y) = outG V c (((cfg2.win 2).blk t).view.emb y)
  unfold outG
  rw [holdsAt_congr V c (show ((((cfg2.win 2).blk t).view.emb y) 0).val / 1024 * 8 + 7 = t.val by rw [hE0, e0]; omega)
    (lastPoint_lt _ ((((cfg2.win 2).blk t).view.emb y) 0).isLt) t.isLt]
  refine congrArg (holdsAt V c t.val t.isLt).2 (funext fun a => Fin.ext ?_)
  match a with
  | ⟨0, _⟩ =>
    show (y 0).val = ((((cfg2.win 2).blk t).view.emb y) 0).val % 1024
    rw [hE0, e0]; omega
  | ⟨1, _⟩ =>
    show (y 1).val = 0
    omega

/-- A row of the output is in a point's block iff each coordinate is in the block's range on its axis. -/
theorem mem_blk (t : Fin cfg2.N) (i : S8192x1.Idx) :
    i ∈ ((cfg2.win 2).blk t).view.set
      ↔ ∀ a : Fin 2, win2_2.index t a * S1024x1.size a ≤ (i a).val ∧ (i a).val < win2_2.index t a * S1024x1.size a + S1024x1.size a := by
  show i ∈ ((View.whole main_v4).slice (win2_2.rect t)).set ↔ _
  rw [View.set_slice_whole, Rect.mem_set_unit]
  exact Iff.rfl

/-- Every row of the output is in the block some flushing point writes back: row r in that of point 8·(r div 1024) + 7. -/
theorem cover (i : S8192x1.Idx) : ∃ t : Fin cfg2.N, (cfg2.win 2).flush t = true ∧ i ∈ ((cfg2.win 2).blk t).view.set := by
  have hi0 : (i 0).val < 8192 := (i 0).isLt
  have hi1 : (i 1).val < 1 := (i 1).isLt
  obtain ⟨e0, e1⟩ := idx_out ⟨(i 0).val / 1024 * 8 + 7, lastPoint_lt _ hi0⟩
  have e0' : win2_2.index ⟨(i 0).val / 1024 * 8 + 7, lastPoint_lt _ hi0⟩ (0 : Fin 2) = ((i 0).val / 1024 * 8 + 7) / 8 := e0
  refine ⟨⟨(i 0).val / 1024 * 8 + 7, lastPoint_lt _ hi0⟩, (flush2_2 _).mpr (by show ((i 0).val / 1024 * 8 + 7) % 8 = 7; omega), ?_⟩
  rw [mem_blk]
  intro a
  match a with
  | ⟨0, _⟩ =>
    show win2_2.index ⟨(i 0).val / 1024 * 8 + 7, lastPoint_lt _ hi0⟩ (0 : Fin 2) * 1024 ≤ (i 0).val
      ∧ (i 0).val < win2_2.index ⟨(i 0).val / 1024 * 8 + 7, lastPoint_lt _ hi0⟩ (0 : Fin 2) * 1024 + 1024
    rw [e0']; omega
  | ⟨1, _⟩ =>
    show win2_2.index ⟨(i 0).val / 1024 * 8 + 7, lastPoint_lt _ hi0⟩ (1 : Fin 2) * 1 ≤ (i 1).val
      ∧ (i 1).val < win2_2.index ⟨(i 0).val / 1024 * 8 + 7, lastPoint_lt _ hi0⟩ (1 : Fin 2) * 1 + 1
    rw [e1]; omega

/-- The output array after the call is that column. -/
theorem out_eq (c : Dev nD) : (dat V qs c).arrAt 2 cfg2.N = outG V c :=
  (dat V qs c).arrAt_eq_of_cover 2 (outG V c) (fun t hf => flushed_eq V qs c t hf) cover

/-- The output array after the call, read at row r: row r mod 1024 of what the last point of the row's tile left in
    the output's buffer. -/
theorem out_at (c : Dev nD) (r : Fin 8192) :
    (dat V qs c).arrAt 2 cfg2.N (ix2 r (0 : Fin 1))
      = (holdsAt V c (r.val / 1024 * 8 + 7) (lastPoint_lt _ r.isLt)).2
          (ix2 (⟨r.val % 1024, Nat.mod_lt _ (by decide)⟩ : Fin 1024) (0 : Fin 1)) := by
  rw [out_eq]
  rfl

end Cert.KernelIdeal.Reg2

end
-- ==== Proof.KI2.Blocks.lean ====
/-
  The blocks of the two inputs at a point of the 8 × 8 grid, read off the arrays entry by entry.
  At point t = 8·i + j the first input's block is rows [1024 i, 1024 i + 1024) of its array and the second input's block
  is rows [1024 j, 1024 j + 1024) of its array: entry (p, d) of a block is entry (1024 · (block index) + p, d) of the
  array, the block index being t div 8 for the first input and t mod 8 for the second.
-/
import proofs.«139631_j39135742001578_2_alg».proof.Proof.KI2.Setup
import Idealize.ShloMosaic.Lib.Pipeline.Value
import Idealize.ShloMosaic.Lib.ValueIdx

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-- The block indices of the two inputs at every point of the grid: the first input's block moves with the grid's
    first coordinate, the second input's with its second; neither moves along the columns. -/
theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0 :=
  (by decide +kernel : ∀ t : Fin grid2.N, _)

/-- A point's number is below 64. -/
theorem point_lt (t : Fin cfg2.N) : t.val < 64 := Nat.lt_of_lt_of_eq t.isLt N_2

/-- Entry (p, d) of the first input's block at point t is entry (1024 · (t div 8) + p, d) of its array. -/
theorem iblk0_apply (c : Dev nD) (t : Fin cfg2.N) (p : Fin 1024) (d : Fin 256) :
    iblk V c 0 t (ix2 p d)
      = V c main_arg0 (ix2 (⟨(t.val / 8) * 1024 + p.val, by have := point_lt t; have := p.isLt; omega⟩ : Fin 8192) d) := by
  obtain ⟨e0, e1, -, -⟩ := idx_facts t
  unfold iblk
  rw [View.read_apply]
  show V c main_arg0 _ = _
  refine congrArg (V c main_arg0) (funext fun a => Fin.ext ?_)
  match a with
  | ⟨0, _⟩ =>
    show win2_0.index t (0 : Fin 2) * 1024 + 1 * p.val = t.val / 8 * 1024 + p.val
    rw [e0]; omega
  | ⟨1, _⟩ =>
    show win2_0.index t (1 : Fin 2) * 256 + 1 * d.val = d.val
    rw [e1]; omega

/-- Entry (p, d) of the second input's block at point t is entry (1024 · (t mod 8) + p, d) of its array. -/
theorem iblk1_apply (c : Dev nD) (t : Fin cfg2.N) (p : Fin 1024) (d : Fin 256) :
    iblk V c 1 t (ix2 p d)
      = V c main_arg1 (ix2 (⟨(t.val % 8) * 1024 + p.val, by have := p.isLt; omega⟩ : Fin 8192) d) := by
  obtain ⟨-, -, e0, e1⟩ := idx_facts t
  unfold iblk
  rw [View.read_apply]
  show V c main_arg1 _ = _
  refine congrArg (V c main_arg1) (funext fun a => Fin.ext ?_)
  match a with
  | ⟨0, _⟩ =>
    show win2_1.index t (0 : Fin 2) * 1024 + 1 * p.val = t.val % 8 * 1024 + p.val
    rw [e0]; omega
  | ⟨1, _⟩ =>
    show win2_1.index t (1 : Fin 2) * 256 + 1 * d.val = d.val
    rw [e1]; omega

end Cert.KernelIdeal.Reg2

end
-- ==== Proof.KI2.Pieces.lean ====
/-
  What the stores of each control case leave, as values.  Every load and store of the body goes through the whole
  buffer (a rectangle at offset (0, 0) of the buffer's own size), so a buffer's contents after the case are the payload
  of its last store, and a load after a store reads that store's payload:
    first point of a row:  the accumulator is reset to the zero column and then holds the zero column plus the tile's row sums;
    inner point:           the accumulator s becomes s plus the tile's row sums;
    last point of a row:   the same, and the output block is a copy of the accumulator.
-/
import proofs.«139631_j39135742001578_2_alg».proof.Proof.KI2.Points
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL.Sem

variable {F : FTy → Type} [FloatOps F]

/-- The offsets of every load and store are zero. -/
theorem offsets_zero : (![0, 0] : Fin 2 → Nat) = fun _ => 0 := funext fun a => by fin_cases a <;> rfl

/-- After a row's first point the accumulator holds the zero column plus the tile's row sums. -/
theorem accFirst_eq (c : Dev nD) (t : Fin cfg2.N) (h0 : isFirst (grid2.coords t)) (h1 : ¬isLast (grid2.coords t))
    (x0 y0 : Vec F S1024x256 .f32) : accFirst c t h0 h1 x0 y0 = k2_pay2 x0 y0 (k2_pay1 (F := F)) := by
  unfold accFirst
  rw [View.read_writes_eq_canon _ _ _ (coverFirst c t h0 h1 x0 y0)]
  unfold runFirst
  dsimp only
  sl_unfold_words
  rw [View.canon_cons_unit_zero (S := S1024x1) offsets_zero, View.readCov_unit_zero (S := S1024x1) _ offsets_zero]
  simp only [View.readAt_eq_ld, (hX t).read_unread, (hY t).read_unread, View.ld_unit_zero (S := S1024x256) offsets_zero]

/-- After an inner point the accumulator holds what it held plus the tile's row sums. -/
theorem accMid_eq (c : Dev nD) (t : Fin cfg2.N) (h0 : ¬isFirst (grid2.coords t)) (h1 : ¬isLast (grid2.coords t))
    (x0 y0 : Vec F S1024x256 .f32) (s : Vec F S1024x1 .f32) : accMid c t h0 h1 x0 y0 s = k2_pay2 x0 y0 s := by
  unfold accMid
  rw [View.read_writes_eq_canon _ _ _ (coverMid c t h0 h1 x0 y0 s)]
  unfold runMid
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the accumulator holds what it held plus the tile's row sums. -/
theorem accLast_eq (c : Dev nD) (t : Fin cfg2.N) (h0 : ¬isFirst (grid2.coords t)) (h1 : isLast (grid2.coords t))
    (x0 y0 : Vec F S1024x256 .f32) (s : Vec F S1024x1 .f32) : accLast c t h0 h1 x0 y0 s = k2_pay2 x0 y0 s := by
  unfold accLast
  rw [View.read_writes_eq_canon _ _ _ (coverLast c t h0 h1 x0 y0 s)]
  unfold runLast
  dsimp only
  sl_unfold_words
  rw [View.canon_unit_zero (S := S1024x1) offsets_zero]
  simp only [View.readAt_eq_ld, (hX t).read_unread, (hY t).read_unread, (Memref.isWhole_whole _).read_unread,
    View.ld_unit_zero (S := S1024x256) offsets_zero, View.ld_unit_zero (S := S1024x1) offsets_zero]

/-- After a row's last point the output block holds the same column: a copy of the accumulator. -/
theorem outLast_eq (c : Dev nD) (t : Fin cfg2.N) (h0 : ¬isFirst (grid2.coords t)) (h1 : isLast (grid2.coords t))
    (x0 y0 : Vec F S1024x256 .f32) (s : Vec F S1024x1 .f32) : outLast c t h0 h1 x0 y0 s = k2_pay2 x0 y0 s := by
  unfold outLast
  rw [View.read_writes_eq_canon _ _ _ (coverOut c t h0 h1 x0 y0 s)]
  unfold runLast
  dsimp only
  sl_unfold_words
  rw [View.canon_unit_zero (S := S1024x1) offsets_zero, View.readCov_unit_zero (S := S1024x1) _ offsets_zero]
  simp only [View.readAt_eq_ld, (hX t).read_unread, (hY t).read_unread, (Memref.isWhole_whole _).read_unread,
    View.ld_unit_zero (S := S1024x256) offsets_zero, View.ld_unit_zero (S := S1024x1) offsets_zero]

end Cert.KernelIdeal.Reg2

end
-- ==== Proof.KI2.Value.lean ====
/-
  The output column of the call is the column of row sums of the kernel matrix of its two arrays.

  With x and y the two arrays of 8192 rows the call reads, the kernel matrix has the entry
  entry x y r q = exp (min (‖x_r‖²·(−γ) + ‖y_q‖²·(−γ) + ⟨x_r, y_q·2γ⟩) 0).  The grid point 8·i + j adds, to the accumulator's
  row p, the sum over the 1024 columns of column tile j of the entries of row 1024·i + p; the accumulator starts each
  row of the grid from the zero column.  So after point 8·i + j its row p is the running sum over the column tiles
  0 … j, after point 8·i + 7 it is the whole row sum, and that is what the last point copies to the output's block i.
-/
import proofs.«139631_j39135742001578_2_alg».proof.Proof.KI2.Cover
import proofs.«139631_j39135742001578_2_alg».proof.Proof.KI2.Blocks
import proofs.«139631_j39135742001578_2_alg».proof.Proof.KI2.Pieces
import proofs.«139631_j39135742001578_2_alg».proof.Proof.Payload
import proofs.«139631_j39135742001578_2_alg».proof.Proof.Tiles
import proofs.«139631_j39135742001578_2_alg».proof.Proof.Spec

noncomputable section

open scoped BigOperators

namespace Cert.KernelIdeal.Reg2

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)
open Cert.Rbf

variable (V : (c : Dev nD) → (b : Ref sig .tc) → Buf (Elt Ideal) ((c : Thread nD τ).loc b)) (qs : Fin 3 → PosShare TreeShare)

/-- The first array as the call finds it. -/
abbrev xArr (c : Dev nD) : Arr := fun i => V c main_arg0 i
/-- The second array as the call finds it. -/
abbrev yArr (c : Dev nD) : Arr := fun i => V c main_arg1 i

/-- Row `p` of tile `i` of 1024 rows (the tile's number taken mod 8, so that every number names a tile). -/
def tileRow (i : ℕ) (p : Fin 1024) : Fin 8192 := ⟨i % 8 * 1024 + p.val, by have := p.isLt; omega⟩

/-- The sum, over the 1024 columns of column tile `j`, of the entries of row `p` of row tile `i` of the kernel matrix. -/
def tileSum (x y : Arr) (i : ℕ) (p : Fin 1024) (j : ℕ) : EReal := ∑ q : Fin 1024, entry x y (tileRow i p) (tileRow j q)

/-! ## The blocks and the body at a point -/

/-- Entry (p, d) of the first input's block at point t, as an entry of the first array. -/
theorem xblk_apply (c : Dev nD) (t : Fin cfg2.N) (p : Fin 1024) (d : Fin 256) :
    iblk V c 0 t (ix2 p d) = xArr V c (ix2 (tileRow (t.val / 8) p) d) :=
  (iblk0_apply V c t p d).trans (congrArg (fun r : Fin 8192 => V c main_arg0 (ix2 r d)) (Fin.ext (by
    have := point_lt t
    show t.val / 8 * 1024 + p.val = t.val / 8 % 8 * 1024 + p.val
    omega)))

/-- Entry (q, d) of the second input's block at point t, as an entry of the second array. -/
theorem yblk_apply (c : Dev nD) (t : Fin cfg2.N) (q : Fin 1024) (d : Fin 256) :
    iblk V c 1 t (ix2 q d) = yArr V c (ix2 (tileRow (t.val % 8) q) d) :=
  (iblk1_apply V c t q d).trans (congrArg (fun r : Fin 8192 => V c main_arg1 (ix2 r d)) (Fin.ext (by
    show t.val % 8 * 1024 + q.val = t.val % 8 % 8 * 1024 + q.val
    omega)))

/-- The body's second stored value at point t, read at row p: what the column held plus the tile's sum of entries. -/
theorem tile_apply (c : Dev nD) (t : Fin cfg2.N) (s : Vec Ideal S1024x1 .f32) (p : Fin 1024) :
    k2_pay2 (F := Ideal) (iblk V c 0 t) (iblk V c 1 t) s (ix2 p (0 : Fin 1))
      = s (ix2 p (0 : Fin 1)) + tileSum (xArr V c) (yArr V c) (t.val / 8) p (t.val % 8) := by
  rw [Pay.k2_pay2_apply]
  refine congrArg (s (ix2 p (0 : Fin 1)) + ·) (Finset.sum_congr rfl fun q _ => ?_)
  simp only [xblk_apply, yblk_apply]
  rfl

/-! ## The accumulator after each point -/

set_option maxHeartbeats 4000000 in
/-- After the first point of a row of the grid the accumulator holds the body's second stored value of the point's two
    blocks and the zero column. -/
theorem fst_first (c : Dev nD) (t : Fin cfg2.N) (h0 : t.val % 8 = 0) :
    (holdsAt V c t.val t.isLt).1 = k2_pay2 (F := Ideal) (iblk V c 0 t) (iblk V c 1 t) (k2_pay1 (F := Ideal)) := by
  rw [holdsAt_first V c t h0]
  dsimp only
  exact accFirst_eq (F := Ideal) c t _ _ _ _

set_option maxHeartbeats 4000000 in
/-- After an inner point it holds the body's second stored value of the point's two blocks and what the point before
    left. -/
theorem fst_mid (c : Dev nD) (t : Fin cfg2.N) (h0 : ¬t.val % 8 = 0) (h1 : ¬t.val % 8 = 7) :
    (holdsAt V c t.val t.isLt).1 = k2_pay2 (F := Ideal) (iblk V c 0 t) (iblk V c 1 t)
      (holdsAt V c (t.val - 1) (Nat.lt_of_le_of_lt (Nat.sub_le _ _) t.isLt)).1 := by
  rw [holdsAt_mid V c t h0 h1]
  dsimp only
  exact accMid_eq (F := Ideal) c t _ _ _ _ _

set_option maxHeartbeats 4000000 in
/-- After the last point of a row of the grid likewise, … -/
theorem fst_last (c : Dev nD) (t : Fin cfg2.N) (h0 : ¬t.val % 8 = 0) (h1 : t.val % 8 = 7) :
    (holdsAt V c t.val t.isLt).1 = k2_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact accLast_eq (F := Ideal) c t _ _ _ _ _

set_option maxHeartbeats 4000000 in
/-- … and the output's buffer is left holding the same column. -/
theorem snd_last (c : Dev nD) (t : Fin cfg2.N) (h0 : ¬t.val % 8 = 0) (h1 : t.val % 8 = 7) :
    (holdsAt V c t.val t.isLt).2 = k2_pay2 (F := Ideal) (iblk V c 0 t) (iblk V c 1 t)
      (holdsAt V c (t.val - 1) (Nat.lt_of_le_of_lt (Nat.sub_le _ _) t.isLt)).1 := by
  rw [holdsAt_last V c t h0 h1]
  dsimp only
  exact outLast_eq (F := Ideal) c t _ _ _ _ _

/-- After the first point of a row of the grid the accumulator's row p is the zero column's entry plus the tile's sum. -/
theorem acc_first (c : Dev nD) (t : Fin cfg2.N) (h0 : t.val % 8 = 0) (p : Fin 1024) :
    (holdsAt V c t.val t.isLt).1 (ix2 p (0 : Fin 1))
      = 0 + tileSum (xArr V c) (yArr V c) (t.val / 8) p (t.val % 8) := by
  rw [fst_first V c t h0, tile_apply, Pay.k2_pay1_apply]

/-- After any other point it is what the point before left plus the tile's sum. -/
theorem acc_step (c : Dev nD) (t : Fin cfg2.N) (h0 : ¬t.val % 8 = 0) (p : Fin 1024) :
    (holdsAt V c t.val t.isLt).1 (ix2 p (0 : Fin 1))
      = (holdsAt V c (t.val - 1) (Nat.lt_of_le_of_lt (Nat.sub_le _ _) t.isLt)).1 (ix2 p (0 : Fin 1))
        + tileSum (xArr V c) (yArr V c) (t.val / 8) p (t.val % 8) := by
  by_cases h1 : t.val % 8 = 7
  · rw [fst_last V c t h0 h1, tile_apply]
  · rw [fst_mid V c t h0 h1, tile_apply]

/-- After position n the accumulator's row p is the running sum, over the column tiles up to n mod 8, of the tile sums
    of row p of row tile n div 8. -/
theorem acc_nat (c : Dev nD) : ∀ (n : ℕ) (hn : n < cfg2.N) (p : Fin 1024),
    (holdsAt V c n hn).1 (ix2 p (0 : Fin 1))
      = Tiles.run (tileSum (xArr V c) (yArr V c) (n / 8) p) (n % 8) := by
  intro n
  induction n with
  | zero =>
    intro hn p
    exact acc_first V c ⟨0, hn⟩ (Nat.zero_mod _) p
  | succ n ih =>
    intro hn p
    by_cases h0 : (n + 1) % 8 = 0
    · refine (acc_first V c ⟨n + 1, hn⟩ h0 p).trans ?_
      show 0 + tileSum (xArr V c) (yArr V c) ((n + 1) / 8) p ((n + 1) % 8)
        = Tiles.run (tileSum (xArr V c) (yArr V c) ((n + 1) / 8) p) ((n + 1) % 8)
      rw [h0]
      rfl
    · have hd : (n + 1) / 8 = n / 8 := by omega
      have hm : (n + 1) % 8 = n % 8 + 1 := by omega
      refine (acc_step V c ⟨n + 1, hn⟩ h0 p).trans ?_
      refine (congrArg (fun z => z + tileSum (xArr V c) (yArr V c) ((n + 1) / 8) p ((n + 1) % 8))
        (ih (Nat.lt_of_succ_lt hn) p)).trans ?_
      show Tiles.run (tileSum (xArr V c) (yArr V c) (n / 8) p) (n % 8)
          + tileSum (xArr V c) (yArr V c) ((n + 1) / 8) p ((n + 1) % 8)
        = Tiles.run (tileSum (xArr V c) (yArr V c) ((n + 1) / 8) p) ((n + 1) % 8)
      rw [hd, hm]
      rfl

/-- The same at a point of the grid. -/
theorem acc_at (c : Dev nD) (t : Fin cfg2.N) (p : Fin 1024) :
    (holdsAt V c t.val t.isLt).1 (ix2 p (0 : Fin 1))
      = Tiles.run (tileSum (xArr V c) (yArr V c) (t.val / 8) p) (t.val % 8) :=
  acc_nat V c t.val t.isLt p

/-- At a row's last point the output's buffer is left holding what the accumulator holds. -/
theorem out_eq_acc (c : Dev nD) (t : Fin cfg2.N) (h0 : ¬t.val % 8 = 0) (h1 : t.val % 8 = 7) :
    (holdsAt V c t.val t.isLt).2 = (holdsAt V c t.val t.isLt).1 :=
  (snd_last V c t h0 h1).trans (fst_last V c t h0 h1).symm

/-! ## The output column -/

/-- After the call, row r of the output column is the sum of row r of the kernel matrix. -/
theorem out_value (c : Dev nD) (r : Fin 8192) :
    (dat V qs c).arrAt 2 cfg2.N (ix2 r (0 : Fin 1)) = rowSum (xArr V c) (yArr V c) r := by
  have hr := r.isLt
  have h0 : ¬(r.val / 1024 * 8 + 7) % 8 = 0 := by omega
  have h1 : (r.val / 1024 * 8 + 7) % 8 = 7 := by omega
  refine (out_at V qs c r).trans ?_
  refine (congrFun (out_eq_acc V c ⟨r.val / 1024 * 8 + 7, lastPoint_lt _ r.isLt⟩ h0 h1) _).trans ?_
  refine (acc_nat V c (r.val / 1024 * 8 + 7) (lastPoint_lt _ r.isLt) _).trans ?_
  rw [h1, Tiles.run_seven]
  unfold rowSum tileSum
  rw [Tiles.sum_tiles]
  refine Finset.sum_congr rfl fun j _ => Finset.sum_congr rfl fun q _ => ?_
  have hj := j.isLt
  have hq := q.isLt
  have e1 : tileRow ((r.val / 1024 * 8 + 7) / 8) (⟨r.val % 1024, Nat.mod_lt _ (by decide)⟩ : Fin 1024) = r :=
    Fin.ext (by show (r.val / 1024 * 8 + 7) / 8 % 8 * 1024 + r.val % 1024 = r.val; omega)
  have e2 : tileRow j.val q = (⟨j.val * 1024 + q.val, by omega⟩ : Fin 8192) :=
    Fin.ext (by show j.val % 8 * 1024 + q.val = j.val * 1024 + q.val; omega)
  rw [e1, e2]

end Cert.KernelIdeal.Reg2

end
-- ==== Proof.Bridge.lean ====
/-
  The idealized kernel program's result is the specification: each call leaves the column of row sums of the kernel
  matrix of the arrays it reads — (x, x), (y, y), (x, y), the arrays being the arguments as launched — and the host's
  combination of the three columns is `Cert.Rbf.result x y`.
-/
import proofs.«139631_j39135742001578_2_alg».proof.Proof.KIRunValue
import proofs.«139631_j39135742001578_2_alg».proof.Proof.KITailValue
import proofs.«139631_j39135742001578_2_alg».proof.Proof.KI0.Value
import proofs.«139631_j39135742001578_2_alg».proof.Proof.KI1.Value
import proofs.«139631_j39135742001578_2_alg».proof.Proof.KI2.Value

noncomputable section

namespace Cert.Rbf.Bridge

open Cert.KernelIdeal Cert.KernelIdeal.Gen Cert.KernelIdeal.Whole
open Idealize.ShloMosaic Idealize.ShloMosaic.TcCoe Idealize.ShloMosaic.ValueIdx
open Idealize.SL Idealize.SL.Sem

variable (m : (ℓ : Loc nD τ sig) → Buf (Elt Ideal) ℓ)

/-- The result buffer at the return holds the specification's value of the two arguments. -/
theorem kernel_value (c : Dev nD) :
    tail (F := Ideal) (out0 m c) (out1 m c) (out2 m c)
      = fun _ => Cert.Rbf.result (m ((c : Thread nD τ).loc main_arg0)) (m ((c : Thread nD τ).loc main_arg1)) := by
  refine Cert.Rbf.TailV.tail_eq _ _ _ _ _ (fun r => ?_) (fun r => ?_) (fun r => ?_)
  · exact Reg0.out_value (U0 m) halves c r
  · refine (Reg1.out_value (U2 m) halves c r).trans ?_
    show Cert.Rbf.rowSum (fun i => U2 m c main_arg1 i) (fun i => U2 m c main_arg1 i) r = _
    rw [U2_main_arg1]
  · refine (Reg2.out_value (U4 m) wholes c r).trans ?_
    show Cert.Rbf.rowSum (fun i => U4 m c main_arg0 i) (fun i => U4 m c main_arg1 i) r = _
    rw [U4_main_arg0, U4_main_arg1]

end Cert.Rbf.Bridge

end
-- ==== Proof.RefRead.lean ====
/-
  The reference program's 8192 × 8192 stage before the sum, read at an index (r, q):
    exp (−γ · max (‖a_r‖² + ‖b_q‖² − 2 · Σ_d a(r,d) · b(q,d), 0)),
  where the two squared norms are the sums of squares of a row.  The three blocks of the reference are the same
  operations applied to (x, x), (y, y) and (x, y); the third block is read once, for a generic pair (a, b), and the first
  two are instances of it.
-/
import proofs.«139631_j39135742001578_2_alg».proof.Proof.Spec
import proofs.«139631_j39135742001578_2_alg».proof.Proof.Gen.ReferenceIdeal.Read

noncomputable section

open scoped BigOperators

namespace Cert.Rbf.Ref

open Idealize.ShloMosaic Idealize.ShloMosaic.ValueIdx Cert.ReferenceIdeal Cert.ReferenceIdeal.Read

/-- One entry of the kernel matrix, as the reference computes it. -/
def refEntry (a b : Cert.Rbf.Arr) (r q : Fin 8192) : EReal :=
  Ideal.exp (Cert.Rbf.negG * max (Cert.Rbf.sq a r + Cert.Rbf.sq b q
    - Cert.Rbf.two * ∑ d : Fin 256, a (ix2 r d) * b (ix2 q d)) 0)

/-- The index of row r's element d, through the broadcasts of the row-norm column. -/
theorem idx_row (r q : Fin 8192) (k : Fin 256) :
    idx_main_v44 (idx_main_v47 (idx_main_v49 (ix2 r q))) k = ix2 r k :=
  funext fun a => Fin.ext (by match a with | ⟨0, _⟩ => rfl | ⟨1, _⟩ => rfl)

/-- The index of row q's element d, through the broadcasts of the row-norm row. -/
theorem idx_col (r q : Fin 8192) (k : Fin 256) :
    idx_main_v46 (idx_main_v48 (idx_main_v50 (ix2 r q))) k = ix2 q k :=
  funext fun a => Fin.ext (by match a with | ⟨0, _⟩ => rfl | ⟨1, _⟩ => rfl)

/-- The left operand's index in the product. -/
theorem idx_lhs (r q : Fin 8192) (k : Fin 256) : lidx_main_v53 (ix2 r q) k = ix2 r k :=
  funext fun a => Fin.ext (by match a with | ⟨0, _⟩ => rfl | ⟨1, _⟩ => rfl)

/-- The right operand's index in the product, through the transpose. -/
theorem idx_rhs (r q : Fin 8192) (k : Fin 256) : idx_main_v52 (ridx_main_v53 (ix2 r q) k) = ix2 q k :=
  funext fun a => Fin.ext (by match a with | ⟨0, _⟩ => rfl | ⟨1, _⟩ => rfl)

/-- The cross block's stage before the sum, at (r, q). -/
theorem v61_read (a b : Cert.Rbf.Arr) (r q : Fin 8192) :
    val_main_v61 (F := Ideal) a b (ix2 r q) = refEntry a b r q := by
  rw [val_main_v61_apply, val_main_v60_apply, val_main_v59_apply, val_main_cst_17_apply, val_main_v58_apply,
    val_main_v57_apply, val_main_cst_16_apply, val_main_v56_apply, val_main_v51_apply, val_main_v49_apply,
    val_main_v47_apply, val_main_v44_apply, val_main_cst_13_apply, val_main_v50_apply, val_main_v48_apply,
    val_main_v46_apply, val_main_cst_14_apply, val_main_v55_apply, val_main_v54_apply, val_main_cst_15_apply,
    val_main_v53_apply]
  simp only [val_main_v43_apply, val_main_v45_apply, val_main_v52_apply, idx_row, idx_col, idx_lhs, idx_rhs,
    Ideal.ofBits_def, Ideal.mulf_def, Ideal.addf_def, Ideal.subf_def, Ideal.maximumf_def, Ideal.hostUnary_exp_def,
    Ideal.ofBits_zero_f32, zero_add]
  rfl

/-- The first block is the cross block of (x, x). -/
theorem v18_eq (x : Cert.Rbf.Arr) : val_main_v18 (F := Ideal) x = val_main_v61 (F := Ideal) x x := rfl

/-- The second block is the cross block of (y, y). -/
theorem v39_eq (y : Cert.Rbf.Arr) : val_main_v39 (F := Ideal) y = val_main_v61 (F := Ideal) y y := rfl

end Cert.Rbf.Ref

end
-- ==== Proof.RefConsts.lean ====
/-
  The float constants of the reference program, as the extended reals their words denote:
  −γ = −1/256, 2γ = 1/128, 2, N² = 2^26, 0 and +∞.  Every other module reads them here.
-/
import proofs.«139631_j39135742001578_2_alg».proof.Proof.Spec

noncomputable section

namespace Cert.Rbf.Ref

open Idealize.ShloMosaic

/-- The word 0xBB800000 denotes −1/256. -/
theorem negG_eq : Cert.Rbf.negG = ((-(1 / 256) : ℝ) : EReal) := by
  unfold Cert.Rbf.negG
  simp [Ideal.ofBits, Ideal.ieee, -EReal.coe_mul]; norm_num

/-- The word 0x3C000000 denotes 1/128. -/
theorem twoG_eq : Cert.Rbf.twoG = ((1 / 128 : ℝ) : EReal) := by
  unfold Cert.Rbf.twoG
  simp [Ideal.ofBits, Ideal.ieee, -EReal.coe_mul]; norm_num

/-- The word 0x40000000 denotes 2. -/
theorem two_eq : Cert.Rbf.two = ((2 : ℝ) : EReal) := by
  unfold Cert.Rbf.two
  simp [Ideal.ofBits, Ideal.ieee, -EReal.coe_mul]; norm_num

/-- The word 0x4C800000 denotes 2^26. -/
theorem nSq_eq : Cert.Rbf.nSq = ((67108864 : ℝ) : EReal) := by
  unfold Cert.Rbf.nSq
  simp [Ideal.ofBits, Ideal.ieee, -EReal.coe_mul]; norm_num

/-- The word 0x7F800000 denotes +∞. -/
theorem inf_eq : Ideal.ofBits .f32 0x7F800000#32 = (⊤ : EReal) := by
  simp [Ideal.ofBits, Ideal.ieee]

end Cert.Rbf.Ref

end
-- ==== Proof.RefReal.lean ====
/-
  The algebra between the reference's entry and the specification's, for rows of real numbers.

  With A = ‖a_r‖², B = ‖b_q‖², S = Σ_d a(r,d) · b(q,d), all real, and γ = 1/256:
    −γ · max (A + B − 2·S, 0) = min (A·(−γ) + B·(−γ) + Σ_d a(r,d) · (b(q,d) · 2γ), 0),
  because Σ_d a(r,d) · (b(q,d) · 2γ) = 2γ · S and multiplying by the negative number −γ turns a maximum with 0 into a
  minimum with 0.  On the extended reals these laws need every term finite; the rows' entries are real, so every sum is
  the coercion of a real sum.
-/
import proofs.«139631_j39135742001578_2_alg».proof.Proof.RefConsts

noncomputable section

open scoped BigOperators

namespace Cert.Rbf.Ref

open Idealize.ShloMosaic Idealize.ShloMosaic.ValueIdx

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals. -/
theorem coe_max (u v : ℝ) : ((max u v : ℝ) : EReal) = max (u : EReal) (v : EReal) :=
  EReal.coe_strictMono.monotone.map_max

/-- The coercion of a minimum of reals. -/
theorem coe_min (u v : ℝ) : ((min u v : ℝ) : EReal) = min (u : EReal) (v : EReal) :=
  EReal.coe_strictMono.monotone.map_min

/-- The law on the reals: scaling a maximum with 0 by −γ gives the minimum with 0 of the scaled terms. -/
theorem real_law (A B S : ℝ) :
    -(1 / 256) * max (A + B - 2 * S) 0 = min (A * -(1 / 256) + B * -(1 / 256) + S * (1 / 128)) 0 := by
  rcases le_total (A + B - 2 * S) 0 with h | h
  · rw [max_eq_right h, min_eq_right (by linarith)]; ring
  · rw [max_eq_left h, min_eq_left (by linarith)]; ring

/-- For rows of real numbers the reference's entry is the specification's. -/
theorem entry_of_real (a b : Cert.Rbf.Arr) (ha : ∀ i, ∃ r : ℝ, a i = (r : EReal)) (hb : ∀ i, ∃ r : ℝ, b i = (r : EReal))
    (r q : Fin 8192) :
    Ideal.exp (Cert.Rbf.negG * max (Cert.Rbf.sq a r + Cert.Rbf.sq b q
      - Cert.Rbf.two * ∑ d : Fin 256, a (ix2 r d) * b (ix2 q d)) 0) = Cert.Rbf.entry a b r q := by
  choose a' ha' using ha
  choose b' hb' using hb
  have hsa : Cert.Rbf.sq a r = ((∑ d : Fin 256, a' (ix2 r d) * a' (ix2 r d) : ℝ) : EReal) := by
    unfold Cert.Rbf.sq
    rw [coe_sum]
    exact Finset.sum_congr rfl fun d _ => by rw [ha', ← EReal.coe_mul]
  have hsb : Cert.Rbf.sq b q = ((∑ d : Fin 256, b' (ix2 q d) * b' (ix2 q d) : ℝ) : EReal) := by
    unfold Cert.Rbf.sq
    rw [coe_sum]
    exact Finset.sum_congr rfl fun d _ => by rw [hb', ← EReal.coe_mul]
  have hs : ∑ d : Fin 256, a (ix2 r d) * b (ix2 q d)
      = ((∑ d : Fin 256, a' (ix2 r d) * b' (ix2 q d) : ℝ) : EReal) := by
    rw [coe_sum]
    exact Finset.sum_congr rfl fun d _ => by rw [ha', hb', ← EReal.coe_mul]
  have hc : Cert.Rbf.cross a b r q = (((∑ d : Fin 256, a' (ix2 r d) * b' (ix2 q d)) * (1 / 128) : ℝ) : EReal) := by
    unfold Cert.Rbf.cross
    rw [Finset.sum_mul, coe_sum, twoG_eq]
    exact Finset.sum_congr rfl fun d _ => by rw [ha', hb', ← EReal.coe_mul, ← EReal.coe_mul, mul_assoc]
  unfold Cert.Rbf.entry
  rw [hsa, hsb, hs, hc, negG_eq, two_eq]
  generalize (∑ d : Fin 256, a' (ix2 r d) * a' (ix2 r d)) = A
  generalize (∑ d : Fin 256, b' (ix2 q d) * b' (ix2 q d)) = B
  generalize (∑ d : Fin 256, a' (ix2 r d) * b' (ix2 q d)) = S
  have hl : ((-(1 / 256) : ℝ) : EReal) * max ((A : EReal) + (B : EReal) - ((2 : ℝ) : EReal) * (S : EReal)) 0
      = ((-(1 / 256) * max (A + B - 2 * S) 0 : ℝ) : EReal) := by
    simp only [EReal.coe_mul, coe_max, EReal.coe_sub, EReal.coe_add, EReal.coe_zero]
  have hr : min ((A : EReal) * ((-(1 / 256) : ℝ) : EReal) + (B : EReal) * ((-(1 / 256) : ℝ) : EReal)
      + ((S * (1 / 128) : ℝ) : EReal)) 0
      = ((min (A * -(1 / 256) + B * -(1 / 256) + S * (1 / 128)) 0 : ℝ) : EReal) := by
    simp only [coe_min, EReal.coe_add, EReal.coe_mul, EReal.coe_zero]
  rw [hl, hr, real_law]

end Cert.Rbf.Ref

end
-- ==== Proof.RefFinite.lean ====
/-
  Finiteness from the precondition.  The printed predicate says |x| < +∞ at every element of x, and the same of y
  (each a reduction by "and" of the elementwise comparisons); an extended real whose absolute value is below +∞ is a
  real number.
-/
import proofs.«139631_j39135742001578_2_alg».proof.Pre_finite_inputs
import proofs.«139631_j39135742001578_2_alg».proof.Proof.RefConsts
import Idealize.ShloMosaic.Lib.ReduceAll
import Idealize.ShloMosaic.PureOps.Ideal.Laws

noncomputable section

namespace Cert.Rbf.Ref

open Idealize.ShloMosaic Idealize.ShloMosaic.ValueIdx

/-- An extended real whose absolute value compares below +∞ is a real number. -/
theorem real_of_abs_lt (v : EReal)
    (h : Ideal.cmp .olt (max v (-v)) (Ideal.ofBits .f32 0x7F800000#32) = 1#1) : ∃ r : ℝ, v = (r : EReal) := by
  rw [inf_eq] at h
  induction v using EReal.rec with
  | bot => simp [Ideal.cmp] at h
  | top => simp [Ideal.cmp] at h
  | coe r => exact ⟨r, rfl⟩

/-- Under the precondition every element of both arrays is a real number. -/
theorem finite_of_pre [Cert.Pre_finite_inputs.Facts] (x y : Cert.Rbf.Arr)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨h1, h2⟩ := IntOp.andi_eq_one.1 h0
  constructor
  · intro i
    exact real_of_abs_lt (x i) (Host.reduce_andi_eq_one _ _ _ _ _ h1 i (funext fun d => d.elim0))
  · intro i
    exact real_of_abs_lt (y i) (Host.reduce_andi_eq_one _ _ _ _ _ h2 i (funext fun d => d.elim0))

end Cert.Rbf.Ref

end
-- ==== Proof.RefValue.lean ====
/-
  The reference is the specification.  For arrays of real numbers the reference program's result is
  `Cert.Rbf.result`: each of its three blocks sums, over all pairs of rows, the entry
  exp (−γ · max (‖a_r‖² + ‖b_q‖² − 2 · Σ_d a(r,d) · b(q,d), 0)), which for real rows is the specification's entry; the sum
  over the 8192 × 8192 index set is the double sum over rows; and the scalar tail differs only in
  2 · (T / N²) = (2 · T) / N², which holds on every extended real because division by the real N² is a product.
-/
import proofs.«139631_j39135742001578_2_alg».proof.Proof.RefRead
import proofs.«139631_j39135742001578_2_alg».proof.Proof.RefReal
import proofs.«139631_j39135742001578_2_alg».proof.Proof.RefFinite

noncomputable section

open scoped BigOperators

namespace Cert.Rbf.Ref

open Idealize.ShloMosaic Idealize.ShloMosaic.ValueIdx Cert.ReferenceIdeal Cert.ReferenceIdeal.Read

/-- The sum of a block's stage over all pairs of rows is the specification's total, for rows of real numbers. -/
theorem sum_v61 (a b : Cert.Rbf.Arr) (ha : ∀ i, ∃ r : ℝ, a i = (r : EReal)) (hb : ∀ i, ∃ r : ℝ, b i = (r : EReal)) :
    ∑ j : S8192x8192.Idx, val_main_v61 (F := Ideal) a b j = Cert.Rbf.total a b := by
  rw [sum_idx2]
  unfold Cert.Rbf.total Cert.Rbf.rowSum
  exact Finset.sum_congr rfl fun r _ => Finset.sum_congr rfl fun q _ =>
    (v61_read a b r q).trans (entry_of_real a b ha hb r q)

/-- Twice a quotient by N² is the quotient of the double: division by the real N² is a product. -/
theorem two_mul_div (T : EReal) :
    Cert.Rbf.two * Ideal.div T Cert.Rbf.nSq = Ideal.div (Cert.Rbf.two * T) Cert.Rbf.nSq := by
  rw [nSq_eq, Ideal.div_coe (by norm_num), Ideal.div_coe (by norm_num), mul_assoc]

/-- For arrays of real numbers the reference program's result is the specification's. -/
theorem ref_eq [Cert.ReferenceIdeal.Facts] (x y : Cert.Rbf.Arr) (hx : ∀ i, ∃ r : ℝ, x i = (r : EReal))
    (hy : ∀ i, ∃ r : ℝ, y i = (r : EReal)) :
    Cert.ReferenceIdeal.Read.val_main_v65 (F := Ideal) x y = fun _ => Cert.Rbf.result x y := by
  funext i
  rw [val_main_v65_apply, val_main_v42_apply, val_main_v20_apply, val_main_v41_apply, val_main_v64_apply,
    val_main_v63_apply, val_main_v19_apply, val_main_v40_apply, val_main_v62_apply, v18_eq x, v39_eq y,
    sum_v61 x x hx hx, sum_v61 y y hy hy, sum_v61 x y hx hy]
  simp only [val_main_cst_4_apply, val_main_cst_5_apply, val_main_cst_11_apply, val_main_cst_12_apply,
    val_main_cst_18_apply, val_main_cst_19_apply, val_main_cst_20_apply, Ideal.ofBits_def, Ideal.ofBits_zero_f32,
    zero_add, Ideal.addf_def, Ideal.subf_def, Ideal.mulf_def, Ideal.hostDivf_def]
  show Ideal.div (Cert.Rbf.total x x) Cert.Rbf.nSq + Ideal.div (Cert.Rbf.total y y) Cert.Rbf.nSq
      - Cert.Rbf.two * Ideal.div (Cert.Rbf.total x y) Cert.Rbf.nSq = Cert.Rbf.result x y
  rw [two_mul_div]
  rfl

end Cert.Rbf.Ref

end
-- ==== Proof.lean ====
/-
  The certificate's five claims for the maximum-mean-discrepancy kernel.

  The kernel program runs the same row-sum kernel three times — on (x, x), (y, y) and (x, y) — each call leaving the
  column of row sums of the Gaussian kernel matrix exp(−γ‖x_r − y_q‖²) (γ = 1/256), accumulated tile by tile over an
  8 × 8 grid; the host then sums each column, divides by N² = 8192² and combines the three means. The reference
  computes the same three means from the full 8192 × 8192 matrices. Both equal `Cert.Rbf.result x y` (Proof/Spec.lean):
  the kernel side by reading each call's stores point by point (the accumulator after the j-th tile of a row is the sum of
  the row's first j + 1 tiles), the reference side through the real-number identity
  −γ · max(a + b − 2s, 0) = min(a·(−γ) + b·(−γ) + 2γ·s, 0), which is where the inputs' finiteness is used.
  The three frames are the runs themselves with the result forgotten; the idealization rewrote nothing.
-/
import proofs.«139631_j39135742001578_2_alg».proof.Defs
import proofs.«139631_j39135742001578_2_alg».proof.Proof.Gen.Kernel
import proofs.«139631_j39135742001578_2_alg».proof.Proof.Gen.KernelIdeal
import proofs.«139631_j39135742001578_2_alg».proof.Proof.Gen.ReferenceIdeal
import proofs.«139631_j39135742001578_2_alg».proof.Proof.Gen.Pre_finite_inputs
import proofs.«139631_j39135742001578_2_alg».proof.Proof.Gen.ReferenceIdeal.Run
import proofs.«139631_j39135742001578_2_alg».proof.Proof.KBRunValue
import proofs.«139631_j39135742001578_2_alg».proof.Proof.Bridge
import proofs.«139631_j39135742001578_2_alg».proof.Proof.RefValue
import Idealize.ShloMosaic.Adequacy
import Idealize.ShloMosaic.Init

noncomputable section

namespace Cert.Proof

open Idealize.ShloMosaic Idealize.SL.Sem

/-- The word-level kernel program runs to its end with its arguments unchanged. -/
theorem frame_kernel : Cert.frame_Kernel (hKernel := Cert.Kernel.Gen.facts) (hPre_finite_inputs := Cert.Pre_finite_inputs.Gen.facts) :=
  fun m ρ _ => (θ_run (Cert.Kernel.defs (F := Bits)) _ _).mono (fun _ h c => ⟨(h c).2.1, (h c).2.2⟩)
    (Cert.Kernel.Whole.run_result (F := Bits) m ρ)

/-- So does the idealized kernel program. -/
theorem frame_kernelIdeal : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => ⟨(h c).2.1, (h c).2.2⟩)
    (Cert.KernelIdeal.Whole.run_result (F := Ideal) m ρ)

/-- And the idealized reference. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- Both idealized programs end with `Cert.Rbf.result` of the two arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Rbf.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.Rbf.Bridge.kernel_value m c), (h c).2.1, (h c).2.2⟩)
      (Cert.KernelIdeal.Whole.run_result (F := Ideal) m ρ)
  · refine (θ_run (Cert.ReferenceIdeal.defs (F := Ideal)) _ _).mono (fun _ h c => ⟨?_, (h c).2⟩)
      (Cert.ReferenceIdeal.Value.run (F := Ideal) m' ρ')
    have hfin := @Cert.Rbf.Ref.finite_of_pre Cert.Pre_finite_inputs.Gen.facts _ _ (hpre c)
    rw [(h c).1, Cert.ReferenceIdeal.Read.val_main_v65_eq, (hagree c).1, (hagree c).2]
    exact Cert.Rbf.Ref.ref_eq _ _ hfin.1 hfin.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
